-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S8192 .f32) (main_arg1 : FVec F S8192 .f32) (main_arg2 : FVec F S8192 .f32) (main_arg3 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩
abbrev S1x1 : Shape := ⟨2, ![1, 1]⟩

abbrev nBuf : Space → Nat
  | .hbm => 82
  | .vmem => 45
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .i1⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S1x8192, .f32⟩
  | .hbm, ⟨34, _⟩ => ⟨S8192x1, .f32⟩
  | .hbm, ⟨35, _⟩ => ⟨S1x8192, .f32⟩
  | .hbm, ⟨36, _⟩ => ⟨S1x8192, .f32⟩
  | .hbm, ⟨37, _⟩ => ⟨S8192x1, .f32⟩
  | .hbm, ⟨38, _⟩ => ⟨S8192x1, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x1, .f32⟩
  | .hbm, ⟨52, _⟩ => ⟨S1x1, .f32⟩
  | .hbm, ⟨53, _⟩ => ⟨S1x8192, .f32⟩
  | .hbm, ⟨54, _⟩ => ⟨S1x8192, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x1024, .f32⟩
  | .local _ .vmem, ⟨3, _⟩ => ⟨S1x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S1x1024, .f32⟩
  | .local _ .vmem, ⟨19, _⟩ => ⟨S1x1024, .f32⟩
  | .local _ .vmem, ⟨20, _⟩ => ⟨S512x1, .f32⟩
  | .local _ .vmem, ⟨21, _⟩ => ⟨S512x1, .f32⟩
  | .local _ .vmem, ⟨22, _⟩ => ⟨S1x1024, .f32⟩
  | .local _ .vmem, ⟨23, _⟩ => ⟨S1x1024, .f32⟩
  | .local _ .vmem, ⟨24, _⟩ => ⟨S512x1, .f32⟩
  | .local _ .vmem, ⟨25, _⟩ => ⟨S512x1, .f32⟩
  | .local _ .vmem, ⟨26, _⟩ => ⟨S1x1024, .f32⟩
  | .local _ .vmem, ⟨27, _⟩ => ⟨S1x1024, .f32⟩
  | .local _ .vmem, ⟨28, _⟩ => ⟨S512x1, .f32⟩
  | .local _ .vmem, ⟨29, _⟩ => ⟨S512x1, .f32⟩
  | .local _ .vmem, ⟨30, _⟩ => ⟨S1x1024, .f32⟩
  | .local _ .vmem, ⟨31, _⟩ => ⟨S1x1024, .f32⟩
  | .local _ .vmem, ⟨32, _⟩ => ⟨S1x1, .f32⟩
  | .local _ .vmem, ⟨33, _⟩ => ⟨S1x1, .f32⟩
  | .local _ .vmem, ⟨34, _⟩ => ⟨S1x1024, .f32⟩
  | .local _ .vmem, ⟨35, _⟩ => ⟨S1x1024, .f32⟩
  | .local _ .vmem, ⟨36, _⟩ => ⟨S512x1, .f32⟩
  | .local _ .vmem, ⟨37, _⟩ => ⟨S512x1, .f32⟩
  | .local _ .vmem, ⟨38, _⟩ => ⟨S512x1, .f32⟩
  | .local _ .vmem, ⟨39, _⟩ => ⟨S512x1, .f32⟩
  | .local _ .vmem, ⟨40, _⟩ => ⟨S512x1, .f32⟩
  | .local _ .vmem, ⟨41, _⟩ => ⟨S512x1, .f32⟩
  | .local _ .vmem, ⟨42, _⟩ => ⟨S512x1, .f32⟩
  | .local _ .vmem, ⟨43, _⟩ => ⟨S512x1, .f32⟩
  | .local _ .vmem, ⟨44, _⟩ => ⟨S512x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41_0 : Ref sig .tc := ⟨.hbm, 55, rfl⟩
abbrev main_v41_1 : Ref sig .tc := ⟨.hbm, 56, rfl⟩
abbrev main_v41_2 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_scratch0 : Ref sig .tc := ⟨.vmem, 42, rfl⟩
abbrev cc1_scratch1 : Ref sig .tc := ⟨.vmem, 43, rfl⟩
abbrev cc1_scratch2 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem9_0 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem12_1 : DmaSem sig := 37
abbrev cc1_sem13_0 : DmaSem sig := 38
abbrev cc1_sem13_1 : DmaSem sig := 39

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_36 : BitVec 32 := 0#32
  let v77 : BitVec 1 := Scalar.cmpi .ne v76 c0_i32_36
  v77

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![false, true]

abbrev stage1_11 : Fin 2 → Memref sig .tc .vmem S512x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S512x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S512x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

class Facts₀ : Prop where
  bcast_S_S8192 : S_.BroadcastsInDim S8192 (![] : Fin 0 → Fin S8192.rank)
  reducesTo_S8192_S_d0 : S8192.ReducesTo [0] S_
  h_S_ : 0 < S_.numel
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  shapeCasts_S8192x1_S8192 : S8192x1.ShapeCasts S8192
  shapeCasts_S_S1x1 : S_.ShapeCasts S1x1
  shapeCasts_S8192x1_S1x8192 : S8192x1.ShapeCasts S1x8192
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .f32 = 32 ∨ (Rect.block (s := S8192x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x8192.size a
  hwx1_5 : ∀ i : grid1.Coords, EltTy.bits .f32 = 32 ∨ (Rect.block (s := S1x8192) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S8192x1.size a
  hwx1_6 : ∀ i : grid1.Coords, EltTy.bits .f32 = 32 ∨ (Rect.block (s := S8192x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x8192.size a
  hwx1_7 : ∀ i : grid1.Coords, EltTy.bits .f32 = 32 ∨ (Rect.block (s := S1x8192) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1024.size a ≤ S1x8192.size a
  hwx1_10 : ∀ i : grid1.Coords, EltTy.bits .f32 = 32 ∨ (Rect.block (s := S1x8192) S1x1024.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x1.size a ≤ S8192x1.size a
  hwx1_11 : ∀ i : grid1.Coords, EltTy.bits .f32 = 32 ∨ (Rect.block (s := S8192x1) S512x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S512x1.size a ≤ S8192x1.size a
  hwx1_12 : ∀ i : grid1.Coords, EltTy.bits .f32 = 32 ∨ (Rect.block (s := S8192x1) S512x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S512x1.size a ≤ S8192x1.size a
  hwx1_13 : ∀ i : grid1.Coords, EltTy.bits .f32 = 32 ∨ (Rect.block (s := S8192x1) S512x1.size (cc1_transform_13 i) (hinb1_13 i)).WholeWords (EltTy.packing .f32)

variable [Facts₀]

abbrev win0_0 : Pipeline.Window sig grid0 :=
  Pipeline.Window.ofSpec (Memref.whole main_v23) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v23) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28_1) S512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x1024.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v37) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v27) S1x1024.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v41_0) S512x1.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v41_1) S512x1.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v41_2) S512x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev idle1 : Fin 14 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k1_cond2 i == 1#1) | 12 => fun i => !(k1_cond2 i == 1#1) | 13 => fun i => !(k1_cond2 i == 1#1) | ⟨_ + 14, h⟩ => absurd h (Nat.not_lt.2 (Nat.le_add_left _ _))

class Facts : Prop extends Facts₀ where

variable [Facts]
-- ==== ReferenceIdeal.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 134
  | .vmem => 0
  | .smem => 0
  | _ => 0

abbrev hbmTy0_0 (i : Nat) : BufTy := match i % 128 with
  | 0 => ⟨S8192, .f32⟩
  | 1 => ⟨S8192, .f32⟩
  | 2 => ⟨S8192, .f32⟩
  | 3 => ⟨S8192, .f32⟩
  | 4 => ⟨S_, .f32⟩
  | 5 => ⟨S8192, .f32⟩
  | 6 => ⟨S8192, .f32⟩
  | 7 => ⟨S8192, .f32⟩
  | 8 => ⟨S8192, .f32⟩
  | 9 => ⟨S8192, .i1⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S8192, .f32⟩
  | 20 => ⟨S8192, .f32⟩
  | 21 => ⟨S_, .f32⟩
  | 22 => ⟨S_, .f32⟩
  | 23 => ⟨S_, .f32⟩
  | 24 => ⟨S_, .f32⟩
  | 25 => ⟨S_, .f32⟩
  | 26 => ⟨S8192, .f32⟩
  | 27 => ⟨S8192, .f32⟩
  | 28 => ⟨S_, .f32⟩
  | 29 => ⟨S_, .f32⟩
  | 30 => ⟨S8192, .f32⟩
  | 31 => ⟨S8192, .f32⟩
  | 32 => ⟨S8192x1, .f32⟩
  | 33 => ⟨S1x8192, .f32⟩
  | 34 => ⟨S8192x8192, .f32⟩
  | 35 => ⟨S8192x8192, .f32⟩
  | 36 => ⟨S8192x8192, .f32⟩
  | 37 => ⟨S8192x8192, .f32⟩
  | 38 => ⟨S8192x1, .f32⟩
  | 39 => ⟨S1x8192, .f32⟩
  | 40 => ⟨S8192x8192, .f32⟩
  | 41 => ⟨S8192x8192, .f32⟩
  | 42 => ⟨S8192x8192, .f32⟩
  | 43 => ⟨S8192x8192, .f32⟩
  | 44 => ⟨S1x8192, .f32⟩
  | 45 => ⟨S8192x8192, .f32⟩
  | 46 => ⟨S8192x8192, .f32⟩
  | 47 => ⟨S_, .f32⟩
  | 48 => ⟨S8192, .f32⟩
  | 49 => ⟨S_, .f32⟩
  | 50 => ⟨S8192, .f32⟩
  | 51 => ⟨S8192, .f32⟩
  | 52 => ⟨S1x8192, .f32⟩
  | 53 => ⟨S8192x8192, .f32⟩
  | 54 => ⟨S8192x8192, .f32⟩
  | 55 => ⟨S8192x1, .f32⟩
  | 56 => ⟨S8192x8192, .f32⟩
  | 57 => ⟨S8192x8192, .f32⟩
  | 58 => ⟨S8192, .f32⟩
  | 59 => ⟨S_, .f32⟩
  | 60 => ⟨S_, .f32⟩
  | 61 => ⟨S_, .f32⟩
  | 62 => ⟨S_, .f32⟩
  | 63 => ⟨S8192x8192, .f32⟩
  | 64 => ⟨S8192x8192, .f32⟩
  | 65 => ⟨S1x8192, .f32⟩
  | 66 => ⟨S8192x8192, .f32⟩
  | 67 => ⟨S8192x8192, .f32⟩
  | 68 => ⟨S_, .f32⟩
  | 69 => ⟨S8192, .f32⟩
  | 70 => ⟨S_, .f32⟩
  | 71 => ⟨S8192, .f32⟩
  | 72 => ⟨S8192, .f32⟩
  | 73 => ⟨S1x8192, .f32⟩
  | 74 => ⟨S8192x8192, .f32⟩
  | 75 => ⟨S8192x8192, .f32⟩
  | 76 => ⟨S8192x1, .f32⟩
  | 77 => ⟨S8192x8192, .f32⟩
  | 78 => ⟨S8192x8192, .f32⟩
  | 79 => ⟨S8192, .f32⟩
  | 80 => ⟨S_, .f32⟩
  | 81 => ⟨S_, .f32⟩
  | 82 => ⟨S_, .f32⟩
  | 83 => ⟨S_, .f32⟩
  | 84 => ⟨S8192x8192, .f32⟩
  | 85 => ⟨S8192x8192, .f32⟩
  | 86 => ⟨S8192x8192, .f32⟩
  | 87 => ⟨S1x8192, .f32⟩
  | 88 => ⟨S8192x8192, .f32⟩
  | 89 => ⟨S8192x8192, .f32⟩
  | 90 => ⟨S_, .f32⟩
  | 91 => ⟨S8192, .f32⟩
  | 92 => ⟨S_, .f32⟩
  | 93 => ⟨S8192, .f32⟩
  | 94 => ⟨S8192, .f32⟩
  | 95 => ⟨S8192x8192, .f32⟩
  | 96 => ⟨S1x8192, .f32⟩
  | 97 => ⟨S8192x8192, .f32⟩
  | 98 => ⟨S8192x8192, .f32⟩
  | 99 => ⟨S_, .f32⟩
  | 100 => ⟨S8192, .f32⟩
  | 101 => ⟨S_, .f32⟩
  | 102 => ⟨S8192, .f32⟩
  | 103 => ⟨S8192, .f32⟩
  | 104 => ⟨S8192x8192, .f32⟩
  | 105 => ⟨S1x8192, .f32⟩
  | 106 => ⟨S8192x8192, .f32⟩
  | 107 => ⟨S8192x8192, .f32⟩
  | 108 => ⟨S_, .f32⟩
  | 109 => ⟨S8192, .f32⟩
  | 110 => ⟨S_, .f32⟩
  | 111 => ⟨S8192, .f32⟩
  | 112 => ⟨S8192, .f32⟩
  | 113 => ⟨S8192, .f32⟩
  | 114 => ⟨S_, .f32⟩
  | 115 => ⟨S_, .f32⟩
  | 116 => ⟨S_, .f32⟩
  | 117 => ⟨S_, .f32⟩
  | 118 => ⟨S8192, .f32⟩
  | 119 => ⟨S_, .f32⟩
  | 120 => ⟨S_, .f32⟩
  | 121 => ⟨S_, .f32⟩
  | 122 => ⟨S_, .f32⟩
  | 123 => ⟨S8192, .f32⟩
  | 124 => ⟨S_, .f32⟩
  | 125 => ⟨S_, .f32⟩
  | 126 => ⟨S_, .f32⟩
  | 127 => ⟨S_, .f32⟩
  | _ => ⟨S8192, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | _ => ⟨S8192, .f32⟩

abbrev hbmTy (i : Nat) : BufTy := match i / 128 with
  | 0 => hbmTy0_0 i
  | 1 => hbmTy0_1 i
  | _ => ⟨S8192, .f32⟩

abbrev bufTy : (tb : Table) → Fin (tcTables nBuf tb) → BufTy
  | .hbm, ⟨i, _⟩ => hbmTy i
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_10 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_12 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_14 : Ref sig .tc := ⟨.hbm, 99, rfl⟩
abbrev main_v80 : Ref sig .tc := ⟨.hbm, 100, rfl⟩
abbrev main_cst_15 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_16 : Ref sig .tc := ⟨.hbm, 108, rfl⟩
abbrev main_v87 : Ref sig .tc := ⟨.hbm, 109, rfl⟩
abbrev main_cst_17 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_18 : Ref sig .tc := ⟨.hbm, 114, rfl⟩
abbrev main_v91 : Ref sig .tc := ⟨.hbm, 115, rfl⟩
abbrev main_cst_19 : Ref sig .tc := ⟨.hbm, 116, rfl⟩
abbrev main_v92 : Ref sig .tc := ⟨.hbm, 117, rfl⟩
abbrev main_v93 : Ref sig .tc := ⟨.hbm, 118, rfl⟩
abbrev main_cst_20 : Ref sig .tc := ⟨.hbm, 119, rfl⟩
abbrev main_v94 : Ref sig .tc := ⟨.hbm, 120, rfl⟩
abbrev main_cst_21 : Ref sig .tc := ⟨.hbm, 121, rfl⟩
abbrev main_v95 : Ref sig .tc := ⟨.hbm, 122, rfl⟩
abbrev main_v96 : Ref sig .tc := ⟨.hbm, 123, rfl⟩
abbrev main_cst_22 : Ref sig .tc := ⟨.hbm, 124, rfl⟩
abbrev main_v97 : Ref sig .tc := ⟨.hbm, 125, rfl⟩
abbrev main_cst_23 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_24 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  reducesTo_S8192_S_d0 : S8192.ReducesTo [0] S_
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192x8192 : S_.BroadcastsInDim S8192x8192 (![] : Fin 0 → Fin S8192x8192.rank)

variable [Facts₀]

class Facts : Prop extends Facts₀ where

variable [Facts]
-- ==== Proof.KB.R0Kit.lean ====
/-
  Region 0 (the first pass: row sums of |x_i - x_l| * w_l, tile by tile): what its runs share.
  The block of each window at a grid point read off the array the region finds; that an input window's
  staging buffer holds that block at every point; the two branch conditions in closed form over the
  grid (the column-tile index is 0; it is 7); where the two output windows are idle; the scratch
  operands as memrefs.
-/
import proofs.«174926_j17231408792190_1_alg».proof.Proof.Gen.Kernel.Launch
import proofs.«174926_j17231408792190_1_alg».proof.Proof.Gen.Kernel.Skeleton
import proofs.«174926_j17231408792190_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The column-tile index is 0: the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The column-tile index is 7: the row sums are divided and stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
/-- The two scratch accumulators: whole scoped buffers of the kernel's own. -/
abbrev scM0_0 : Memref sig .tc .vmem S512x1 .f32 := Memref.whole cc0_scratch0
abbrev scM0_1 : Memref sig .tc .vmem S512x1 .f32 := Memref.whole cc0_scratch1

/-- The class's invariant with the two scratch operands as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.KB.R0Data.lean ====
/-
  Region 0: what the two accumulators hold after each grid point, and the region's proof data.
  A grid point is (row tile, column tile), 8 column tiles per row tile, visited row tile by row tile.
  At column tile 0 the accumulators restart from zero; at every tile they grow by that tile's row sums
  (of |x_i - x_l| * w_l and |y_i - y_l| * w_l over the tile's 1024 columns); at column tile 7 the two
  output blocks take the accumulators divided by 8192.
-/
import proofs.«174926_j17231408792190_1_alg».proof.Proof.KB.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One tile's update of the two accumulators, from the five input blocks. -/
def step0 (x0 : Vec F S512x1 .f32) (x1 : Vec F S1x1024 .f32) (x2 : Vec F S512x1 .f32) (x3 : Vec F S1x1024 .f32) (x4 : Vec F S1x1024 .f32)
    (s : Vec F S512x1 .f32 × Vec F S512x1 .f32) : Vec F S512x1 .f32 × Vec F S512x1 .f32 :=
  (k0_pay7 x0 x1 x4 s.1, k0_pay1 (k0_pay8 x2 x3 x4 s.2))

/-- The accumulators as the reset leaves them. -/
def zero0 : Vec F S512x1 .f32 × Vec F S512x1 .f32 := (k0_pay4, k0_pay5)

variable (V : (c : Dev nD) → (b : Ref sig .tc) → Buf (Elt F) ((c : Thread nD τ).loc b))

/-- One tile's update at grid point `t`, on the blocks the region finds there. -/
def stepAt0 (c : Dev nD) (t : Fin cfg0.N) (s : Vec F S512x1 .f32 × Vec F S512x1 .f32) : Vec F S512x1 .f32 × Vec F S512x1 .f32 :=
  step0 (iblk0 V c 0 t) (iblk0 V c 1 t) (iblk0 V c 2 t) (iblk0 V c 3 t) (iblk0 V c 4 t) s

/-- The two accumulators after grid point `n`. -/
def acc0 (c : Dev nD) : (n : ℕ) → n < cfg0.N → Vec F S512x1 .f32 × Vec F S512x1 .f32
  | 0, hn => stepAt0 V c ⟨0, hn⟩ zero0
  | n + 1, hn => if (n + 1) % 8 = 0 then stepAt0 V c ⟨n + 1, hn⟩ zero0 else stepAt0 V c ⟨n + 1, hn⟩ (acc0 c n (Nat.lt_of_succ_lt hn))

theorem acc0_reset (c : Dev nD) (t : Fin cfg0.N) (h : t.val % 8 = 0) : acc0 V c t.val t.isLt = stepAt0 V c t zero0 := by
  obtain ⟨n, hn⟩ := t
  cases n with
  | zero => rfl
  | succ n => exact if_pos h

theorem acc0_grow (c : Dev nD) (t : Fin cfg0.N) (h : ¬t.val % 8 = 0) :
    acc0 V c t.val t.isLt = stepAt0 V c t (acc0 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point every scratch buffer at anything;
    afterwards the two accumulators at what the point before left. -/
def PhiS0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (acc0 V c (n - 1) (by omega)).1 ∗ owns (c : Thread nD τ) scM0_1 fullShare (acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The proof data of region 0 on core `c`: the arrays as the region finds them; each input's buffer at its block;
    the two outputs' at the accumulators after the point divided by 8192; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (acc0 V c t.val t.isLt).1
    | ⟨6, _⟩ => k0_pay3 (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (acc0 V c t.val t.isLt).1 := by dsimp only [dat0]
theorem after0_6 (c : Dev nD) (t : Fin cfg0.N) : (dat0 V c).after 6 t = k0_pay3 (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.Kernel.Hand

end
-- ==== Proof.KB.R1Kit.lean ====
/-
  Region 1 (the second pass: row sums of the products of the doubly centred distance matrices, tile by tile):
  what its runs share. The block of each window at a grid point read off the array the region finds; that an
  input window's staging buffer holds that block at every point; the two branch conditions in closed form over
  the grid; where the three output windows are idle; the scratch operands as memrefs.
-/
import proofs.«174926_j17231408792190_1_alg».proof.Proof.Gen.Kernel.Launch
import proofs.«174926_j17231408792190_1_alg».proof.Proof.Gen.Kernel.Skeleton
import proofs.«174926_j17231408792190_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The column-tile index is 0: the accumulators are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The column-tile index is 7: the row sums are divided and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
theorem liveAt1_11 : ∀ t : Fin cfg1.N, cond1_1 (grid1.coords t) → cfg1.idle 11 (grid1.coords t) = false := by decide +kernel
theorem idleAt1_12 : ∀ t : Fin cfg1.N, ¬cond1_1 (grid1.coords t) → cfg1.idle 12 (grid1.coords t) = true := by decide +kernel
theorem noFlush1_12 : ∀ t : Fin cfg1.N, ¬cond1_1 (grid1.coords t) → (cfg1.win 12).flush t = false := by decide +kernel
theorem liveAt1_12 : ∀ t : Fin cfg1.N, cond1_1 (grid1.coords t) → cfg1.idle 12 (grid1.coords t) = false := by decide +kernel
theorem idleAt1_13 : ∀ t : Fin cfg1.N, ¬cond1_1 (grid1.coords t) → cfg1.idle 13 (grid1.coords t) = true := by decide +kernel
theorem noFlush1_13 : ∀ t : Fin cfg1.N, ¬cond1_1 (grid1.coords t) → (cfg1.win 13).flush t = false := by decide +kernel
theorem liveAt1_13 : ∀ t : Fin cfg1.N, cond1_1 (grid1.coords t) → cfg1.idle 13 (grid1.coords t) = false := by decide +kernel

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev ms1_8 (t : Fin cfg1.N) := win1_8.stage (cfg1.slots t 8)
abbrev hs1_8 (t : Fin cfg1.N) : (ms1_8 t).IsWhole := hstage1_8 ((cfg1.slots t 8).cast nbuf1_8)
abbrev ms1_9 (t : Fin cfg1.N) := win1_9.stage (cfg1.slots t 9)
abbrev hs1_9 (t : Fin cfg1.N) : (ms1_9 t).IsWhole := hstage1_9 ((cfg1.slots t 9).cast nbuf1_9)
abbrev ms1_10 (t : Fin cfg1.N) := win1_10.stage (cfg1.slots t 10)
abbrev hs1_10 (t : Fin cfg1.N) : (ms1_10 t).IsWhole := hstage1_10 ((cfg1.slots t 10).cast nbuf1_10)
abbrev ms1_11 (t : Fin cfg1.N) := win1_11.stage (cfg1.slots t 11)
abbrev hs1_11 (t : Fin cfg1.N) : (ms1_11 t).IsWhole := hstage1_11 ((cfg1.slots t 11).cast nbuf1_11)
abbrev ms1_12 (t : Fin cfg1.N) := win1_12.stage (cfg1.slots t 12)
abbrev hs1_12 (t : Fin cfg1.N) : (ms1_12 t).IsWhole := hstage1_12 ((cfg1.slots t 12).cast nbuf1_12)
abbrev ms1_13 (t : Fin cfg1.N) := win1_13.stage (cfg1.slots t 13)
abbrev hs1_13 (t : Fin cfg1.N) : (ms1_13 t).IsWhole := hstage1_13 ((cfg1.slots t 13).cast nbuf1_13)
/-- The scratch accumulators: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

/-- The region's scoped buffers that no window stages, split at the kernel's own scratch operands. -/
theorem scopedRest1_hsplit (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
          ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

/-- The class's invariant with the scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_hsplit]; simp only [scM1_0, scM1_1, scM1_2, owns_whole]; try rfl

end Cert.Kernel.Hand

end
-- ==== Proof.KB.R1Data.lean ====
/-
  Region 1: what the three accumulators hold after each grid point, and the region's proof data.
  At column tile 0 the accumulators restart from zero; at every tile they grow by that tile's row sums of
  A*B*w, A*A*w and B*B*w, where A and B are the centred distance blocks; at column tile 7 the three output
  blocks take the accumulators divided by 8192.
-/
import proofs.«174926_j17231408792190_1_alg».proof.Proof.KB.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One tile's update of the accumulators, from the input blocks. -/
def step1 (x0 : Vec F S512x1 .f32) (x1 : Vec F S1x1024 .f32) (x2 : Vec F S512x1 .f32) (x3 : Vec F S1x1024 .f32) (x4 : Vec F S512x1 .f32) (x5 : Vec F S1x1024 .f32) (x6 : Vec F S512x1 .f32) (x7 : Vec F S1x1024 .f32) (x8 : Vec F S1x1 .f32) (x9 : Vec F S1x1 .f32) (x10 : Vec F S1x1024 .f32)
    (s : Vec F S512x1 .f32 × Vec F S512x1 .f32 × Vec F S512x1 .f32) : Vec F S512x1 .f32 × Vec F S512x1 .f32 × Vec F S512x1 .f32 :=
  ((k1_pay17 (k1_pay7 x2) (k1_pay8 x3) (k1_pay9 x6) (k1_pay10 x7) (k1_pay11 x8) (k1_pay12 x9) (k1_pay13 x10) (k1_pay14 x0 x1 x4 x5) s.1), (k1_pay18 (k1_pay11 x8) (k1_pay13 x10) (k1_pay14 x0 x1 x4 x5) s.2.1), (k1_pay19 (k1_pay7 x2) (k1_pay8 x3) (k1_pay9 x6) (k1_pay10 x7) (k1_pay12 x9) (k1_pay13 x10) s.2.2))

/-- The accumulators as the reset leaves them. -/
def zero1 : Vec F S512x1 .f32 × Vec F S512x1 .f32 × Vec F S512x1 .f32 := (k1_pay4 (F := F), k1_pay5 (F := F), k1_pay6 (F := F))

variable (V : (c : Dev nD) → (b : Ref sig .tc) → Buf (Elt F) ((c : Thread nD τ).loc b))

/-- One tile's update at grid point `t`, on the blocks the region finds there. -/
def stepAt1 (c : Dev nD) (t : Fin cfg1.N) (s : Vec F S512x1 .f32 × Vec F S512x1 .f32 × Vec F S512x1 .f32) : Vec F S512x1 .f32 × Vec F S512x1 .f32 × Vec F S512x1 .f32 :=
  step1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) s

/-- The accumulators after grid point `n`. -/
def acc1 (c : Dev nD) : (n : ℕ) → n < cfg1.N → Vec F S512x1 .f32 × Vec F S512x1 .f32 × Vec F S512x1 .f32
  | 0, hn => stepAt1 V c ⟨0, hn⟩ zero1
  | n + 1, hn => if (n + 1) % 8 = 0 then stepAt1 V c ⟨n + 1, hn⟩ zero1 else stepAt1 V c ⟨n + 1, hn⟩ (acc1 c n (Nat.lt_of_succ_lt hn))

theorem acc1_reset (c : Dev nD) (t : Fin cfg1.N) (h : t.val % 8 = 0) : acc1 V c t.val t.isLt = stepAt1 V c t zero1 := by
  obtain ⟨n, hn⟩ := t
  cases n with
  | zero => rfl
  | succ n => exact if_pos h

theorem acc1_grow (c : Dev nD) (t : Fin cfg1.N) (h : ¬t.val % 8 = 0) :
    acc1 V c t.val t.isLt = stepAt1 V c t (acc1 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point every scratch buffer at anything;
    afterwards the accumulators at what the point before left. -/
def PhiS1 (c : Dev nD) : (n : ℕ) → n ≤ cfg1.N → sProp 𝕄
  | 0, _ => Pipeline.ΦA spec1 c
  | n + 1, hn => iprop(iprop(iprop(owns (c : Thread nD τ) scM1_0 fullShare (acc1 V c n hn).1 ∗ owns (c : Thread nD τ) scM1_1 fullShare (acc1 V c n hn).2.1 ∗ owns (c : Thread nD τ) scM1_2 fullShare (acc1 V c n hn).2.2)
      ∗ Pipeline.scopedRestBut (Ix := Unit) (Name := ℕ) (U := UR sig nD τ) (Lvl := ℕ) (Val := Elt F) spec1 c [cc1_scratch0, cc1_scratch1, cc1_scratch2]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (acc1 V c n hn).1 ∗ owns (c : Thread nD τ) scM1_1 fullShare (acc1 V c n hn).2.1 ∗ owns (c : Thread nD τ) scM1_2 fullShare (acc1 V c n hn).2.2)
      ∗ Pipeline.scopedRestBut (Ix := Unit) (Name := ℕ) (U := UR sig nD τ) (Lvl := ℕ) (Val := Elt F) spec1 c [cc1_scratch0, cc1_scratch1, cc1_scratch2]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (acc1 V c (n - 1) (by omega)).1 ∗ owns (c : Thread nD τ) scM1_1 fullShare (acc1 V c (n - 1) (by omega)).2.1 ∗ owns (c : Thread nD τ) scM1_2 fullShare (acc1 V c (n - 1) (by omega)).2.2)
      ∗ Pipeline.scopedRestBut (Ix := Unit) (Name := ℕ) (U := UR sig nD τ) (Lvl := ℕ) (Val := Elt F) spec1 c [cc1_scratch0, cc1_scratch1, cc1_scratch2]) ∗ (∃ r, prngReg c r)) := by
  cases n with
  | zero => exact absurd rfl hz
  | succ n => rfl

/-- The region's proof data on core `c`: the arrays as the region finds them; each input's buffer at its block;
    the outputs' at the accumulators after the point divided by 8192; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (k1_pay1 (acc1 V c t.val t.isLt).1)
    | ⟨12, _⟩ => (k1_pay2 (acc1 V c t.val t.isLt).2.1)
    | ⟨13, _⟩ => (k1_pay3 (acc1 V c t.val t.isLt).2.2)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (k1_pay1 (acc1 V c t.val t.isLt).1) := by dsimp only [dat1]
theorem after1_12 (c : Dev nD) (t : Fin cfg1.N) : (dat1 V c).after 12 t = (k1_pay2 (acc1 V c t.val t.isLt).2.1) := by dsimp only [dat1]
theorem after1_13 (c : Dev nD) (t : Fin cfg1.N) : (dat1 V c).after 13 t = (k1_pay3 (acc1 V c t.val t.isLt).2.2) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

end Cert.Kernel.Hand

end
-- ==== Proof.KB.Fold.lean ====
/-
  The contents of the unscoped buffers at each boundary of the program's five items (host operations, the first
  pass, host operations, the second pass, host operations), as a fold from the launch memory: a stretch of host
  operations applies them; a region leaves each of its arrays at what its write-backs leave and every other
  buffer as entered.
-/
import proofs.«174926_j17231408792190_1_alg».proof.Proof.KB.R0Data
import proofs.«174926_j17231408792190_1_alg».proof.Proof.KB.R1Data
import proofs.«174926_j17231408792190_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-- Every pipeline's proof data, each at its region's entry contents. -/
abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.Kernel.Hand

end
-- ==== Proof.KB.Cover.lean ====
/-
  A store through the whole [512,1] rectangle, made last, covers the buffer: what the read-back of a
  list of stores needs in order to be the last store's value.
-/
import proofs.«174926_j17231408792190_1_alg».proof.Proof.KB.R0Kit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by
  funext a; match a with | ⟨0, _⟩ => rfl | ⟨1, _⟩ => rfl

theorem coverC (w : S512x1.Idx → Elt F .f32) (L : List (View.Piece (Elt F) S512x1 .f32)) (y : S512x1.Idx) :
    ∃ p ∈ ((⟨Rect.unit (s := S512x1) ![0, 0] S512x1.size inb_S512x1_S512x1_0_0, w⟩ : View.Piece (Elt F) S512x1 .f32) :: L), y ∈ p.1.set :=
  ⟨_, List.mem_cons_self, View.mem_set_unit_zero hz2 inb_S512x1_S512x1_0_0 y⟩

end Cert.Kernel.Hand

end
-- ==== Proof.KB.R0RunA.lean ====
/-
  Region 0, the first column tile: the accumulators are reset to zero and then take the first tile's row sums;
  what they held before does not matter. The output blocks are left as found.
-/
import proofs.«174926_j17231408792190_1_alg».proof.Proof.KB.Cover

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run0_A (c : Dev nD) (i : grid0.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x1 .f32) (x1 : Vec F S1x1024 .f32) (x2 : Vec F S512x1 .f32) (x3 : Vec F S1x1024 .f32) (x4 : Vec F S1x1024 .f32) (d5 d6 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d5 ∗ owns (c : Thread nD τ) arg8 fullShare d6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ owns (c : Thread nD τ) arg9 fullShare (k0_pay7 x0 x1 x4 k0_pay4) ∗ owns (c : Thread nD τ) arg10 fullShare (k0_pay1 (k0_pay8 x2 x3 x4 k0_pay5))) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10) K := by
  simp only [cc0__pass1_kernel_eq_skeleton]; unfold cc0__pass1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, %hfs0, HS0⟩, ⟨%ds1, %fs1, %hfs1, HS1⟩, Hk⟩
  obtain rfl := harg2.eq_unread hf0; obtain rfl := harg3.eq_unread hf1; obtain rfl := harg4.eq_unread hf2; obtain rfl := harg5.eq_unread hf3; obtain rfl := harg6.eq_unread hf4

  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5; isplitr; · ipureintro; exact hf5
    iexact H5
  isplitl [H6]
  · iexists f6; isplitr; · ipureintro; exact hf6
    iexact H6
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]
  iexists _; isplitr
  swap; · iexact HS1
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]

end Cert.Kernel.Hand

end
-- ==== Proof.KB.R0RunB.lean ====
/-
  Region 0, a middle column tile (neither the first nor the last): on whole staging buffers holding the
  five input blocks and on the two accumulators holding s0, s1, the body leaves the accumulators at
  s0 + (row sums of |x0 - x1| * x4) and s1 + (row sums of |x2 - x3| * x4) and everything else as found.
-/
import proofs.«174926_j17231408792190_1_alg».proof.Proof.KB.Cover

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run0_B (c : Dev nD) (i : grid0.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x1 .f32) (x1 : Vec F S1x1024 .f32) (x2 : Vec F S512x1 .f32) (x3 : Vec F S1x1024 .f32) (x4 : Vec F S1x1024 .f32) (d5 d6 : Vec F S512x1 .f32) (s0 s1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d5 ∗ owns (c : Thread nD τ) arg8 fullShare d6 ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ owns (c : Thread nD τ) arg9 fullShare (k0_pay7 x0 x1 x4 s0) ∗ owns (c : Thread nD τ) arg10 fullShare (k0_pay1 (k0_pay8 x2 x3 x4 s1))) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10) K := by
  simp only [cc0__pass1_kernel_eq_skeleton]; unfold cc0__pass1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0; obtain rfl := harg10.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5; isplitr; · ipureintro; exact hf5
    iexact H5
  isplitl [H6]
  · iexists f6; isplitr; · ipureintro; exact hf6
    iexact H6
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]
  iexists _; isplitr
  swap; · iexact HS1
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]

end Cert.Kernel.Hand

end
-- ==== Proof.KB.R0RunC.lean ====
/-
  Region 0, the last column tile: the accumulators grow by the tile's row sums as at a middle tile, and the two
  output blocks take them divided by 8192.
-/
import proofs.«174926_j17231408792190_1_alg».proof.Proof.KB.Cover

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run0_C (c : Dev nD) (i : grid0.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x1 .f32) (x1 : Vec F S1x1024 .f32) (x2 : Vec F S512x1 .f32) (x3 : Vec F S1x1024 .f32) (x4 : Vec F S1x1024 .f32) (s0 s1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay2 (k0_pay7 x0 x1 x4 s0)) ∗ owns (c : Thread nD τ) arg8 fullShare (k0_pay3 (k0_pay1 (k0_pay8 x2 x3 x4 s1)))
            ∗ owns (c : Thread nD τ) arg9 fullShare (k0_pay7 x0 x1 x4 s0) ∗ owns (c : Thread nD τ) arg10 fullShare (k0_pay1 (k0_pay8 x2 x3 x4 s1))) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10) K := by
  simp only [cc0__pass1_kernel_eq_skeleton]; unfold cc0__pass1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0; obtain rfl := harg10.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]
  isplitl [H6]
  · iexists _; isplitr
    swap; · iexact H6
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]
  iexists _; isplitr
  swap; · iexact HS1
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]

end Cert.Kernel.Hand

end
-- ==== Proof.KB.R0Body.lean ====
/-
  Region 0: the body obligation at every grid point. A point is in one of three cases by its column tile
  (first, middle, last); in each the tile's run applies on the blocks the pipeline staged, the invariant
  hands the body the two accumulators at what the point before left (at anything at a first tile) and
  takes them back at this point's values.
-/
import proofs.«174926_j17231408792190_1_alg».proof.Proof.KB.R0Data
import proofs.«174926_j17231408792190_1_alg».proof.Proof.KB.R0RunA
import proofs.«174926_j17231408792190_1_alg».proof.Proof.KB.R0RunB
import proofs.«174926_j17231408792190_1_alg».proof.Proof.KB.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 8 = 0
  · have h1 : ¬t.val % 8 = 7 := by omega
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [acc0_reset V c t h0]
    unfold stepAt0 step0 zero0; dsimp only
    by_cases hz : t.val = 0
    · rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_A c (grid0.coords t) _ (hs0_0 t) _ (hs0_1 t) _ (hs0_2 t) _ (hs0_3 t) _ (hs0_4 t) _ (hs0_5 t) _ (hs0_6 t) _ (Memref.isWhole_whole _) _ (Memref.isWhole_whole _) ((hcond0_0 t).mpr h0) (fun h => h1 ((hcond0_1 t).mp h)) (iblk0 V c 0 t) (iblk0 V c 1 t) (iblk0 V c 2 t) (iblk0 V c 3 t) (iblk0 V c 4 t) ((dat0 V c).before 5 t d5) ((dat0 V c).before 6 t d6)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_A c (grid0.coords t) _ (hs0_0 t) _ (hs0_1 t) _ (hs0_2 t) _ (hs0_3 t) _ (hs0_4 t) _ (hs0_5 t) _ (hs0_6 t) _ (Memref.isWhole_whole _) _ (Memref.isWhole_whole _) ((hcond0_0 t).mpr h0) (fun h => h1 ((hcond0_1 t).mp h)) (iblk0 V c 0 t) (iblk0 V c 1 t) (iblk0 V c 2 t) (iblk0 V c 3 t) (iblk0 V c 4 t) ((dat0 V c).before 5 t d5) ((dat0 V c).before 6 t d6)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    by_cases h1 : t.val % 8 = 7
    · rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [acc0_grow V c t h0]
      unfold stepAt0 step0; dsimp only
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_C c (grid0.coords t) _ (hs0_0 t) _ (hs0_1 t) _ (hs0_2 t) _ (hs0_3 t) _ (hs0_4 t) _ (hs0_5 t) _ (hs0_6 t) _ (Memref.isWhole_whole _) _ (Memref.isWhole_whole _) (fun h => h0 ((hcond0_0 t).mp h)) ((hcond0_1 t).mpr h1) (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [acc0_grow V c t h0]
      unfold stepAt0 step0; dsimp only
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_B c (grid0.coords t) _ (hs0_0 t) _ (hs0_1 t) _ (hs0_2 t) _ (hs0_3 t) _ (hs0_4 t) _ (hs0_5 t) _ (hs0_6 t) _ (Memref.isWhole_whole _) _ (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) ((dat0 V c).before 5 t d5) ((dat0 V c).before 6 t d6) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end Cert.Kernel.Hand

end
-- ==== Proof.KB.R1RunA.lean ====
/-
  Region 1, the first column tile: the three accumulators are reset to zero and then take the first tile's row sums;
  what they held before does not matter. The output blocks are left as found.
-/
import proofs.«174926_j17231408792190_1_alg».proof.Proof.KB.Cover
import proofs.«174926_j17231408792190_1_alg».proof.Proof.KB.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run1_A (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (hc0 : cond1_0 i) (hc1 : ¬cond1_1 i)
    (x0 : Vec F S512x1 .f32) (x1 : Vec F S1x1024 .f32) (x2 : Vec F S512x1 .f32) (x3 : Vec F S1x1024 .f32) (x4 : Vec F S512x1 .f32) (x5 : Vec F S1x1024 .f32) (x6 : Vec F S512x1 .f32) (x7 : Vec F S1x1024 .f32) (x8 : Vec F S1x1 .f32) (x9 : Vec F S1x1 .f32) (x10 : Vec F S1x1024 .f32) (d0 d1 d2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ owns (c : Thread nD τ) arg13 fullShare d0 ∗ owns (c : Thread nD τ) arg14 fullShare d1 ∗ owns (c : Thread nD τ) arg15 fullShare d2 ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare d0 ∗ owns (c : Thread nD τ) arg14 fullShare d1 ∗ owns (c : Thread nD τ) arg15 fullShare d2
            ∗ owns (c : Thread nD τ) arg16 fullShare (k1_pay17 (k1_pay7 x2) (k1_pay8 x3) (k1_pay9 x6) (k1_pay10 x7) (k1_pay11 x8) (k1_pay12 x9) (k1_pay13 x10) (k1_pay14 x0 x1 x4 x5) k1_pay4) ∗ owns (c : Thread nD τ) arg17 fullShare (k1_pay18 (k1_pay11 x8) (k1_pay13 x10) (k1_pay14 x0 x1 x4 x5) k1_pay5) ∗ owns (c : Thread nD τ) arg18 fullShare (k1_pay19 (k1_pay7 x2) (k1_pay8 x3) (k1_pay9 x6) (k1_pay10 x7) (k1_pay12 x9) (k1_pay13 x10) k1_pay6)) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__pass2_kernel_eq_skeleton]; unfold cc1__pass2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo0, %hfo0, HO0⟩, ⟨%fo1, %hfo1, HO1⟩, ⟨%fo2, %hfo2, HO2⟩, ⟨%ds0, %fs0, %hfs0, HS0⟩, ⟨%ds1, %fs1, %hfs1, HS1⟩, ⟨%ds2, %fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10

  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HO0]
  · iexists fo0; isplitr; · ipureintro; exact hfo0
    iexact HO0
  isplitl [HO1]
  · iexists fo1; isplitr; · ipureintro; exact hfo1
    iexact HO1
  isplitl [HO2]
  · iexists fo2; isplitr; · ipureintro; exact hfo2
    iexact HO2
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HS1]
  · iexists _; isplitr
    swap; · iexact HS1
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  iexists _; isplitr
  swap; · iexact HS2
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]

end Cert.Kernel.Hand

end
-- ==== Proof.KB.R1RunB.lean ====
/-
  Region 1, a middle column tile: the three accumulators grow by the tile's row sums; everything else is left as found.
-/
import proofs.«174926_j17231408792190_1_alg».proof.Proof.KB.Cover
import proofs.«174926_j17231408792190_1_alg».proof.Proof.KB.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run1_B (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (hc0 : ¬cond1_0 i) (hc1 : ¬cond1_1 i)
    (x0 : Vec F S512x1 .f32) (x1 : Vec F S1x1024 .f32) (x2 : Vec F S512x1 .f32) (x3 : Vec F S1x1024 .f32) (x4 : Vec F S512x1 .f32) (x5 : Vec F S1x1024 .f32) (x6 : Vec F S512x1 .f32) (x7 : Vec F S1x1024 .f32) (x8 : Vec F S1x1 .f32) (x9 : Vec F S1x1 .f32) (x10 : Vec F S1x1024 .f32) (d0 d1 d2 : Vec F S512x1 .f32) (s0 s1 s2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ owns (c : Thread nD τ) arg13 fullShare d0 ∗ owns (c : Thread nD τ) arg14 fullShare d1 ∗ owns (c : Thread nD τ) arg15 fullShare d2 ∗ owns (c : Thread nD τ) arg16 fullShare s0 ∗ owns (c : Thread nD τ) arg17 fullShare s1 ∗ owns (c : Thread nD τ) arg18 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare d0 ∗ owns (c : Thread nD τ) arg14 fullShare d1 ∗ owns (c : Thread nD τ) arg15 fullShare d2
            ∗ owns (c : Thread nD τ) arg16 fullShare (k1_pay17 (k1_pay7 x2) (k1_pay8 x3) (k1_pay9 x6) (k1_pay10 x7) (k1_pay11 x8) (k1_pay12 x9) (k1_pay13 x10) (k1_pay14 x0 x1 x4 x5) s0) ∗ owns (c : Thread nD τ) arg17 fullShare (k1_pay18 (k1_pay11 x8) (k1_pay13 x10) (k1_pay14 x0 x1 x4 x5) s1) ∗ owns (c : Thread nD τ) arg18 fullShare (k1_pay19 (k1_pay7 x2) (k1_pay8 x3) (k1_pay9 x6) (k1_pay10 x7) (k1_pay12 x9) (k1_pay13 x10) s2)) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__pass2_kernel_eq_skeleton]; unfold cc1__pass2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo0, %hfo0, HO0⟩, ⟨%fo1, %hfo1, HO1⟩, ⟨%fo2, %hfo2, HO2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg16.eq_unread hfs0; obtain rfl := harg17.eq_unread hfs1; obtain rfl := harg18.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HO0]
  · iexists fo0; isplitr; · ipureintro; exact hfo0
    iexact HO0
  isplitl [HO1]
  · iexists fo1; isplitr; · ipureintro; exact hfo1
    iexact HO1
  isplitl [HO2]
  · iexists fo2; isplitr; · ipureintro; exact hfo2
    iexact HO2
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HS1]
  · iexists _; isplitr
    swap; · iexact HS1
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  iexists _; isplitr
  swap; · iexact HS2
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]

end Cert.Kernel.Hand

end
-- ==== Proof.KB.R1RunC.lean ====
/-
  Region 1, the last column tile: the accumulators grow by the tile's row sums, and the three output blocks take
  them divided by 8192.
-/
import proofs.«174926_j17231408792190_1_alg».proof.Proof.KB.Cover
import proofs.«174926_j17231408792190_1_alg».proof.Proof.KB.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run1_C (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (hc0 : ¬cond1_0 i) (hc1 : cond1_1 i)
    (x0 : Vec F S512x1 .f32) (x1 : Vec F S1x1024 .f32) (x2 : Vec F S512x1 .f32) (x3 : Vec F S1x1024 .f32) (x4 : Vec F S512x1 .f32) (x5 : Vec F S1x1024 .f32) (x6 : Vec F S512x1 .f32) (x7 : Vec F S1x1024 .f32) (x8 : Vec F S1x1 .f32) (x9 : Vec F S1x1 .f32) (x10 : Vec F S1x1024 .f32) (s0 s1 s2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ (∃ d, owns (c : Thread nD τ) arg13 fullShare d) ∗ (∃ d, owns (c : Thread nD τ) arg14 fullShare d) ∗ (∃ d, owns (c : Thread nD τ) arg15 fullShare d) ∗ owns (c : Thread nD τ) arg16 fullShare s0 ∗ owns (c : Thread nD τ) arg17 fullShare s1 ∗ owns (c : Thread nD τ) arg18 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare (k1_pay1 (k1_pay17 (k1_pay7 x2) (k1_pay8 x3) (k1_pay9 x6) (k1_pay10 x7) (k1_pay11 x8) (k1_pay12 x9) (k1_pay13 x10) (k1_pay14 x0 x1 x4 x5) s0)) ∗ owns (c : Thread nD τ) arg14 fullShare (k1_pay2 (k1_pay18 (k1_pay11 x8) (k1_pay13 x10) (k1_pay14 x0 x1 x4 x5) s1)) ∗ owns (c : Thread nD τ) arg15 fullShare (k1_pay3 (k1_pay19 (k1_pay7 x2) (k1_pay8 x3) (k1_pay9 x6) (k1_pay10 x7) (k1_pay12 x9) (k1_pay13 x10) s2))
            ∗ owns (c : Thread nD τ) arg16 fullShare (k1_pay17 (k1_pay7 x2) (k1_pay8 x3) (k1_pay9 x6) (k1_pay10 x7) (k1_pay11 x8) (k1_pay12 x9) (k1_pay13 x10) (k1_pay14 x0 x1 x4 x5) s0) ∗ owns (c : Thread nD τ) arg17 fullShare (k1_pay18 (k1_pay11 x8) (k1_pay13 x10) (k1_pay14 x0 x1 x4 x5) s1) ∗ owns (c : Thread nD τ) arg18 fullShare (k1_pay19 (k1_pay7 x2) (k1_pay8 x3) (k1_pay9 x6) (k1_pay10 x7) (k1_pay12 x9) (k1_pay13 x10) s2)) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__pass2_kernel_eq_skeleton]; unfold cc1__pass2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%do0, %fo0, %hfo0, HO0⟩, ⟨%do1, %fo1, %hfo1, HO1⟩, ⟨%do2, %fo2, %hfo2, HO2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg16.eq_unread hfs0; obtain rfl := harg17.eq_unread hfs1; obtain rfl := harg18.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HO0]
  · iexists _; isplitr
    swap; · iexact HO0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HO1]
  · iexists _; isplitr
    swap; · iexact HO1
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HO2]
  · iexists _; isplitr
    swap; · iexact HO2
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HS1]
  · iexists _; isplitr
    swap; · iexact HS1
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  iexists _; isplitr
  swap; · iexact HS2
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]

end Cert.Kernel.Hand

end
-- ==== Proof.KB.R1Body.lean ====
/-
  Region 1: the body obligation at every grid point, by the point's column tile (first, middle, last).
-/
import proofs.«174926_j17231408792190_1_alg».proof.Proof.KB.R1Data
import proofs.«174926_j17231408792190_1_alg».proof.Proof.KB.R1RunA
import proofs.«174926_j17231408792190_1_alg».proof.Proof.KB.R1RunB
import proofs.«174926_j17231408792190_1_alg».proof.Proof.KB.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t)

set_option maxHeartbeats 9600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  by_cases h0 : t.val % 8 = 0
  · have h1 : ¬t.val % 8 = 7 := by omega
    rw [Dat.leavesExact_idle (dat1 V c) 11 t (idleAt1_11 t (fun h => h1 ((hcond1_1 t).mp h))) (noFlush1_11 t (fun h => h1 ((hcond1_1 t).mp h)))]
    rw [Dat.leavesExact_idle (dat1 V c) 12 t (idleAt1_12 t (fun h => h1 ((hcond1_1 t).mp h))) (noFlush1_12 t (fun h => h1 ((hcond1_1 t).mp h)))]
    rw [Dat.leavesExact_idle (dat1 V c) 13 t (idleAt1_13 t (fun h => h1 ((hcond1_1 t).mp h))) (noFlush1_13 t (fun h => h1 ((hcond1_1 t).mp h)))]
    rw [acc1_reset V c t h0]
    unfold stepAt1 step1 zero1; dsimp only
    by_cases hz : t.val = 0
    · rw [PhiS1_castSucc V c t, PhiS1_zero V c _ _ hz, PhiA1_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_A c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) _ (Memref.isWhole_whole _) _ (Memref.isWhole_whole _) _ (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((dat1 V c).before 11 t d11) ((dat1 V c).before 12 t d12) ((dat1 V c).before 13 t d13)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13
    · rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_A c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) _ (Memref.isWhole_whole _) _ (Memref.isWhole_whole _) _ (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((dat1 V c).before 11 t d11) ((dat1 V c).before 12 t d12) ((dat1 V c).before 13 t d13)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexists _; iexact HS0
      isplitl [HS1]; · iexists _; iexact HS1
      isplitl [HS2]; · iexists _; iexact HS2
      iintro ⟨H0, H1, H2, H3, H4, H5, H6, H7, H8, H9, H10, H11, H12, H13, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13
  · have hz : t.val ≠ 0 := fun h => h0 (by rw [h])
    by_cases h1 : t.val % 8 = 7
    ·
      rw [show (dat1 V c).leavesExact 11 t = owns (c : Thread nD τ) (ms1_11 t) fullShare ((dat1 V c).after 11 t) from by
        unfold Dat.leavesExact; rw [liveAt1_11 t ((hcond1_1 t).mpr h1)], after1_11]
      rw [show (dat1 V c).leavesExact 12 t = owns (c : Thread nD τ) (ms1_12 t) fullShare ((dat1 V c).after 12 t) from by
        unfold Dat.leavesExact; rw [liveAt1_12 t ((hcond1_1 t).mpr h1)], after1_12]
      rw [show (dat1 V c).leavesExact 13 t = owns (c : Thread nD τ) (ms1_13 t) fullShare ((dat1 V c).after 13 t) from by
        unfold Dat.leavesExact; rw [liveAt1_13 t ((hcond1_1 t).mpr h1)], after1_13]
      rw [acc1_grow V c t h0]
      unfold stepAt1 step1; dsimp only
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_C c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) _ (Memref.isWhole_whole _) _ (Memref.isWhole_whole _) _ (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    ·
      rw [Dat.leavesExact_idle (dat1 V c) 11 t (idleAt1_11 t (fun h => h1 ((hcond1_1 t).mp h))) (noFlush1_11 t (fun h => h1 ((hcond1_1 t).mp h)))]
      rw [Dat.leavesExact_idle (dat1 V c) 12 t (idleAt1_12 t (fun h => h1 ((hcond1_1 t).mp h))) (noFlush1_12 t (fun h => h1 ((hcond1_1 t).mp h)))]
      rw [Dat.leavesExact_idle (dat1 V c) 13 t (idleAt1_13 t (fun h => h1 ((hcond1_1 t).mp h))) (noFlush1_13 t (fun h => h1 ((hcond1_1 t).mp h)))]
      rw [acc1_grow V c t h0]
      unfold stepAt1 step1; dsimp only
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_B c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) _ (Memref.isWhole_whole _) _ (Memref.isWhole_whole _) _ (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((dat1 V c).before 11 t d11) ((dat1 V c).before 12 t d12) ((dat1 V c).before 13 t d13) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.Kernel.Hand

end
-- ==== Proof.KB.Run.lean ====
/-
  The whole run: the program's five items as segments, each region entered from the buffers' contents the item
  before left; every weakly fair execution terminates and every unscoped buffer ends at the fold's last contents.
-/
import proofs.«174926_j17231408792190_1_alg».proof.Proof.KB.Fold
import proofs.«174926_j17231408792190_1_alg».proof.Proof.KB.R0Body
import proofs.«174926_j17231408792190_1_alg».proof.Proof.KB.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W5 m ρ c) ∗ ∃ r, prngReg c r)

/-- Region 0's invariant at its two ends, in the words of the region record. -/
theorem hinR0 (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 (V1 m ρ) c).Φ 0 := by
  have h := hin0 (V1 m ρ) c
  unfold Pipeline.ΦA at h
  iintro ⟨Hp, -, Hr⟩
  iapply h
  isplitl [Hr]; · iexact Hr
  iexact Hp
theorem houtR0 (c : Dev nD) :
    (dat0 (V1 m ρ) c).Φ (Fin.last cfg0.N) ⊢ iprop((∃ r, prngReg c r) ∗ (BI.emp : sProp 𝕄) ∗ Pipeline.scopedRest (Ix := Unit) (Name := ℕ) (U := UR sig nD τ) (Lvl := ℕ) (Val := Elt F) spec0 c) := by
  have h := hout0 (V1 m ρ) c
  unfold Pipeline.ΦA at h
  iintro H
  ihave H' := h $$ H
  icases H' with ⟨Hr, Hp⟩
  isplitl [Hp]; · iexact Hp
  isplitr; · iempintro
  iexact Hr

/-- Region 1's invariant at its two ends, in the words of the region record. -/
theorem hinR1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 (V3 m ρ) c).Φ 0 := by
  have h := hin1 (V3 m ρ) c
  unfold Pipeline.ΦA at h
  iintro ⟨Hp, -, Hr⟩
  iapply h
  isplitl [Hr]; · iexact Hr
  iexact Hp
theorem houtR1 (c : Dev nD) :
    (dat1 (V3 m ρ) c).Φ (Fin.last cfg1.N) ⊢ iprop((∃ r, prngReg c r) ∗ (BI.emp : sProp 𝕄) ∗ Pipeline.scopedRest (Ix := Unit) (Name := ℕ) (U := UR sig nD τ) (Lvl := ℕ) (Val := Elt F) spec1 c) := by
  have h := hout1 (V3 m ρ) c
  unfold Pipeline.ΦA at h
  iintro H
  ihave H' := h $$ H
  icases H' with ⟨Hr, Hp⟩
  isplitl [Hp]; · iexact Hp
  isplitr; · iempintro
  iexact Hr

set_option backward.isDefEq.respectTransparency.types false in
/-- Region 0 over the thread state: entered from every unscoped buffer at `W1`, left at `W2`. Its arrays are
    split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hinR0 m ρ c _
  hout c := by
    rw [Pipeline.ownSems0_none]
    exact houtR0 m ρ c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hinR1 m ρ c _
  hout c := by
    rw [Pipeline.ownSems0_none]
    exact houtR1 m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of the program terminates, nothing faulting, and every unscoped buffer of every core
    ends at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.Kernel.Hand

end
-- ==== Proof.KB.Frame.lean ====
/-
  The frame: no host operation and no region writes an argument array, so the fold's last contents at an argument
  walk back to the launch memory; with the whole run this is the frame claim, at any float instance.
-/
import proofs.«174926_j17231408792190_1_alg».proof.Proof.KB.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation writes and no region stages ends as launched. -/
theorem W5_kept (c : Dev nD) (b : Ref sig .tc) (h0 : b ∉ hostOps0_W) (h1 : b ∉ hostOps1_W) (h2 : b ∉ hostOps2_W)
    (hn0 : ∀ w, Pipeline.arrRef spec0 w ≠ b) (hn1 : ∀ w, Pipeline.arrRef spec1 w ≠ b) :
    W5 m ρ c (Proc.devRef .tc b) = m ((c : Thread nD τ).loc b) :=
  (StableHlo.after_of_writes_sub hostOps2 _ hostOps2_writes h2).trans <|
    (W4_of_ne m ρ c b hn1).trans <|
    (StableHlo.after_of_writes_sub hostOps1 _ hostOps1_writes h1).trans <|
    (W2_of_ne m ρ c b hn0).trans <|
    (StableHlo.after_of_writes_sub hostOps0 _ hostOps0_writes h0).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_kept m ρ c main_arg0 (by decide) (by decide) (by decide) (by decide) (by decide)),
     (h c _ (mem_uc main_arg1 (by decide))).trans (W5_kept m ρ c main_arg1 (by decide) (by decide) (by decide) (by decide) (by decide)),
     (h c _ (mem_uc main_arg2 (by decide))).trans (W5_kept m ρ c main_arg2 (by decide) (by decide) (by decide) (by decide) (by decide)),
     (h c _ (mem_uc main_arg3 (by decide))).trans (W5_kept m ρ c main_arg3 (by decide) (by decide) (by decide) (by decide) (by decide))⟩)
    (run_all m ρ)

end Cert.Kernel.Hand

end
-- ==== Proof.KI.R0Kit.lean ====
/-
  Region 0 (the first pass: row sums of |x_i - x_l| * w_l, tile by tile): what its runs share.
  The block of each window at a grid point read off the array the region finds; that an input window's
  staging buffer holds that block at every point; the two branch conditions in closed form over the
  grid (the column-tile index is 0; it is 7); where the two output windows are idle; the scratch
  operands as memrefs.
-/
import proofs.«174926_j17231408792190_1_alg».proof.Proof.Gen.KernelIdeal.Launch
import proofs.«174926_j17231408792190_1_alg».proof.Proof.Gen.KernelIdeal.Skeleton
import proofs.«174926_j17231408792190_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The column-tile index is 0: the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The column-tile index is 7: the row sums are divided and stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
/-- The two scratch accumulators: whole scoped buffers of the kernel's own. -/
abbrev scM0_0 : Memref sig .tc .vmem S512x1 .f32 := Memref.whole cc0_scratch0
abbrev scM0_1 : Memref sig .tc .vmem S512x1 .f32 := Memref.whole cc0_scratch1

/-- The class's invariant with the two scratch operands as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.R0Data.lean ====
/-
  Region 0: what the two accumulators hold after each grid point, and the region's proof data.
  A grid point is (row tile, column tile), 8 column tiles per row tile, visited row tile by row tile.
  At column tile 0 the accumulators restart from zero; at every tile they grow by that tile's row sums
  (of |x_i - x_l| * w_l and |y_i - y_l| * w_l over the tile's 1024 columns); at column tile 7 the two
  output blocks take the accumulators divided by 8192.
-/
import proofs.«174926_j17231408792190_1_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One tile's update of the two accumulators, from the five input blocks. -/
def step0 (x0 : Vec F S512x1 .f32) (x1 : Vec F S1x1024 .f32) (x2 : Vec F S512x1 .f32) (x3 : Vec F S1x1024 .f32) (x4 : Vec F S1x1024 .f32)
    (s : Vec F S512x1 .f32 × Vec F S512x1 .f32) : Vec F S512x1 .f32 × Vec F S512x1 .f32 :=
  (k0_pay7 x0 x1 x4 s.1, k0_pay1 (k0_pay8 x2 x3 x4 s.2))

/-- The accumulators as the reset leaves them. -/
def zero0 : Vec F S512x1 .f32 × Vec F S512x1 .f32 := (k0_pay4, k0_pay5)

variable (V : (c : Dev nD) → (b : Ref sig .tc) → Buf (Elt F) ((c : Thread nD τ).loc b))

/-- One tile's update at grid point `t`, on the blocks the region finds there. -/
def stepAt0 (c : Dev nD) (t : Fin cfg0.N) (s : Vec F S512x1 .f32 × Vec F S512x1 .f32) : Vec F S512x1 .f32 × Vec F S512x1 .f32 :=
  step0 (iblk0 V c 0 t) (iblk0 V c 1 t) (iblk0 V c 2 t) (iblk0 V c 3 t) (iblk0 V c 4 t) s

/-- The two accumulators after grid point `n`. -/
def acc0 (c : Dev nD) : (n : ℕ) → n < cfg0.N → Vec F S512x1 .f32 × Vec F S512x1 .f32
  | 0, hn => stepAt0 V c ⟨0, hn⟩ zero0
  | n + 1, hn => if (n + 1) % 8 = 0 then stepAt0 V c ⟨n + 1, hn⟩ zero0 else stepAt0 V c ⟨n + 1, hn⟩ (acc0 c n (Nat.lt_of_succ_lt hn))

theorem acc0_reset (c : Dev nD) (t : Fin cfg0.N) (h : t.val % 8 = 0) : acc0 V c t.val t.isLt = stepAt0 V c t zero0 := by
  obtain ⟨n, hn⟩ := t
  cases n with
  | zero => rfl
  | succ n => exact if_pos h

theorem acc0_grow (c : Dev nD) (t : Fin cfg0.N) (h : ¬t.val % 8 = 0) :
    acc0 V c t.val t.isLt = stepAt0 V c t (acc0 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point every scratch buffer at anything;
    afterwards the two accumulators at what the point before left. -/
def PhiS0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (acc0 V c (n - 1) (by omega)).1 ∗ owns (c : Thread nD τ) scM0_1 fullShare (acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The proof data of region 0 on core `c`: the arrays as the region finds them; each input's buffer at its block;
    the two outputs' at the accumulators after the point divided by 8192; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (acc0 V c t.val t.isLt).1
    | ⟨6, _⟩ => k0_pay3 (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (acc0 V c t.val t.isLt).1 := by dsimp only [dat0]
theorem after0_6 (c : Dev nD) (t : Fin cfg0.N) : (dat0 V c).after 6 t = k0_pay3 (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.KernelIdeal.Hand

end
-- ==== Proof.KI.R1Kit.lean ====
/-
  Region 1 (the second pass: row sums of the products of the doubly centred distance matrices, tile by tile):
  what its runs share. The block of each window at a grid point read off the array the region finds; that an
  input window's staging buffer holds that block at every point; the two branch conditions in closed form over
  the grid; where the three output windows are idle; the scratch operands as memrefs.
-/
import proofs.«174926_j17231408792190_1_alg».proof.Proof.Gen.KernelIdeal.Launch
import proofs.«174926_j17231408792190_1_alg».proof.Proof.Gen.KernelIdeal.Skeleton
import proofs.«174926_j17231408792190_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The column-tile index is 0: the accumulators are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The column-tile index is 7: the row sums are divided and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
theorem liveAt1_11 : ∀ t : Fin cfg1.N, cond1_1 (grid1.coords t) → cfg1.idle 11 (grid1.coords t) = false := by decide +kernel
theorem idleAt1_12 : ∀ t : Fin cfg1.N, ¬cond1_1 (grid1.coords t) → cfg1.idle 12 (grid1.coords t) = true := by decide +kernel
theorem noFlush1_12 : ∀ t : Fin cfg1.N, ¬cond1_1 (grid1.coords t) → (cfg1.win 12).flush t = false := by decide +kernel
theorem liveAt1_12 : ∀ t : Fin cfg1.N, cond1_1 (grid1.coords t) → cfg1.idle 12 (grid1.coords t) = false := by decide +kernel
theorem idleAt1_13 : ∀ t : Fin cfg1.N, ¬cond1_1 (grid1.coords t) → cfg1.idle 13 (grid1.coords t) = true := by decide +kernel
theorem noFlush1_13 : ∀ t : Fin cfg1.N, ¬cond1_1 (grid1.coords t) → (cfg1.win 13).flush t = false := by decide +kernel
theorem liveAt1_13 : ∀ t : Fin cfg1.N, cond1_1 (grid1.coords t) → cfg1.idle 13 (grid1.coords t) = false := by decide +kernel

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev ms1_8 (t : Fin cfg1.N) := win1_8.stage (cfg1.slots t 8)
abbrev hs1_8 (t : Fin cfg1.N) : (ms1_8 t).IsWhole := hstage1_8 ((cfg1.slots t 8).cast nbuf1_8)
abbrev ms1_9 (t : Fin cfg1.N) := win1_9.stage (cfg1.slots t 9)
abbrev hs1_9 (t : Fin cfg1.N) : (ms1_9 t).IsWhole := hstage1_9 ((cfg1.slots t 9).cast nbuf1_9)
abbrev ms1_10 (t : Fin cfg1.N) := win1_10.stage (cfg1.slots t 10)
abbrev hs1_10 (t : Fin cfg1.N) : (ms1_10 t).IsWhole := hstage1_10 ((cfg1.slots t 10).cast nbuf1_10)
abbrev ms1_11 (t : Fin cfg1.N) := win1_11.stage (cfg1.slots t 11)
abbrev hs1_11 (t : Fin cfg1.N) : (ms1_11 t).IsWhole := hstage1_11 ((cfg1.slots t 11).cast nbuf1_11)
abbrev ms1_12 (t : Fin cfg1.N) := win1_12.stage (cfg1.slots t 12)
abbrev hs1_12 (t : Fin cfg1.N) : (ms1_12 t).IsWhole := hstage1_12 ((cfg1.slots t 12).cast nbuf1_12)
abbrev ms1_13 (t : Fin cfg1.N) := win1_13.stage (cfg1.slots t 13)
abbrev hs1_13 (t : Fin cfg1.N) : (ms1_13 t).IsWhole := hstage1_13 ((cfg1.slots t 13).cast nbuf1_13)
/-- The scratch accumulators: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

/-- The region's scoped buffers that no window stages, split at the kernel's own scratch operands. -/
theorem scopedRest1_hsplit (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
          ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

/-- The class's invariant with the scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_hsplit]; simp only [scM1_0, scM1_1, scM1_2, owns_whole]; try rfl

end Cert.KernelIdeal.Hand

end
-- ==== Proof.KI.R1Data.lean ====
/-
  Region 1: what the three accumulators hold after each grid point, and the region's proof data.
  At column tile 0 the accumulators restart from zero; at every tile they grow by that tile's row sums of
  A*B*w, A*A*w and B*B*w, where A and B are the centred distance blocks; at column tile 7 the three output
  blocks take the accumulators divided by 8192.
-/
import proofs.«174926_j17231408792190_1_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One tile's update of the accumulators, from the input blocks. -/
def step1 (x0 : Vec F S512x1 .f32) (x1 : Vec F S1x1024 .f32) (x2 : Vec F S512x1 .f32) (x3 : Vec F S1x1024 .f32) (x4 : Vec F S512x1 .f32) (x5 : Vec F S1x1024 .f32) (x6 : Vec F S512x1 .f32) (x7 : Vec F S1x1024 .f32) (x8 : Vec F S1x1 .f32) (x9 : Vec F S1x1 .f32) (x10 : Vec F S1x1024 .f32)
    (s : Vec F S512x1 .f32 × Vec F S512x1 .f32 × Vec F S512x1 .f32) : Vec F S512x1 .f32 × Vec F S512x1 .f32 × Vec F S512x1 .f32 :=
  ((k1_pay17 (k1_pay7 x2) (k1_pay8 x3) (k1_pay9 x6) (k1_pay10 x7) (k1_pay11 x8) (k1_pay12 x9) (k1_pay13 x10) (k1_pay14 x0 x1 x4 x5) s.1), (k1_pay18 (k1_pay11 x8) (k1_pay13 x10) (k1_pay14 x0 x1 x4 x5) s.2.1), (k1_pay19 (k1_pay7 x2) (k1_pay8 x3) (k1_pay9 x6) (k1_pay10 x7) (k1_pay12 x9) (k1_pay13 x10) s.2.2))

/-- The accumulators as the reset leaves them. -/
def zero1 : Vec F S512x1 .f32 × Vec F S512x1 .f32 × Vec F S512x1 .f32 := (k1_pay4 (F := F), k1_pay5 (F := F), k1_pay6 (F := F))

variable (V : (c : Dev nD) → (b : Ref sig .tc) → Buf (Elt F) ((c : Thread nD τ).loc b))

/-- One tile's update at grid point `t`, on the blocks the region finds there. -/
def stepAt1 (c : Dev nD) (t : Fin cfg1.N) (s : Vec F S512x1 .f32 × Vec F S512x1 .f32 × Vec F S512x1 .f32) : Vec F S512x1 .f32 × Vec F S512x1 .f32 × Vec F S512x1 .f32 :=
  step1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) s

/-- The accumulators after grid point `n`. -/
def acc1 (c : Dev nD) : (n : ℕ) → n < cfg1.N → Vec F S512x1 .f32 × Vec F S512x1 .f32 × Vec F S512x1 .f32
  | 0, hn => stepAt1 V c ⟨0, hn⟩ zero1
  | n + 1, hn => if (n + 1) % 8 = 0 then stepAt1 V c ⟨n + 1, hn⟩ zero1 else stepAt1 V c ⟨n + 1, hn⟩ (acc1 c n (Nat.lt_of_succ_lt hn))

theorem acc1_reset (c : Dev nD) (t : Fin cfg1.N) (h : t.val % 8 = 0) : acc1 V c t.val t.isLt = stepAt1 V c t zero1 := by
  obtain ⟨n, hn⟩ := t
  cases n with
  | zero => rfl
  | succ n => exact if_pos h

theorem acc1_grow (c : Dev nD) (t : Fin cfg1.N) (h : ¬t.val % 8 = 0) :
    acc1 V c t.val t.isLt = stepAt1 V c t (acc1 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point every scratch buffer at anything;
    afterwards the accumulators at what the point before left. -/
def PhiS1 (c : Dev nD) : (n : ℕ) → n ≤ cfg1.N → sProp 𝕄
  | 0, _ => Pipeline.ΦA spec1 c
  | n + 1, hn => iprop(iprop(iprop(owns (c : Thread nD τ) scM1_0 fullShare (acc1 V c n hn).1 ∗ owns (c : Thread nD τ) scM1_1 fullShare (acc1 V c n hn).2.1 ∗ owns (c : Thread nD τ) scM1_2 fullShare (acc1 V c n hn).2.2)
      ∗ Pipeline.scopedRestBut (Ix := Unit) (Name := ℕ) (U := UR sig nD τ) (Lvl := ℕ) (Val := Elt F) spec1 c [cc1_scratch0, cc1_scratch1, cc1_scratch2]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (acc1 V c n hn).1 ∗ owns (c : Thread nD τ) scM1_1 fullShare (acc1 V c n hn).2.1 ∗ owns (c : Thread nD τ) scM1_2 fullShare (acc1 V c n hn).2.2)
      ∗ Pipeline.scopedRestBut (Ix := Unit) (Name := ℕ) (U := UR sig nD τ) (Lvl := ℕ) (Val := Elt F) spec1 c [cc1_scratch0, cc1_scratch1, cc1_scratch2]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (acc1 V c (n - 1) (by omega)).1 ∗ owns (c : Thread nD τ) scM1_1 fullShare (acc1 V c (n - 1) (by omega)).2.1 ∗ owns (c : Thread nD τ) scM1_2 fullShare (acc1 V c (n - 1) (by omega)).2.2)
      ∗ Pipeline.scopedRestBut (Ix := Unit) (Name := ℕ) (U := UR sig nD τ) (Lvl := ℕ) (Val := Elt F) spec1 c [cc1_scratch0, cc1_scratch1, cc1_scratch2]) ∗ (∃ r, prngReg c r)) := by
  cases n with
  | zero => exact absurd rfl hz
  | succ n => rfl

/-- The region's proof data on core `c`: the arrays as the region finds them; each input's buffer at its block;
    the outputs' at the accumulators after the point divided by 8192; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (k1_pay1 (acc1 V c t.val t.isLt).1)
    | ⟨12, _⟩ => (k1_pay2 (acc1 V c t.val t.isLt).2.1)
    | ⟨13, _⟩ => (k1_pay3 (acc1 V c t.val t.isLt).2.2)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (k1_pay1 (acc1 V c t.val t.isLt).1) := by dsimp only [dat1]
theorem after1_12 (c : Dev nD) (t : Fin cfg1.N) : (dat1 V c).after 12 t = (k1_pay2 (acc1 V c t.val t.isLt).2.1) := by dsimp only [dat1]
theorem after1_13 (c : Dev nD) (t : Fin cfg1.N) : (dat1 V c).after 13 t = (k1_pay3 (acc1 V c t.val t.isLt).2.2) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

end Cert.KernelIdeal.Hand

end
-- ==== Proof.KI.Fold.lean ====
/-
  The contents of the unscoped buffers at each boundary of the program's five items (host operations, the first
  pass, host operations, the second pass, host operations), as a fold from the launch memory: a stretch of host
  operations applies them; a region leaves each of its arrays at what its write-backs leave and every other
  buffer as entered.
-/
import proofs.«174926_j17231408792190_1_alg».proof.Proof.KI.R0Data
import proofs.«174926_j17231408792190_1_alg».proof.Proof.KI.R1Data
import proofs.«174926_j17231408792190_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-- Every pipeline's proof data, each at its region's entry contents. -/
abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.KernelIdeal.Hand

end
-- ==== Proof.KI.Cover.lean ====
/-
  A store through the whole [512,1] rectangle, made last, covers the buffer: what the read-back of a
  list of stores needs in order to be the last store's value.
-/
import proofs.«174926_j17231408792190_1_alg».proof.Proof.KI.R0Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by
  funext a; match a with | ⟨0, _⟩ => rfl | ⟨1, _⟩ => rfl

theorem coverC (w : S512x1.Idx → Elt F .f32) (L : List (View.Piece (Elt F) S512x1 .f32)) (y : S512x1.Idx) :
    ∃ p ∈ ((⟨Rect.unit (s := S512x1) ![0, 0] S512x1.size inb_S512x1_S512x1_0_0, w⟩ : View.Piece (Elt F) S512x1 .f32) :: L), y ∈ p.1.set :=
  ⟨_, List.mem_cons_self, View.mem_set_unit_zero hz2 inb_S512x1_S512x1_0_0 y⟩

end Cert.KernelIdeal.Hand

end
-- ==== Proof.KI.R0RunA.lean ====
/-
  Region 0, the first column tile: the accumulators are reset to zero and then take the first tile's row sums;
  what they held before does not matter. The output blocks are left as found.
-/
import proofs.«174926_j17231408792190_1_alg».proof.Proof.KI.Cover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run0_A (c : Dev nD) (i : grid0.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x1 .f32) (x1 : Vec F S1x1024 .f32) (x2 : Vec F S512x1 .f32) (x3 : Vec F S1x1024 .f32) (x4 : Vec F S1x1024 .f32) (d5 d6 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d5 ∗ owns (c : Thread nD τ) arg8 fullShare d6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ owns (c : Thread nD τ) arg9 fullShare (k0_pay7 x0 x1 x4 k0_pay4) ∗ owns (c : Thread nD τ) arg10 fullShare (k0_pay1 (k0_pay8 x2 x3 x4 k0_pay5))) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10) K := by
  simp only [cc0__pass1_kernel_eq_skeleton]; unfold cc0__pass1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, %hfs0, HS0⟩, ⟨%ds1, %fs1, %hfs1, HS1⟩, Hk⟩
  obtain rfl := harg2.eq_unread hf0; obtain rfl := harg3.eq_unread hf1; obtain rfl := harg4.eq_unread hf2; obtain rfl := harg5.eq_unread hf3; obtain rfl := harg6.eq_unread hf4

  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5; isplitr; · ipureintro; exact hf5
    iexact H5
  isplitl [H6]
  · iexists f6; isplitr; · ipureintro; exact hf6
    iexact H6
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]
  iexists _; isplitr
  swap; · iexact HS1
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]

end Cert.KernelIdeal.Hand

end
-- ==== Proof.KI.R0RunB.lean ====
/-
  Region 0, a middle column tile (neither the first nor the last): on whole staging buffers holding the
  five input blocks and on the two accumulators holding s0, s1, the body leaves the accumulators at
  s0 + (row sums of |x0 - x1| * x4) and s1 + (row sums of |x2 - x3| * x4) and everything else as found.
-/
import proofs.«174926_j17231408792190_1_alg».proof.Proof.KI.Cover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run0_B (c : Dev nD) (i : grid0.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x1 .f32) (x1 : Vec F S1x1024 .f32) (x2 : Vec F S512x1 .f32) (x3 : Vec F S1x1024 .f32) (x4 : Vec F S1x1024 .f32) (d5 d6 : Vec F S512x1 .f32) (s0 s1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d5 ∗ owns (c : Thread nD τ) arg8 fullShare d6 ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d5 ∗ owns (c : Thread nD τ) arg8 fullShare d6
            ∗ owns (c : Thread nD τ) arg9 fullShare (k0_pay7 x0 x1 x4 s0) ∗ owns (c : Thread nD τ) arg10 fullShare (k0_pay1 (k0_pay8 x2 x3 x4 s1))) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10) K := by
  simp only [cc0__pass1_kernel_eq_skeleton]; unfold cc0__pass1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0; obtain rfl := harg10.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5; isplitr; · ipureintro; exact hf5
    iexact H5
  isplitl [H6]
  · iexists f6; isplitr; · ipureintro; exact hf6
    iexact H6
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]
  iexists _; isplitr
  swap; · iexact HS1
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]

end Cert.KernelIdeal.Hand

end
-- ==== Proof.KI.R0RunC.lean ====
/-
  Region 0, the last column tile: the accumulators grow by the tile's row sums as at a middle tile, and the two
  output blocks take them divided by 8192.
-/
import proofs.«174926_j17231408792190_1_alg».proof.Proof.KI.Cover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run0_C (c : Dev nD) (i : grid0.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x1 .f32) (x1 : Vec F S1x1024 .f32) (x2 : Vec F S512x1 .f32) (x3 : Vec F S1x1024 .f32) (x4 : Vec F S1x1024 .f32) (s0 s1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay2 (k0_pay7 x0 x1 x4 s0)) ∗ owns (c : Thread nD τ) arg8 fullShare (k0_pay3 (k0_pay1 (k0_pay8 x2 x3 x4 s1)))
            ∗ owns (c : Thread nD τ) arg9 fullShare (k0_pay7 x0 x1 x4 s0) ∗ owns (c : Thread nD τ) arg10 fullShare (k0_pay1 (k0_pay8 x2 x3 x4 s1))) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10) K := by
  simp only [cc0__pass1_kernel_eq_skeleton]; unfold cc0__pass1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0; obtain rfl := harg10.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]
  isplitl [H6]
  · iexists _; isplitr
    swap; · iexact H6
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]
  iexists _; isplitr
  swap; · iexact HS1
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg9.read_unread, harg10.read_unread, View.ld_unit_zero (S := S512x1) hz2, View.ld_unit_zero (S := S1x1024) hz2]

end Cert.KernelIdeal.Hand

end
-- ==== Proof.KI.R0Body.lean ====
/-
  Region 0: the body obligation at every grid point. A point is in one of three cases by its column tile
  (first, middle, last); in each the tile's run applies on the blocks the pipeline staged, the invariant
  hands the body the two accumulators at what the point before left (at anything at a first tile) and
  takes them back at this point's values.
-/
import proofs.«174926_j17231408792190_1_alg».proof.Proof.KI.R0Data
import proofs.«174926_j17231408792190_1_alg».proof.Proof.KI.R0RunA
import proofs.«174926_j17231408792190_1_alg».proof.Proof.KI.R0RunB
import proofs.«174926_j17231408792190_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 8 = 0
  · have h1 : ¬t.val % 8 = 7 := by omega
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [acc0_reset V c t h0]
    unfold stepAt0 step0 zero0; dsimp only
    by_cases hz : t.val = 0
    · rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_A c (grid0.coords t) _ (hs0_0 t) _ (hs0_1 t) _ (hs0_2 t) _ (hs0_3 t) _ (hs0_4 t) _ (hs0_5 t) _ (hs0_6 t) _ (Memref.isWhole_whole _) _ (Memref.isWhole_whole _) ((hcond0_0 t).mpr h0) (fun h => h1 ((hcond0_1 t).mp h)) (iblk0 V c 0 t) (iblk0 V c 1 t) (iblk0 V c 2 t) (iblk0 V c 3 t) (iblk0 V c 4 t) ((dat0 V c).before 5 t d5) ((dat0 V c).before 6 t d6)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_A c (grid0.coords t) _ (hs0_0 t) _ (hs0_1 t) _ (hs0_2 t) _ (hs0_3 t) _ (hs0_4 t) _ (hs0_5 t) _ (hs0_6 t) _ (Memref.isWhole_whole _) _ (Memref.isWhole_whole _) ((hcond0_0 t).mpr h0) (fun h => h1 ((hcond0_1 t).mp h)) (iblk0 V c 0 t) (iblk0 V c 1 t) (iblk0 V c 2 t) (iblk0 V c 3 t) (iblk0 V c 4 t) ((dat0 V c).before 5 t d5) ((dat0 V c).before 6 t d6)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    by_cases h1 : t.val % 8 = 7
    · rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [acc0_grow V c t h0]
      unfold stepAt0 step0; dsimp only
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_C c (grid0.coords t) _ (hs0_0 t) _ (hs0_1 t) _ (hs0_2 t) _ (hs0_3 t) _ (hs0_4 t) _ (hs0_5 t) _ (hs0_6 t) _ (Memref.isWhole_whole _) _ (Memref.isWhole_whole _) (fun h => h0 ((hcond0_0 t).mp h)) ((hcond0_1 t).mpr h1) (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [acc0_grow V c t h0]
      unfold stepAt0 step0; dsimp only
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_B c (grid0.coords t) _ (hs0_0 t) _ (hs0_1 t) _ (hs0_2 t) _ (hs0_3 t) _ (hs0_4 t) _ (hs0_5 t) _ (hs0_6 t) _ (Memref.isWhole_whole _) _ (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) ((dat0 V c).before 5 t d5) ((dat0 V c).before 6 t d6) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end Cert.KernelIdeal.Hand

end
-- ==== Proof.KI.R1RunA.lean ====
/-
  Region 1, the first column tile: the three accumulators are reset to zero and then take the first tile's row sums;
  what they held before does not matter. The output blocks are left as found.
-/
import proofs.«174926_j17231408792190_1_alg».proof.Proof.KI.Cover
import proofs.«174926_j17231408792190_1_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run1_A (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (hc0 : cond1_0 i) (hc1 : ¬cond1_1 i)
    (x0 : Vec F S512x1 .f32) (x1 : Vec F S1x1024 .f32) (x2 : Vec F S512x1 .f32) (x3 : Vec F S1x1024 .f32) (x4 : Vec F S512x1 .f32) (x5 : Vec F S1x1024 .f32) (x6 : Vec F S512x1 .f32) (x7 : Vec F S1x1024 .f32) (x8 : Vec F S1x1 .f32) (x9 : Vec F S1x1 .f32) (x10 : Vec F S1x1024 .f32) (d0 d1 d2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ owns (c : Thread nD τ) arg13 fullShare d0 ∗ owns (c : Thread nD τ) arg14 fullShare d1 ∗ owns (c : Thread nD τ) arg15 fullShare d2 ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare d0 ∗ owns (c : Thread nD τ) arg14 fullShare d1 ∗ owns (c : Thread nD τ) arg15 fullShare d2
            ∗ owns (c : Thread nD τ) arg16 fullShare (k1_pay17 (k1_pay7 x2) (k1_pay8 x3) (k1_pay9 x6) (k1_pay10 x7) (k1_pay11 x8) (k1_pay12 x9) (k1_pay13 x10) (k1_pay14 x0 x1 x4 x5) k1_pay4) ∗ owns (c : Thread nD τ) arg17 fullShare (k1_pay18 (k1_pay11 x8) (k1_pay13 x10) (k1_pay14 x0 x1 x4 x5) k1_pay5) ∗ owns (c : Thread nD τ) arg18 fullShare (k1_pay19 (k1_pay7 x2) (k1_pay8 x3) (k1_pay9 x6) (k1_pay10 x7) (k1_pay12 x9) (k1_pay13 x10) k1_pay6)) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__pass2_kernel_eq_skeleton]; unfold cc1__pass2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo0, %hfo0, HO0⟩, ⟨%fo1, %hfo1, HO1⟩, ⟨%fo2, %hfo2, HO2⟩, ⟨%ds0, %fs0, %hfs0, HS0⟩, ⟨%ds1, %fs1, %hfs1, HS1⟩, ⟨%ds2, %fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10

  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HO0]
  · iexists fo0; isplitr; · ipureintro; exact hfo0
    iexact HO0
  isplitl [HO1]
  · iexists fo1; isplitr; · ipureintro; exact hfo1
    iexact HO1
  isplitl [HO2]
  · iexists fo2; isplitr; · ipureintro; exact hfo2
    iexact HO2
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HS1]
  · iexists _; isplitr
    swap; · iexact HS1
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  iexists _; isplitr
  swap; · iexact HS2
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]

end Cert.KernelIdeal.Hand

end
-- ==== Proof.KI.R1RunB.lean ====
/-
  Region 1, a middle column tile: the three accumulators grow by the tile's row sums; everything else is left as found.
-/
import proofs.«174926_j17231408792190_1_alg».proof.Proof.KI.Cover
import proofs.«174926_j17231408792190_1_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run1_B (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (hc0 : ¬cond1_0 i) (hc1 : ¬cond1_1 i)
    (x0 : Vec F S512x1 .f32) (x1 : Vec F S1x1024 .f32) (x2 : Vec F S512x1 .f32) (x3 : Vec F S1x1024 .f32) (x4 : Vec F S512x1 .f32) (x5 : Vec F S1x1024 .f32) (x6 : Vec F S512x1 .f32) (x7 : Vec F S1x1024 .f32) (x8 : Vec F S1x1 .f32) (x9 : Vec F S1x1 .f32) (x10 : Vec F S1x1024 .f32) (d0 d1 d2 : Vec F S512x1 .f32) (s0 s1 s2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ owns (c : Thread nD τ) arg13 fullShare d0 ∗ owns (c : Thread nD τ) arg14 fullShare d1 ∗ owns (c : Thread nD τ) arg15 fullShare d2 ∗ owns (c : Thread nD τ) arg16 fullShare s0 ∗ owns (c : Thread nD τ) arg17 fullShare s1 ∗ owns (c : Thread nD τ) arg18 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare d0 ∗ owns (c : Thread nD τ) arg14 fullShare d1 ∗ owns (c : Thread nD τ) arg15 fullShare d2
            ∗ owns (c : Thread nD τ) arg16 fullShare (k1_pay17 (k1_pay7 x2) (k1_pay8 x3) (k1_pay9 x6) (k1_pay10 x7) (k1_pay11 x8) (k1_pay12 x9) (k1_pay13 x10) (k1_pay14 x0 x1 x4 x5) s0) ∗ owns (c : Thread nD τ) arg17 fullShare (k1_pay18 (k1_pay11 x8) (k1_pay13 x10) (k1_pay14 x0 x1 x4 x5) s1) ∗ owns (c : Thread nD τ) arg18 fullShare (k1_pay19 (k1_pay7 x2) (k1_pay8 x3) (k1_pay9 x6) (k1_pay10 x7) (k1_pay12 x9) (k1_pay13 x10) s2)) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__pass2_kernel_eq_skeleton]; unfold cc1__pass2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo0, %hfo0, HO0⟩, ⟨%fo1, %hfo1, HO1⟩, ⟨%fo2, %hfo2, HO2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg16.eq_unread hfs0; obtain rfl := harg17.eq_unread hfs1; obtain rfl := harg18.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HO0]
  · iexists fo0; isplitr; · ipureintro; exact hfo0
    iexact HO0
  isplitl [HO1]
  · iexists fo1; isplitr; · ipureintro; exact hfo1
    iexact HO1
  isplitl [HO2]
  · iexists fo2; isplitr; · ipureintro; exact hfo2
    iexact HO2
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HS1]
  · iexists _; isplitr
    swap; · iexact HS1
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  iexists _; isplitr
  swap; · iexact HS2
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]

end Cert.KernelIdeal.Hand

end
-- ==== Proof.KI.R1RunC.lean ====
/-
  Region 1, the last column tile: the accumulators grow by the tile's row sums, and the three output blocks take
  them divided by 8192.
-/
import proofs.«174926_j17231408792190_1_alg».proof.Proof.KI.Cover
import proofs.«174926_j17231408792190_1_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run1_C (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (hc0 : ¬cond1_0 i) (hc1 : cond1_1 i)
    (x0 : Vec F S512x1 .f32) (x1 : Vec F S1x1024 .f32) (x2 : Vec F S512x1 .f32) (x3 : Vec F S1x1024 .f32) (x4 : Vec F S512x1 .f32) (x5 : Vec F S1x1024 .f32) (x6 : Vec F S512x1 .f32) (x7 : Vec F S1x1024 .f32) (x8 : Vec F S1x1 .f32) (x9 : Vec F S1x1 .f32) (x10 : Vec F S1x1024 .f32) (s0 s1 s2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ (∃ d, owns (c : Thread nD τ) arg13 fullShare d) ∗ (∃ d, owns (c : Thread nD τ) arg14 fullShare d) ∗ (∃ d, owns (c : Thread nD τ) arg15 fullShare d) ∗ owns (c : Thread nD τ) arg16 fullShare s0 ∗ owns (c : Thread nD τ) arg17 fullShare s1 ∗ owns (c : Thread nD τ) arg18 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare (k1_pay1 (k1_pay17 (k1_pay7 x2) (k1_pay8 x3) (k1_pay9 x6) (k1_pay10 x7) (k1_pay11 x8) (k1_pay12 x9) (k1_pay13 x10) (k1_pay14 x0 x1 x4 x5) s0)) ∗ owns (c : Thread nD τ) arg14 fullShare (k1_pay2 (k1_pay18 (k1_pay11 x8) (k1_pay13 x10) (k1_pay14 x0 x1 x4 x5) s1)) ∗ owns (c : Thread nD τ) arg15 fullShare (k1_pay3 (k1_pay19 (k1_pay7 x2) (k1_pay8 x3) (k1_pay9 x6) (k1_pay10 x7) (k1_pay12 x9) (k1_pay13 x10) s2))
            ∗ owns (c : Thread nD τ) arg16 fullShare (k1_pay17 (k1_pay7 x2) (k1_pay8 x3) (k1_pay9 x6) (k1_pay10 x7) (k1_pay11 x8) (k1_pay12 x9) (k1_pay13 x10) (k1_pay14 x0 x1 x4 x5) s0) ∗ owns (c : Thread nD τ) arg17 fullShare (k1_pay18 (k1_pay11 x8) (k1_pay13 x10) (k1_pay14 x0 x1 x4 x5) s1) ∗ owns (c : Thread nD τ) arg18 fullShare (k1_pay19 (k1_pay7 x2) (k1_pay8 x3) (k1_pay9 x6) (k1_pay10 x7) (k1_pay12 x9) (k1_pay13 x10) s2)) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__pass2_kernel_eq_skeleton]; unfold cc1__pass2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%do0, %fo0, %hfo0, HO0⟩, ⟨%do1, %fo1, %hfo1, HO1⟩, ⟨%do2, %fo2, %hfo2, HO2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg16.eq_unread hfs0; obtain rfl := harg17.eq_unread hfs1; obtain rfl := harg18.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HO0]
  · iexists _; isplitr
    swap; · iexact HO0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HO1]
  · iexists _; isplitr
    swap; · iexact HO1
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HO2]
  · iexists _; isplitr
    swap; · iexact HO2
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HS0]
  · iexists _; isplitr
    swap; · iexact HS0
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  isplitl [HS1]
  · iexists _; isplitr
    swap; · iexact HS1
    ipureintro
    try sl_unfold_run_names
    rw [View.read_writes_eq_canon _ _ _ (coverC _ _), View.canon_cons_unit_zero hz2]
    simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]
  iexists _; isplitr
  swap; · iexact HS2
  ipureintro
  try sl_unfold_run_names
  rw [View.read_writes_eq_canon _ _ _ (coverC _ _), View.canon_cons_unit_zero hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread, View.ld_unit_zero (S := S512x1) hz2, View.ld_unit_zero (S := S1x1024) hz2, View.ld_unit_zero (S := S1x1) hz2]

end Cert.KernelIdeal.Hand

end
-- ==== Proof.KI.R1Body.lean ====
/-
  Region 1: the body obligation at every grid point, by the point's column tile (first, middle, last).
-/
import proofs.«174926_j17231408792190_1_alg».proof.Proof.KI.R1Data
import proofs.«174926_j17231408792190_1_alg».proof.Proof.KI.R1RunA
import proofs.«174926_j17231408792190_1_alg».proof.Proof.KI.R1RunB
import proofs.«174926_j17231408792190_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t)

set_option maxHeartbeats 9600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  by_cases h0 : t.val % 8 = 0
  · have h1 : ¬t.val % 8 = 7 := by omega
    rw [Dat.leavesExact_idle (dat1 V c) 11 t (idleAt1_11 t (fun h => h1 ((hcond1_1 t).mp h))) (noFlush1_11 t (fun h => h1 ((hcond1_1 t).mp h)))]
    rw [Dat.leavesExact_idle (dat1 V c) 12 t (idleAt1_12 t (fun h => h1 ((hcond1_1 t).mp h))) (noFlush1_12 t (fun h => h1 ((hcond1_1 t).mp h)))]
    rw [Dat.leavesExact_idle (dat1 V c) 13 t (idleAt1_13 t (fun h => h1 ((hcond1_1 t).mp h))) (noFlush1_13 t (fun h => h1 ((hcond1_1 t).mp h)))]
    rw [acc1_reset V c t h0]
    unfold stepAt1 step1 zero1; dsimp only
    by_cases hz : t.val = 0
    · rw [PhiS1_castSucc V c t, PhiS1_zero V c _ _ hz, PhiA1_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_A c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) _ (Memref.isWhole_whole _) _ (Memref.isWhole_whole _) _ (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((dat1 V c).before 11 t d11) ((dat1 V c).before 12 t d12) ((dat1 V c).before 13 t d13)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13
    · rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_A c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) _ (Memref.isWhole_whole _) _ (Memref.isWhole_whole _) _ (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((dat1 V c).before 11 t d11) ((dat1 V c).before 12 t d12) ((dat1 V c).before 13 t d13)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexists _; iexact HS0
      isplitl [HS1]; · iexists _; iexact HS1
      isplitl [HS2]; · iexists _; iexact HS2
      iintro ⟨H0, H1, H2, H3, H4, H5, H6, H7, H8, H9, H10, H11, H12, H13, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13
  · have hz : t.val ≠ 0 := fun h => h0 (by rw [h])
    by_cases h1 : t.val % 8 = 7
    ·
      rw [show (dat1 V c).leavesExact 11 t = owns (c : Thread nD τ) (ms1_11 t) fullShare ((dat1 V c).after 11 t) from by
        unfold Dat.leavesExact; rw [liveAt1_11 t ((hcond1_1 t).mpr h1)], after1_11]
      rw [show (dat1 V c).leavesExact 12 t = owns (c : Thread nD τ) (ms1_12 t) fullShare ((dat1 V c).after 12 t) from by
        unfold Dat.leavesExact; rw [liveAt1_12 t ((hcond1_1 t).mpr h1)], after1_12]
      rw [show (dat1 V c).leavesExact 13 t = owns (c : Thread nD τ) (ms1_13 t) fullShare ((dat1 V c).after 13 t) from by
        unfold Dat.leavesExact; rw [liveAt1_13 t ((hcond1_1 t).mpr h1)], after1_13]
      rw [acc1_grow V c t h0]
      unfold stepAt1 step1; dsimp only
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_C c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) _ (Memref.isWhole_whole _) _ (Memref.isWhole_whole _) _ (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    ·
      rw [Dat.leavesExact_idle (dat1 V c) 11 t (idleAt1_11 t (fun h => h1 ((hcond1_1 t).mp h))) (noFlush1_11 t (fun h => h1 ((hcond1_1 t).mp h)))]
      rw [Dat.leavesExact_idle (dat1 V c) 12 t (idleAt1_12 t (fun h => h1 ((hcond1_1 t).mp h))) (noFlush1_12 t (fun h => h1 ((hcond1_1 t).mp h)))]
      rw [Dat.leavesExact_idle (dat1 V c) 13 t (idleAt1_13 t (fun h => h1 ((hcond1_1 t).mp h))) (noFlush1_13 t (fun h => h1 ((hcond1_1 t).mp h)))]
      rw [acc1_grow V c t h0]
      unfold stepAt1 step1; dsimp only
      rw [PhiS1_castSucc V c t, PhiS1_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_B c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) _ (Memref.isWhole_whole _) _ (Memref.isWhole_whole _) _ (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((dat1 V c).before 11 t d11) ((dat1 V c).before 12 t d12) ((dat1 V c).before 13 t d13) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.KernelIdeal.Hand

end
-- ==== Proof.KI.Run.lean ====
/-
  The whole run: the program's five items as segments, each region entered from the buffers' contents the item
  before left; every weakly fair execution terminates and every unscoped buffer ends at the fold's last contents.
-/
import proofs.«174926_j17231408792190_1_alg».proof.Proof.KI.Fold
import proofs.«174926_j17231408792190_1_alg».proof.Proof.KI.R0Body
import proofs.«174926_j17231408792190_1_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W5 m ρ c) ∗ ∃ r, prngReg c r)

/-- Region 0's invariant at its two ends, in the words of the region record. -/
theorem hinR0 (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 (V1 m ρ) c).Φ 0 := by
  have h := hin0 (V1 m ρ) c
  unfold Pipeline.ΦA at h
  iintro ⟨Hp, -, Hr⟩
  iapply h
  isplitl [Hr]; · iexact Hr
  iexact Hp
theorem houtR0 (c : Dev nD) :
    (dat0 (V1 m ρ) c).Φ (Fin.last cfg0.N) ⊢ iprop((∃ r, prngReg c r) ∗ (BI.emp : sProp 𝕄) ∗ Pipeline.scopedRest (Ix := Unit) (Name := ℕ) (U := UR sig nD τ) (Lvl := ℕ) (Val := Elt F) spec0 c) := by
  have h := hout0 (V1 m ρ) c
  unfold Pipeline.ΦA at h
  iintro H
  ihave H' := h $$ H
  icases H' with ⟨Hr, Hp⟩
  isplitl [Hp]; · iexact Hp
  isplitr; · iempintro
  iexact Hr

/-- Region 1's invariant at its two ends, in the words of the region record. -/
theorem hinR1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 (V3 m ρ) c).Φ 0 := by
  have h := hin1 (V3 m ρ) c
  unfold Pipeline.ΦA at h
  iintro ⟨Hp, -, Hr⟩
  iapply h
  isplitl [Hr]; · iexact Hr
  iexact Hp
theorem houtR1 (c : Dev nD) :
    (dat1 (V3 m ρ) c).Φ (Fin.last cfg1.N) ⊢ iprop((∃ r, prngReg c r) ∗ (BI.emp : sProp 𝕄) ∗ Pipeline.scopedRest (Ix := Unit) (Name := ℕ) (U := UR sig nD τ) (Lvl := ℕ) (Val := Elt F) spec1 c) := by
  have h := hout1 (V3 m ρ) c
  unfold Pipeline.ΦA at h
  iintro H
  ihave H' := h $$ H
  icases H' with ⟨Hr, Hp⟩
  isplitl [Hp]; · iexact Hp
  isplitr; · iempintro
  iexact Hr

set_option backward.isDefEq.respectTransparency.types false in
/-- Region 0 over the thread state: entered from every unscoped buffer at `W1`, left at `W2`. Its arrays are
    split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hinR0 m ρ c _
  hout c := by
    rw [Pipeline.ownSems0_none]
    exact houtR0 m ρ c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hinR1 m ρ c _
  hout c := by
    rw [Pipeline.ownSems0_none]
    exact houtR1 m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of the program terminates, nothing faulting, and every unscoped buffer of every core
    ends at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Hand

end
-- ==== Proof.KI.Frame.lean ====
/-
  The frame: no host operation and no region writes an argument array, so the fold's last contents at an argument
  walk back to the launch memory; with the whole run this is the frame claim, at any float instance.
-/
import proofs.«174926_j17231408792190_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation writes and no region stages ends as launched. -/
theorem W5_kept (c : Dev nD) (b : Ref sig .tc) (h0 : b ∉ hostOps0_W) (h1 : b ∉ hostOps1_W) (h2 : b ∉ hostOps2_W)
    (hn0 : ∀ w, Pipeline.arrRef spec0 w ≠ b) (hn1 : ∀ w, Pipeline.arrRef spec1 w ≠ b) :
    W5 m ρ c (Proc.devRef .tc b) = m ((c : Thread nD τ).loc b) :=
  (StableHlo.after_of_writes_sub hostOps2 _ hostOps2_writes h2).trans <|
    (W4_of_ne m ρ c b hn1).trans <|
    (StableHlo.after_of_writes_sub hostOps1 _ hostOps1_writes h1).trans <|
    (W2_of_ne m ρ c b hn0).trans <|
    (StableHlo.after_of_writes_sub hostOps0 _ hostOps0_writes h0).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_kept m ρ c main_arg0 (by decide) (by decide) (by decide) (by decide) (by decide)),
     (h c _ (mem_uc main_arg1 (by decide))).trans (W5_kept m ρ c main_arg1 (by decide) (by decide) (by decide) (by decide) (by decide)),
     (h c _ (mem_uc main_arg2 (by decide))).trans (W5_kept m ρ c main_arg2 (by decide) (by decide) (by decide) (by decide) (by decide)),
     (h c _ (mem_uc main_arg3 (by decide))).trans (W5_kept m ρ c main_arg3 (by decide) (by decide) (by decide) (by decide) (by decide))⟩)
    (run_all m ρ)

end Cert.KernelIdeal.Hand

end
-- ==== Proof.Val.HostDefs.lean ====
/-
  The scalar arithmetic the two programs share, as functions of the row vectors it is applied to.

  Both programs turn a row vector v : [8192] into its weighted mean, the sum over the rows of v times the normalised
  weight, divided by 8192 (three operations: a product, a sum from zero, a division by the constant 8192). The distance
  correlation is the weighted mean of the products of the centred distances divided by the square root of the product of
  the two weighted means of their squares; the result adds a tenth of it to the cross-entropy term. Each is stated here
  once, over the operations themselves, and the reference's stages are these functions of its row vectors.
-/
import proofs.«174926_j17231408792190_1_alg».proof.Proof.Gen.ReferenceIdeal.Read

noncomputable section

namespace Cert.Val

open Idealize.ShloMosaic
open Cert.ReferenceIdeal (S8192 S_)
open Cert.ReferenceIdeal.Gen (reducesTo_S8192_S_d0 h_S_)

/-- A row vector over the 8192 rows, and a scalar, at the extended reals. -/
abbrev RowV : Type := (⟨S8192, .f32⟩ : BufTy).Contents (Elt Ideal)
abbrev Scal : Type := (⟨S_, .f32⟩ : BufTy).Contents (Elt Ideal)

/-- The weighted mean of a row vector: the sum over the rows of `v * nw`, from zero, divided by 8192. -/
def mean1 (v nw : RowV) : Scal :=
  Host.divf (F := Ideal) (s := S_) (φ := .f32)
    (Host.reduceAdd (F := Ideal) (mulf (F := Ideal) (s := S8192) (φ := .f32) v nw) (constant (F := Ideal) S_ .f32 0x00000000#32)
      reducesTo_S8192_S_d0 h_S_)
    (constant (F := Ideal) S_ .f32 0x46000000#32)

/-- The distance correlation of the three row vectors: the weighted mean of `ab` over the square root of the product of
    the weighted means of `aa` and `bb`. -/
def tail56 (ab aa bb nw : RowV) : Scal :=
  Host.divf (F := Ideal) (s := S_) (φ := .f32) (mean1 ab nw)
    (Host.sqrt (F := Ideal) (s := S_) (φ := .f32) (mulf (F := Ideal) (s := S_) (φ := .f32) (mean1 aa nw) (mean1 bb nw)))

/-- The result: the cross-entropy term plus a tenth (the constant 0.1) of the distance correlation. -/
def tail58 (bce d : Scal) : Scal :=
  addf (F := Ideal) (s := S_) (φ := .f32) bce
    (mulf (F := Ideal) (s := S_) (φ := .f32) (constant (F := Ideal) S_ .f32 0x3DCCCCCD#32) d)

open Cert.ReferenceIdeal.Read

/-- The reference's weighted mean of the first distance matrix's row means. -/
theorem ref_v49 (a0 a3 : RowV) :
    val_main_v49 (F := Ideal) a0 a3 = mean1 (val_main_v40 (F := Ideal) a0 a3) (val_main_v22 (F := Ideal) a3) := by
  unfold val_main_v49 val_main_v48 val_main_v47 val_main_cst_6 val_main_cst_7 mean1
  rfl

/-- The reference's weighted mean of the second distance matrix's row means. -/
theorem ref_v66 (a2 a3 : RowV) :
    val_main_v66 (F := Ideal) a2 a3 = mean1 (val_main_v57 (F := Ideal) a2 a3) (val_main_v22 (F := Ideal) a3) := by
  unfold val_main_v66 val_main_v65 val_main_v64 val_main_cst_10 val_main_cst_11 mean1
  rfl

/-- The reference's distance correlation is `tail56` of its three row vectors. -/
theorem ref_v101 (a0 a2 a3 : RowV) :
    val_main_v101 (F := Ideal) a0 a2 a3
      = tail56 (val_main_v75 (F := Ideal) a0 a2 a3) (val_main_v82 (F := Ideal) a0 a3) (val_main_v89 (F := Ideal) a2 a3)
          (val_main_v22 (F := Ideal) a3) := by
  unfold val_main_v101 val_main_v100 val_main_v99 val_main_v98 val_main_v97 val_main_v96 val_main_v95 val_main_v94
    val_main_v93 val_main_v92 val_main_v91 val_main_v90 val_main_cst_18 val_main_cst_19 val_main_cst_20 val_main_cst_21
    val_main_cst_22 val_main_cst_23 tail56 mean1
  rfl

/-- The reference's result is `tail58` of its cross-entropy term and its distance correlation. -/
theorem ref_v103 (a0 a1 a2 a3 : RowV) :
    val_main_v103 (F := Ideal) a0 a1 a2 a3
      = tail58 (val_main_v17 (F := Ideal) a0 a1 a3) (val_main_v101 (F := Ideal) a0 a2 a3) := by
  unfold val_main_v103 val_main_v102 val_main_cst_24 tail58
  rfl

end Cert.Val

end
-- ==== Proof.Val.HostCasts.lean ====
/-
  Recasts between a vector [A], a column [A, 1], a row [1, A] and a scalar's [1, 1], read at coordinates: a recast keeps
  the row-major position, and a unit axis contributes nothing to it.
-/
import Idealize.ShloMosaic.Lib.ValueLayout

noncomputable section

namespace Cert.Val

open Idealize.ShloMosaic Idealize.ShloMosaic.ValueIdx

variable {α : Type}

/-- [A, 1] cast to [A], at a: the operand at (a, 0). -/
theorem cast_a1_a {A : ℕ} (x : (⟨2, ![A, 1]⟩ : Shape).Idx → α)
    (h : (⟨2, ![A, 1]⟩ : Shape).ShapeCasts ⟨1, ![A]⟩) (a : Fin A) :
    shapeCast ⟨1, ![A]⟩ x h (ix1 a) = x (ix2 a (0 : Fin 1)) := by
  refine shapeCast_apply x h _ _ ?_
  rw [Shape.rowMajor_val_one, Shape.rowMajor_val_two]
  show a.val * 1 + 0 = a.val
  omega

/-- [A, 1] cast to [1, A], at (z, a): the operand at (a, 0). -/
theorem cast_a1_1a {A : ℕ} (x : (⟨2, ![A, 1]⟩ : Shape).Idx → α)
    (h : (⟨2, ![A, 1]⟩ : Shape).ShapeCasts ⟨2, ![1, A]⟩) (z : Fin 1) (a : Fin A) :
    shapeCast ⟨2, ![1, A]⟩ x h (ix2 z a) = x (ix2 a (0 : Fin 1)) := by
  refine shapeCast_apply x h _ _ ?_
  rw [Shape.rowMajor_val_two, Shape.rowMajor_val_two]
  show a.val * 1 + 0 = z.val * A + a.val
  have := z.isLt
  have hz : z.val = 0 := by omega
  rw [hz]
  omega

/-- A scalar cast to [1, 1], at (z, z'): the scalar. -/
theorem cast_s_11 (x : (⟨0, ![]⟩ : Shape).Idx → α)
    (h : (⟨0, ![]⟩ : Shape).ShapeCasts ⟨2, ![1, 1]⟩) (z z' : Fin 1) :
    shapeCast ⟨2, ![1, 1]⟩ x h (ix2 z z') = x ix0 := by
  refine shapeCast_apply x h _ _ ?_
  rw [Shape.rowMajor_val_two]
  have h0 : ((⟨0, ![]⟩ : Shape).rowMajor ix0).val = 0 := Shape.rowMajorPi_zero _ _
  rw [h0]
  show 0 = z.val * 1 + z'.val
  have := z.isLt
  have := z'.isLt
  omega

end Cert.Val

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.Val.Host0.lean ====
/-
  The first stretch of host operations, read as values of the launch memory.

  Before the first pass the program computes, from the four argument vectors, the cross-entropy term and the normalised
  weights with the reference's own first operations, and recasts the first and third arguments and the normalised
  weights as columns [8192, 1] and rows [1, 8192] for the pass to read.
-/
import proofs.«174926_j17231408792190_1_alg».proof.Proof.KI.Fold
import proofs.«174926_j17231408792190_1_alg».proof.Proof.Val.HostDefs
import proofs.«174926_j17231408792190_1_alg».proof.Proof.LibRowOps
import Idealize.ShloMosaic.Lib.StableHlo.Run
import Idealize.ShloMosaic.Lib.ValueLayout

set_option maxRecDepth 16384

noncomputable section

namespace Cert.Val

open Cert.KernelIdeal Cert.KernelIdeal.Gen Cert.KernelIdeal.Hand
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- The launch memory's four argument vectors. -/
abbrev arg0 : RowV := m ((c.tc : Thread nD τ).loc main_arg0)
abbrev arg1 : RowV := m ((c.tc : Thread nD τ).loc main_arg1)
abbrev arg2 : RowV := m ((c.tc : Thread nD τ).loc main_arg2)
abbrev arg3 : RowV := m ((c.tc : Thread nD τ).loc main_arg3)

/-- The cross-entropy term is the reference's, of the first, second and fourth arguments. -/
theorem W1_v17 :
    (W1 m ρ c main_v17 : Scal) = Cert.ReferenceIdeal.Read.val_main_v17 (F := Ideal) (arg0 m c) (arg1 m c) (arg3 m c) := by
  show StableHlo.after hostOps0 (W0 m ρ c) (Proc.devRef .tc main_v17) = _
  after_results_simp
  rfl

/-- The normalised weights are the reference's, of the fourth argument. -/
theorem W1_v22 :
    (W1 m ρ c main_v22 : RowV) = Cert.ReferenceIdeal.Read.val_main_v22 (F := Ideal) (arg3 m c) := by
  show StableHlo.after hostOps0 (W0 m ρ c) (Proc.devRef .tc main_v22) = _
  after_results_simp
  rfl

/-- The buffers the first stretch does not write are as launched. -/
theorem W1_of (r : Ref sig .tc) (h : r ∉ hostOps0_W) :
    W1 m ρ c (Proc.devRef .tc r) = W0 m ρ c (Proc.devRef .tc r) :=
  StableHlo.after_of_writes_sub hostOps0 _ hostOps0_writes h

/-- The first argument as a column: row `l` holds the argument's entry `l`. -/
theorem W1_v23 (l : Fin 8192) (z : Fin 1) :
    (W1 m ρ c main_v23 : Vec Ideal S8192x1 .f32) (ix2 l z) = arg0 m c (ix1 l) := by
  have e : (W1 m ρ c main_v23 : Vec Ideal S8192x1 .f32)
      = shapeCast S8192x1 (arg0 m c) shapeCasts_S8192_S8192x1 := by
    show StableHlo.after hostOps0 (W0 m ρ c) (Proc.devRef .tc main_v23) = _
    after_results_simp
    rfl
  rw [e]
  exact Cert.LibRowOps.cast_a_a1 _ _ l z

/-- The first argument as a row: column `l` holds the argument's entry `l`. -/
theorem W1_v24 (z : Fin 1) (l : Fin 8192) :
    (W1 m ρ c main_v24 : Vec Ideal S1x8192 .f32) (ix2 z l) = arg0 m c (ix1 l) := by
  have e : (W1 m ρ c main_v24 : Vec Ideal S1x8192 .f32)
      = shapeCast S1x8192 (arg0 m c) shapeCasts_S8192_S1x8192 := by
    show StableHlo.after hostOps0 (W0 m ρ c) (Proc.devRef .tc main_v24) = _
    after_results_simp
    rfl
  rw [e]
  exact shapeCast_a_1a_apply _ _ z l

/-- The third argument as a column. -/
theorem W1_v25 (l : Fin 8192) (z : Fin 1) :
    (W1 m ρ c main_v25 : Vec Ideal S8192x1 .f32) (ix2 l z) = arg2 m c (ix1 l) := by
  have e : (W1 m ρ c main_v25 : Vec Ideal S8192x1 .f32)
      = shapeCast S8192x1 (arg2 m c) shapeCasts_S8192_S8192x1 := by
    show StableHlo.after hostOps0 (W0 m ρ c) (Proc.devRef .tc main_v25) = _
    after_results_simp
    rfl
  rw [e]
  exact Cert.LibRowOps.cast_a_a1 _ _ l z

/-- The third argument as a row. -/
theorem W1_v26 (z : Fin 1) (l : Fin 8192) :
    (W1 m ρ c main_v26 : Vec Ideal S1x8192 .f32) (ix2 z l) = arg2 m c (ix1 l) := by
  have e : (W1 m ρ c main_v26 : Vec Ideal S1x8192 .f32)
      = shapeCast S1x8192 (arg2 m c) shapeCasts_S8192_S1x8192 := by
    show StableHlo.after hostOps0 (W0 m ρ c) (Proc.devRef .tc main_v26) = _
    after_results_simp
    rfl
  rw [e]
  exact shapeCast_a_1a_apply _ _ z l

/-- The normalised weights as a row: column `l` holds the reference's normalised weight `l`. -/
theorem W1_v27 (z : Fin 1) (l : Fin 8192) :
    (W1 m ρ c main_v27 : Vec Ideal S1x8192 .f32) (ix2 z l)
      = Cert.ReferenceIdeal.Read.val_main_v22 (F := Ideal) (arg3 m c) (ix1 l) := by
  have e : (W1 m ρ c main_v27 : Vec Ideal S1x8192 .f32)
      = shapeCast S1x8192 (W1 m ρ c main_v22 : Vec Ideal S8192 .f32) shapeCasts_S8192_S1x8192 := by
    show StableHlo.after hostOps0 (W0 m ρ c) (Proc.devRef .tc main_v27)
      = shapeCast S1x8192 (StableHlo.after hostOps0 (W0 m ρ c) (Proc.devRef .tc main_v22)) shapeCasts_S8192_S1x8192
    after_results_simp
    rfl
  rw [e, shapeCast_a_1a_apply _ _ z l]
  exact congrFun (W1_v22 m ρ c) (ix1 l)

end Cert.Val

end
-- ==== Proof.Val.Host1.lean ====
/-
  The second stretch of host operations, read as values of the first pass's two result columns.

  Between the passes the program recasts each result column [8192, 1] as a row [1, 8192] for the second pass to read,
  and takes each column's weighted mean (the column recast as a vector, times the normalised weights, summed from zero,
  divided by 8192), recast as a [1, 1] array.
-/
import proofs.«174926_j17231408792190_1_alg».proof.Proof.KI.Fold
import proofs.«174926_j17231408792190_1_alg».proof.Proof.Val.HostDefs
import proofs.«174926_j17231408792190_1_alg».proof.Proof.Val.HostCasts
import Idealize.ShloMosaic.Lib.StableHlo.Run

set_option maxRecDepth 16384

noncomputable section

namespace Cert.Val

open Cert.KernelIdeal Cert.KernelIdeal.Gen Cert.KernelIdeal.Hand
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- The first pass's two result columns, as the second stretch finds them. -/
abbrev X0 : Vec Ideal S8192x1 .f32 := W2 m ρ c main_v28_0
abbrev X1 : Vec Ideal S8192x1 .f32 := W2 m ρ c main_v28_1

/-- A column recast as a vector, as the program spells it. -/
abbrev colVec (X : Vec Ideal S8192x1 .f32) : RowV := shapeCast S8192 X shapeCasts_S8192x1_S8192

/-- A column recast as a vector holds, at `l`, the column's row `l`. -/
theorem colVec_apply (X : Vec Ideal S8192x1 .f32) (l : Fin 8192) : colVec X (ix1 l) = X (ix2 l (0 : Fin 1)) :=
  cast_a1_a X _ l

/-- The buffers the second stretch does not write are as the first pass left them. -/
theorem W3_of (r : Ref sig .tc) (h : r ∉ hostOps1_W) :
    W3 m ρ c (Proc.devRef .tc r) = W2 m ρ c (Proc.devRef .tc r) :=
  StableHlo.after_of_writes_sub hostOps1 _ hostOps1_writes h

/-- The first result column as a row: column `l` holds the result's row `l`. -/
theorem W3_v39 (z : Fin 1) (l : Fin 8192) :
    (W3 m ρ c main_v39 : Vec Ideal S1x8192 .f32) (ix2 z l) = X0 m ρ c (ix2 l (0 : Fin 1)) := by
  have e : (W3 m ρ c main_v39 : Vec Ideal S1x8192 .f32)
      = shapeCast S1x8192 (X0 m ρ c) shapeCasts_S8192x1_S1x8192 := by
    show StableHlo.after hostOps1 (W2 m ρ c) (Proc.devRef .tc main_v39) = _
    after_results_simp
    rfl
  rw [e]
  exact cast_a1_1a _ _ z l

/-- The second result column as a row. -/
theorem W3_v40 (z : Fin 1) (l : Fin 8192) :
    (W3 m ρ c main_v40 : Vec Ideal S1x8192 .f32) (ix2 z l) = X1 m ρ c (ix2 l (0 : Fin 1)) := by
  have e : (W3 m ρ c main_v40 : Vec Ideal S1x8192 .f32)
      = shapeCast S1x8192 (X1 m ρ c) shapeCasts_S8192x1_S1x8192 := by
    show StableHlo.after hostOps1 (W2 m ρ c) (Proc.devRef .tc main_v40) = _
    after_results_simp
    rfl
  rw [e]
  exact cast_a1_1a _ _ z l

/-- The first result column's weighted mean, as a scalar. -/
theorem W3_v32 :
    (W3 m ρ c main_v32 : Scal) = mean1 (colVec (X0 m ρ c)) (W2 m ρ c main_v22 : RowV) := by
  show StableHlo.after hostOps1 (W2 m ρ c) (Proc.devRef .tc main_v32) = _
  after_results_simp
  rfl

/-- The second result column's weighted mean, as a scalar. -/
theorem W3_v36 :
    (W3 m ρ c main_v36 : Scal) = mean1 (colVec (X1 m ρ c)) (W2 m ρ c main_v22 : RowV) := by
  show StableHlo.after hostOps1 (W2 m ρ c) (Proc.devRef .tc main_v36) = _
  after_results_simp
  rfl

/-- The [1, 1] array the second pass reads holds the first result column's weighted mean. -/
theorem W3_v37 (z z' : Fin 1) :
    (W3 m ρ c main_v37 : Vec Ideal S1x1 .f32) (ix2 z z')
      = mean1 (colVec (X0 m ρ c)) (W2 m ρ c main_v22 : RowV) ix0 := by
  have e : (W3 m ρ c main_v37 : Vec Ideal S1x1 .f32)
      = shapeCast S1x1 (mean1 (colVec (X0 m ρ c)) (W2 m ρ c main_v22 : RowV)) shapeCasts_S_S1x1 := by
    show StableHlo.after hostOps1 (W2 m ρ c) (Proc.devRef .tc main_v37) = _
    after_results_simp
    rfl
  rw [e]
  exact cast_s_11 _ _ z z'

/-- The [1, 1] array the second pass reads holds the second result column's weighted mean. -/
theorem W3_v38 (z z' : Fin 1) :
    (W3 m ρ c main_v38 : Vec Ideal S1x1 .f32) (ix2 z z')
      = mean1 (colVec (X1 m ρ c)) (W2 m ρ c main_v22 : RowV) ix0 := by
  have e : (W3 m ρ c main_v38 : Vec Ideal S1x1 .f32)
      = shapeCast S1x1 (mean1 (colVec (X1 m ρ c)) (W2 m ρ c main_v22 : RowV)) shapeCasts_S_S1x1 := by
    show StableHlo.after hostOps1 (W2 m ρ c) (Proc.devRef .tc main_v38) = _
    after_results_simp
    rfl
  rw [e]
  exact cast_s_11 _ _ z z'

end Cert.Val

end
-- ==== Proof.Val.Host2.lean ====
/-
  The last stretch of host operations, read as values of the second pass's three result columns.

  After the second pass the program recasts each result column as a vector, takes the three weighted means, divides the
  first by the square root of the product of the other two, and adds a tenth of the quotient to the cross-entropy term
  the first stretch computed.
-/
import proofs.«174926_j17231408792190_1_alg».proof.Proof.KI.Fold
import proofs.«174926_j17231408792190_1_alg».proof.Proof.Val.HostDefs
import Idealize.ShloMosaic.Lib.StableHlo.Run

set_option maxRecDepth 16384

noncomputable section

namespace Cert.Val

open Cert.KernelIdeal Cert.KernelIdeal.Gen Cert.KernelIdeal.Hand
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The second pass's three result columns, as the last stretch finds them. -/
abbrev Y0 : Vec Ideal S8192x1 .f32 := W4 m ρ c main_v41_0
abbrev Y1 : Vec Ideal S8192x1 .f32 := W4 m ρ c main_v41_1
abbrev Y2 : Vec Ideal S8192x1 .f32 := W4 m ρ c main_v41_2

/-- The buffers the last stretch does not write are as the second pass left them. -/
theorem W5_of (r : Ref sig .tc) (h : r ∉ hostOps2_W) :
    W5 m ρ c (Proc.devRef .tc r) = W4 m ρ c (Proc.devRef .tc r) :=
  StableHlo.after_of_writes_sub hostOps2 _ hostOps2_writes h

/-- The cross-entropy term is untouched by the last stretch. -/
theorem W5_v17 : W5 m ρ c main_v17 = W4 m ρ c main_v17 :=
  W5_of m ρ c main_v17 (by decide)

/-- The distance correlation of the three result columns, each recast as a vector. -/
theorem W5_v56 :
    (W5 m ρ c main_v56 : Scal)
      = tail56 (shapeCast S8192 (Y0 m ρ c) shapeCasts_S8192x1_S8192) (shapeCast S8192 (Y1 m ρ c) shapeCasts_S8192x1_S8192)
          (shapeCast S8192 (Y2 m ρ c) shapeCasts_S8192x1_S8192) (W4 m ρ c main_v22 : RowV) := by
  show StableHlo.after hostOps2 (W4 m ρ c) (Proc.devRef .tc main_v56) = _
  after_results_simp
  rfl

/-- The result: the cross-entropy term plus a tenth of the distance correlation. -/
theorem W5_v58 :
    (W5 m ρ c main_v58 : Scal) = tail58 (W4 m ρ c main_v17 : Scal) (W5 m ρ c main_v56 : Scal) := by
  show StableHlo.after hostOps2 (W4 m ρ c) (Proc.devRef .tc main_v58)
    = tail58 (W4 m ρ c (Proc.devRef .tc main_v17)) (StableHlo.after hostOps2 (W4 m ρ c) (Proc.devRef .tc main_v56))
  after_results_simp
  rfl

end Cert.Val

end
-- ==== Proof.Val.Final.lean ====
/-
  The kernel program's three results are the reference's stages.

  The cross-entropy term is computed by the first stretch of host operations with the reference's own operations and is
  touched by nothing afterwards. The distance correlation is the last stretch's scalar arithmetic applied to the second
  pass's three result columns recast as vectors; those columns hold, row by row, the reference's three weighted row
  means of products of centred distances, and the normalised weights the last stretch reads are the first stretch's,
  touched by nothing in between. The result adds a tenth of the distance correlation to the cross-entropy term.
-/
import proofs.«174926_j17231408792190_1_alg».proof.Proof.KI.Fold
import proofs.«174926_j17231408792190_1_alg».proof.Proof.Val.HostDefs
import proofs.«174926_j17231408792190_1_alg».proof.Proof.Val.HostCasts
import proofs.«174926_j17231408792190_1_alg».proof.Proof.Val.Host0
import proofs.«174926_j17231408792190_1_alg».proof.Proof.Val.Host1
import proofs.«174926_j17231408792190_1_alg».proof.Proof.Val.Host2

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A column recast as a vector is the vector whose entry `l` is the column's row `l`. -/
theorem colVec_eq (Y : Vec Ideal S8192x1 .f32) (v : RowV) (h : ∀ l : Fin 8192, Y (ix2 l (0 : Fin 1)) = v (ix1 l)) :
    (shapeCast S8192 Y shapeCasts_S8192x1_S8192 : RowV) = v := by
  funext i
  obtain ⟨l, rfl⟩ : ∃ l : Fin 8192, i = ix1 l := ⟨i 0, eq_ix1 i⟩
  exact (cast_a1_a Y _ l).trans (h l)

/-- Neither pass has the cross-entropy term among its arrays. -/
theorem W4_v17_of (h3 : W3 m ρ c main_v17 = W2 m ρ c main_v17) : W4 m ρ c main_v17 = W1 m ρ c main_v17 :=
  (W4_of_ne m ρ c main_v17 (by decide)).trans (h3.trans (W2_of_ne m ρ c main_v17 (by decide)))

/-- Neither pass has the normalised weights among its arrays. -/
theorem W4_v22_of (h3 : W3 m ρ c main_v22 = W2 m ρ c main_v22) : W4 m ρ c main_v22 = W1 m ρ c main_v22 :=
  (W4_of_ne m ρ c main_v22 (by decide)).trans (h3.trans (W2_of_ne m ρ c main_v22 (by decide)))

/-- The cross-entropy term after the whole program is the first stretch's. -/
theorem K17_of (v : Scal) (h5 : W5 m ρ c main_v17 = W4 m ρ c main_v17) (h3 : W3 m ρ c main_v17 = W2 m ρ c main_v17)
    (h1 : (W1 m ρ c main_v17 : Scal) = v) : (W5 m ρ c main_v17 : Scal) = v :=
  h5.trans ((W4_v17_of m ρ c h3).trans h1)

/-- The distance correlation after the whole program, from the second pass's three columns row by row. -/
theorem K56_of (ab aa bb nw : RowV)
    (h56 : (W5 m ρ c main_v56 : Scal)
      = tail56 (shapeCast S8192 (W4 m ρ c main_v41_0 : Vec Ideal S8192x1 .f32) shapeCasts_S8192x1_S8192)
          (shapeCast S8192 (W4 m ρ c main_v41_1 : Vec Ideal S8192x1 .f32) shapeCasts_S8192x1_S8192)
          (shapeCast S8192 (W4 m ρ c main_v41_2 : Vec Ideal S8192x1 .f32) shapeCasts_S8192x1_S8192)
          (W4 m ρ c main_v22 : RowV))
    (E3 : ∀ l : Fin 8192, (W4 m ρ c main_v41_0 : Vec Ideal S8192x1 .f32) (ix2 l (0 : Fin 1)) = ab (ix1 l))
    (E4 : ∀ l : Fin 8192, (W4 m ρ c main_v41_1 : Vec Ideal S8192x1 .f32) (ix2 l (0 : Fin 1)) = aa (ix1 l))
    (E5 : ∀ l : Fin 8192, (W4 m ρ c main_v41_2 : Vec Ideal S8192x1 .f32) (ix2 l (0 : Fin 1)) = bb (ix1 l))
    (h3 : W3 m ρ c main_v22 = W2 m ρ c main_v22) (h1 : (W1 m ρ c main_v22 : RowV) = nw) :
    (W5 m ρ c main_v56 : Scal) = tail56 ab aa bb nw := by
  refine h56.trans ?_
  exact congr (congr (congr (congrArg tail56 (colVec_eq _ ab E3)) (colVec_eq _ aa E4)) (colVec_eq _ bb E5))
    ((W4_v22_of m ρ c h3).trans h1)

/-- The result after the whole program, from the cross-entropy term and the distance correlation. -/
theorem K58_of (bce d : Scal)
    (h58 : (W5 m ρ c main_v58 : Scal) = tail58 (W4 m ρ c main_v17 : Scal) (W5 m ρ c main_v56 : Scal))
    (h3 : W3 m ρ c main_v17 = W2 m ρ c main_v17) (h1 : (W1 m ρ c main_v17 : Scal) = bce)
    (hd : (W5 m ρ c main_v56 : Scal) = d) :
    (W5 m ρ c main_v58 : Scal) = tail58 bce d := by
  refine h58.trans ?_
  exact congr (congrArg tail58 ((W4_v17_of m ρ c h3).trans h1)) hd

/-! ## The three results -/

open Cert.ReferenceIdeal.Read in
/-- The cross-entropy term is the reference's. -/
theorem K17 :
    (W5 m ρ c main_v17 : Scal) = val_main_v17 (F := Ideal) (arg0 m c) (arg1 m c) (arg3 m c) :=
  K17_of m ρ c _ (W5_v17 m ρ c) (W3_of m ρ c main_v17 (by decide)) (W1_v17 m ρ c)

open Cert.ReferenceIdeal.Read in
/-- The distance correlation is the reference's, given that the second pass's three result columns hold the reference's
    three row vectors row by row. -/
theorem K56_of_rows
    (E3 : ∀ l : Fin 8192, (W4 m ρ c main_v41_0 : Vec Ideal S8192x1 .f32) (ix2 l (0 : Fin 1))
      = val_main_v75 (F := Ideal) (arg0 m c) (arg2 m c) (arg3 m c) (ix1 l))
    (E4 : ∀ l : Fin 8192, (W4 m ρ c main_v41_1 : Vec Ideal S8192x1 .f32) (ix2 l (0 : Fin 1))
      = val_main_v82 (F := Ideal) (arg0 m c) (arg3 m c) (ix1 l))
    (E5 : ∀ l : Fin 8192, (W4 m ρ c main_v41_2 : Vec Ideal S8192x1 .f32) (ix2 l (0 : Fin 1))
      = val_main_v89 (F := Ideal) (arg2 m c) (arg3 m c) (ix1 l)) :
    (W5 m ρ c main_v56 : Scal) = val_main_v101 (F := Ideal) (arg0 m c) (arg2 m c) (arg3 m c) :=
  (K56_of m ρ c _ _ _ _ (W5_v56 m ρ c) E3 E4 E5 (W3_of m ρ c main_v22 (by decide)) (W1_v22 m ρ c)).trans
    (ref_v101 (arg0 m c) (arg2 m c) (arg3 m c)).symm

open Cert.ReferenceIdeal.Read in
/-- The result is the reference's, under the same hypothesis. -/
theorem K58_of_rows
    (E3 : ∀ l : Fin 8192, (W4 m ρ c main_v41_0 : Vec Ideal S8192x1 .f32) (ix2 l (0 : Fin 1))
      = val_main_v75 (F := Ideal) (arg0 m c) (arg2 m c) (arg3 m c) (ix1 l))
    (E4 : ∀ l : Fin 8192, (W4 m ρ c main_v41_1 : Vec Ideal S8192x1 .f32) (ix2 l (0 : Fin 1))
      = val_main_v82 (F := Ideal) (arg0 m c) (arg3 m c) (ix1 l))
    (E5 : ∀ l : Fin 8192, (W4 m ρ c main_v41_2 : Vec Ideal S8192x1 .f32) (ix2 l (0 : Fin 1))
      = val_main_v89 (F := Ideal) (arg2 m c) (arg3 m c) (ix1 l)) :
    (W5 m ρ c main_v58 : Scal) = val_main_v103 (F := Ideal) (arg0 m c) (arg1 m c) (arg2 m c) (arg3 m c) :=
  (K58_of m ρ c _ _ (W5_v58 m ρ c) (W3_of m ρ c main_v17 (by decide)) (W1_v17 m ρ c)
      (K56_of_rows m ρ c E3 E4 E5)).trans
    (ref_v103 (arg0 m c) (arg1 m c) (arg2 m c) (arg3 m c)).symm

end Cert.Val

end
-- ==== Proof.Val.Ops.lean ====
/-
  Per-tile operations read at coordinates, at the extended reals.

  A tile of the weighted distance matrix is built from a column block x0 : [a, 1] (the rows' values), a row block
  x1 : [1, b] (the columns' values) and a row block w : [1, b] (the columns' weights): both blocks are broadcast to [a, b],
  the entry (p, q) is |x0 p - x1 q| * w q, and the tile's contribution to row p is the sum of these over the b columns,
  recast as a column. A product tile is the same with the entry A (p, q) * B (p, q) * w q for two [a, b] matrices.
  A column divided by a broadcast scalar is divided entry by entry.
-/
import proofs.«174926_j17231408792190_1_alg».proof.Proof.LibRowOps
import Idealize.ShloMosaic.Lib.Pipeline.Value
import Idealize.ShloMosaic.Lib.ValueIdx
import Idealize.ShloMosaic.PureOps.Ideal.Laws

noncomputable section

open scoped BigOperators

namespace Cert.Val

open Idealize.ShloMosaic Idealize.ShloMosaic.ValueIdx Cert.LibRowOps

/-- An absolute value at an index is the extended reals' `max z (-z)` of the element. -/
theorem absf_apply {s : Shape} {φ : FTy} (a : FVec Ideal s φ) (i : s.Idx) : absf a i = max (a i) (-(a i)) := rfl

/-- The distance entry of a tile: a column block against a row block, at `(p, q)`. -/
theorem absdiff_apply {a b : ℕ} (x0 : FVec Ideal ⟨2, ![a, 1]⟩ .f32) (x1 : FVec Ideal ⟨2, ![1, b]⟩ .f32)
    (hb0 : (⟨2, ![a, 1]⟩ : Shape).Broadcasts ⟨2, ![a, b]⟩) (hb1 : (⟨2, ![1, b]⟩ : Shape).Broadcasts ⟨2, ![a, b]⟩)
    (p : Fin a) (q : Fin b) :
    absf (subf (broadcastTo ⟨2, ![a, b]⟩ x0 hb0) (broadcastTo ⟨2, ![a, b]⟩ x1 hb1)) (ix2 p q)
      = max (x0 (ix2 p 0) - x1 (ix2 0 q)) (-(x0 (ix2 p 0) - x1 (ix2 0 q))) := by
  rw [absf_apply, subf_apply, bcast_a1_ab, bcast_1b_ab]

/-- A weighted sum over a tile's columns, recast as a column, at `(p, 0)`: the sum over the columns `q` of the entry
    `(p, q)` times the weight of `q`. -/
theorem wsum_col_apply {a b : ℕ} (m : FVec Ideal ⟨2, ![a, b]⟩ .f32) (w : FVec Ideal ⟨2, ![1, b]⟩ .f32)
    (hb1 : (⟨2, ![1, b]⟩ : Shape).Broadcasts ⟨2, ![a, b]⟩)
    (hr : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (z : Fin 1) :
    shapeCast ⟨2, ![a, 1]⟩ (multiReduction .add [1] ⟨1, ![a]⟩ (mulf m (broadcastTo ⟨2, ![a, b]⟩ w hb1))
        0x00000000#32 hr hφ hacc) hc (ix2 p z)
      = ∑ q : Fin b, m (ix2 p q) * w (ix2 0 q) := by
  rw [cast_a_a1, sum_last2]
  refine Finset.sum_congr rfl fun q _ => ?_
  rw [mulf_apply, bcast_1b_ab]

/-- A tile's contribution to the weighted row sums of distances, at `(p, 0)`. -/
theorem absdiff_rowsum_apply {a b : ℕ} (x0 : FVec Ideal ⟨2, ![a, 1]⟩ .f32) (x1 w : FVec Ideal ⟨2, ![1, b]⟩ .f32)
    (hb0 : (⟨2, ![a, 1]⟩ : Shape).Broadcasts ⟨2, ![a, b]⟩) (hb1 : (⟨2, ![1, b]⟩ : Shape).Broadcasts ⟨2, ![a, b]⟩)
    (hr : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (z : Fin 1) :
    shapeCast ⟨2, ![a, 1]⟩ (multiReduction .add [1] ⟨1, ![a]⟩
        (mulf (absf (subf (broadcastTo ⟨2, ![a, b]⟩ x0 hb0) (broadcastTo ⟨2, ![a, b]⟩ x1 hb1)))
          (broadcastTo ⟨2, ![a, b]⟩ w hb1))
        0x00000000#32 hr hφ hacc) hc (ix2 p z)
      = ∑ q : Fin b, max (x0 (ix2 p 0) - x1 (ix2 0 q)) (-(x0 (ix2 p 0) - x1 (ix2 0 q))) * w (ix2 0 q) := by
  rw [wsum_col_apply]
  refine Finset.sum_congr rfl fun q _ => ?_
  rw [absdiff_apply]

/-- A column divided by a broadcast scalar word, at an index. -/
theorem div_const_apply {s : Shape} (v : FVec Ideal s .f32) (k : BitVec 32) (i : s.Idx) :
    divf v (broadcast s (Scalar.ofBits (F := Ideal) .f32 k)) i = Ideal.div (v i) (Ideal.ofBits .f32 k) := rfl

/-- A broadcast of the zero word, at an index, is the extended real `0`. -/
theorem zeros_apply {s : Shape} (i : s.Idx) :
    broadcast s (Scalar.ofBits (F := Ideal) .f32 0x00000000#32) i = 0 := by
  rw [broadcast_apply]
  exact Ideal.ofBits_zero_f32

end Cert.Val

end
-- ==== Proof.Val.Rows0a.lean ====
/-
  Region 0, one grid point: the payloads read at coordinates, at the extended reals.

  A grid point is (row tile, column tile). Its update adds to each accumulator column, at row p of the tile, the sum over
  the tile's 1024 columns q of |x0 p - x1 q| * w q, where x0 is the row tile's block of values (a column), x1 the column
  tile's block of values (a row) and w the column tile's block of weights (a row). The reset stores zeros; the
  write-back divides the accumulator by 8192.
-/
import proofs.«174926_j17231408792190_1_alg».proof.Proof.KI.R0Data
import proofs.«174926_j17231408792190_1_alg».proof.Proof.Val.Ops

noncomputable section

open scoped BigOperators

namespace Cert.Val

open Cert.KernelIdeal Cert.KernelIdeal.Gen Cert.KernelIdeal.Hand
open Idealize.ShloMosaic Idealize.ShloMosaic.ValueIdx

/-- The first accumulator's update at row `p`: what it held plus the tile's weighted sum of distances. -/
theorem pay7_apply (x0 : Vec Ideal S512x1 .f32) (x1 w : Vec Ideal S1x1024 .f32) (s : Vec Ideal S512x1 .f32)
    (p : Fin 512) (z : Fin 1) :
    k0_pay7 (F := Ideal) x0 x1 w s (ix2 p z)
      = s (ix2 p z) + ∑ q : Fin 1024, max (x0 (ix2 p 0) - x1 (ix2 0 q)) (-(x0 (ix2 p 0) - x1 (ix2 0 q))) * w (ix2 0 q) := by
  unfold k0_pay7 k0_pay6
  simp only [shapeCast_self]
  refine (addf_apply _ _ _).trans ?_
  exact congrArg (s (ix2 p z) + ·) (absdiff_rowsum_apply x0 x1 w _ _ _ _ _ _ p z)

/-- The second accumulator's update at row `p`: the same of the second pair of blocks. -/
theorem pay8_apply (x0 : Vec Ideal S512x1 .f32) (x1 w : Vec Ideal S1x1024 .f32) (s : Vec Ideal S512x1 .f32)
    (p : Fin 512) (z : Fin 1) :
    k0_pay8 (F := Ideal) x0 x1 w s (ix2 p z)
      = s (ix2 p z) + ∑ q : Fin 1024, max (x0 (ix2 p 0) - x1 (ix2 0 q)) (-(x0 (ix2 p 0) - x1 (ix2 0 q))) * w (ix2 0 q) := by
  unfold k0_pay8 k0_pay6
  simp only [shapeCast_self]
  refine (addf_apply _ _ _).trans ?_
  exact congrArg (s (ix2 p z) + ·) (absdiff_rowsum_apply x0 x1 w _ _ _ _ _ _ p z)

/-- The recast of the second accumulator before its store changes nothing. -/
theorem pay1_eq (v : FVec Ideal S512x1 .f32) : k0_pay1 (F := Ideal) v = v := by
  unfold k0_pay1
  exact shapeCast_self _ _

/-- The first write-back divides by 8192. -/
theorem pay2_apply (v : Vec Ideal S512x1 .f32) (i : S512x1.Idx) :
    k0_pay2 (F := Ideal) v i = Ideal.div (v i) (Ideal.ofBits .f32 0x46000000#32) := rfl

/-- The second write-back divides by 8192. -/
theorem pay3_apply (v : Vec Ideal S512x1 .f32) (i : S512x1.Idx) :
    k0_pay3 (F := Ideal) v i = Ideal.div (v i) (Ideal.ofBits .f32 0x46000000#32) := rfl

/-- The first accumulator's reset value is zero everywhere. -/
theorem pay4_apply (i : S512x1.Idx) : k0_pay4 (F := Ideal) i = 0 := by
  unfold k0_pay4
  simp only [shapeCast_self]
  exact zeros_apply i

/-- The second accumulator's reset value is zero everywhere. -/
theorem pay5_apply (i : S512x1.Idx) : k0_pay5 (F := Ideal) i = 0 := by
  unfold k0_pay5
  simp only [shapeCast_self]
  exact zeros_apply i

end Cert.Val

end
-- ==== Proof.Val.Rows0b.lean ====
/-
  Region 0: the blocks of a grid point read off their arrays, and the index maps over the grid.

  The grid is 16 row tiles by 8 column tiles, point t = 8 * (row tile) + (column tile). The column windows (the values of
  the row tile's 512 rows, as [512, 1] blocks of an [8192, 1] array) are at block (t / 8, 0); the row windows (the values
  and the weights of the column tile's 1024 columns, as [1, 1024] blocks of a [1, 8192] array) are at block (0, t % 8).
  An element of a block sits in its array, on each axis, at block index times block size plus its coordinate in the block.
-/
import proofs.«174926_j17231408792190_1_alg».proof.Proof.KI.R0Data
import Idealize.ShloMosaic.Lib.ValueIdx
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem

/-- The windows' block indices at every grid point. -/
theorem idx_facts0 : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = t.val / 8 ∧ win0_5.index t (1 : Fin 2) = 0
    ∧ win0_6.index t (0 : Fin 2) = t.val / 8 ∧ win0_6.index t (1 : Fin 2) = 0 :=
  (by decide +kernel : ∀ t : Fin grid0.N, _)

variable (V : (c : Dev nD) → (b : Ref sig .tc) → Buf (Elt Ideal) ((c : Thread nD τ).loc b))

/-- Window 0's block at point `t`, at row `p`: the array's row `512 * (t / 8) + p`. -/
theorem iblk0_0_apply (c : Dev nD) (t : Fin cfg0.N) (p : Fin 512) (z : Fin 1) (r : Fin 8192)
    (hr : r.val = 512 * (t.val / 8) + p.val) :
    (iblk0 V c 0 t : Vec Ideal S512x1 .f32) (ix2 p z) = (V c main_v23 : S8192x1.Idx → EReal) (ix2 r 0) := by
  unfold iblk0
  rw [View.read_apply]
  show V c main_v23 _ = V c main_v23 _
  congr 1
  funext a
  apply Fin.ext
  have e := idx_facts0 t
  match a with
  | ⟨0, _⟩ => show win0_0.index t (0 : Fin 2) * 512 + 1 * p.val = r.val; omega
  | ⟨1, _⟩ => show win0_0.index t (1 : Fin 2) * 1 + 1 * z.val = 0; have := z.isLt; omega

/-- Window 1's block at point `t`, at column `q`: the array's column `1024 * (t % 8) + q`. -/
theorem iblk0_1_apply (c : Dev nD) (t : Fin cfg0.N) (z : Fin 1) (q : Fin 1024) (l : Fin 8192)
    (hl : l.val = 1024 * (t.val % 8) + q.val) :
    (iblk0 V c 1 t : Vec Ideal S1x1024 .f32) (ix2 z q) = (V c main_v24 : S1x8192.Idx → EReal) (ix2 0 l) := by
  unfold iblk0
  rw [View.read_apply]
  show V c main_v24 _ = V c main_v24 _
  congr 1
  funext a
  apply Fin.ext
  have e := idx_facts0 t
  match a with
  | ⟨0, _⟩ => show win0_1.index t (0 : Fin 2) * 1 + 1 * z.val = 0; have := z.isLt; omega
  | ⟨1, _⟩ => show win0_1.index t (1 : Fin 2) * 1024 + 1 * q.val = l.val; omega

/-- Window 2's block at point `t`, at row `p`: the array's row `512 * (t / 8) + p`. -/
theorem iblk0_2_apply (c : Dev nD) (t : Fin cfg0.N) (p : Fin 512) (z : Fin 1) (r : Fin 8192)
    (hr : r.val = 512 * (t.val / 8) + p.val) :
    (iblk0 V c 2 t : Vec Ideal S512x1 .f32) (ix2 p z) = (V c main_v25 : S8192x1.Idx → EReal) (ix2 r 0) := by
  unfold iblk0
  rw [View.read_apply]
  show V c main_v25 _ = V c main_v25 _
  congr 1
  funext a
  apply Fin.ext
  have e := idx_facts0 t
  match a with
  | ⟨0, _⟩ => show win0_2.index t (0 : Fin 2) * 512 + 1 * p.val = r.val; omega
  | ⟨1, _⟩ => show win0_2.index t (1 : Fin 2) * 1 + 1 * z.val = 0; have := z.isLt; omega

/-- Window 3's block at point `t`, at column `q`: the array's column `1024 * (t % 8) + q`. -/
theorem iblk0_3_apply (c : Dev nD) (t : Fin cfg0.N) (z : Fin 1) (q : Fin 1024) (l : Fin 8192)
    (hl : l.val = 1024 * (t.val % 8) + q.val) :
    (iblk0 V c 3 t : Vec Ideal S1x1024 .f32) (ix2 z q) = (V c main_v26 : S1x8192.Idx → EReal) (ix2 0 l) := by
  unfold iblk0
  rw [View.read_apply]
  show V c main_v26 _ = V c main_v26 _
  congr 1
  funext a
  apply Fin.ext
  have e := idx_facts0 t
  match a with
  | ⟨0, _⟩ => show win0_3.index t (0 : Fin 2) * 1 + 1 * z.val = 0; have := z.isLt; omega
  | ⟨1, _⟩ => show win0_3.index t (1 : Fin 2) * 1024 + 1 * q.val = l.val; omega

/-- Window 4's block at point `t`, at column `q`: the array's column `1024 * (t % 8) + q`. -/
theorem iblk0_4_apply (c : Dev nD) (t : Fin cfg0.N) (z : Fin 1) (q : Fin 1024) (l : Fin 8192)
    (hl : l.val = 1024 * (t.val % 8) + q.val) :
    (iblk0 V c 4 t : Vec Ideal S1x1024 .f32) (ix2 z q) = (V c main_v27 : S1x8192.Idx → EReal) (ix2 0 l) := by
  unfold iblk0
  rw [View.read_apply]
  show V c main_v27 _ = V c main_v27 _
  congr 1
  funext a
  apply Fin.ext
  have e := idx_facts0 t
  match a with
  | ⟨0, _⟩ => show win0_4.index t (0 : Fin 2) * 1 + 1 * z.val = 0; have := z.isLt; omega
  | ⟨1, _⟩ => show win0_4.index t (1 : Fin 2) * 1024 + 1 * q.val = l.val; omega

end Cert.Val

end
-- ==== Proof.LibTileSum.lean ====
/-
  Sums over an index range cut into tiles of equal width.

  An index `h < T * w` is `j * w + n` for one tile `j < T` and one offset `n < w`, so a sum over all `h` is the sum over
  the tiles of the sums inside each tile. The partial sums over the tiles `0, …, hh` start at the first tile's sum, grow by
  one tile's sum at a time, and are the whole sum once `hh` is the last tile. Both hold in any commutative additive
  monoid: only the order and the grouping of the terms change.
-/
import Mathlib.Algebra.BigOperators.Fin
import Mathlib.Algebra.BigOperators.Group.Finset.Basic
import Mathlib.Logic.Equiv.Fin.Basic
import Mathlib.Tactic.Ring

namespace Cert.TileSum

variable {M : Type*} [AddCommMonoid M]

/-- The index of offset `n` inside tile `j`. -/
def tileIdx {T w N : ℕ} (hN : N = T * w) (j : Fin T) (n : Fin w) : Fin N :=
  ⟨j.val * w + n.val, by
    have h1 := j.isLt; have h2 := n.isLt
    have : j.val * w + w ≤ T * w := by
      rw [← Nat.succ_mul]; exact Nat.mul_le_mul_right w h1
    omega⟩

@[simp] theorem tileIdx_val {T w N : ℕ} (hN : N = T * w) (j : Fin T) (n : Fin w) :
    (tileIdx hN j n).val = j.val * w + n.val := rfl

/-- A sum over all indices is the sum, over the tiles, of the sums inside each tile. -/
theorem sum_tiles {T w N : ℕ} (hN : N = T * w) (f : Fin N → M) :
    ∑ h : Fin N, f h = ∑ j : Fin T, ∑ n : Fin w, f (tileIdx hN j n) := by
  subst hN
  rw [← Equiv.sum_comp finProdFinEquiv f, Fintype.sum_prod_type]
  refine Finset.sum_congr rfl fun j _ => Finset.sum_congr rfl fun n _ => congrArg f (Fin.ext ?_)
  simp [finProdFinEquiv, tileIdx, Nat.mul_comm, Nat.add_comm]

/-- The sum of the tile values `D j` over the tiles `j ≤ hh`. -/
def upTo {T : ℕ} (D : Fin T → M) (hh : ℕ) : M := ∑ j : Fin T, if j.val ≤ hh then D j else 0

theorem upTo_zero {T : ℕ} (D : Fin T → M) (hT : 0 < T) : upTo D 0 = D ⟨0, hT⟩ := by
  unfold upTo
  rw [Finset.sum_eq_single (⟨0, hT⟩ : Fin T)]
  · simp
  · intro j _ hj
    have : ¬ j.val ≤ 0 := fun h => hj (Fin.ext (by simpa using h))
    simp [this]
  · intro h; exact absurd (Finset.mem_univ _) h

theorem upTo_succ {T : ℕ} (D : Fin T → M) (hh : ℕ) (h : hh + 1 < T) :
    upTo D (hh + 1) = upTo D hh + D ⟨hh + 1, h⟩ := by
  unfold upTo
  have e : ∀ j : Fin T, (if j.val ≤ hh + 1 then D j else 0)
      = (if j.val ≤ hh then D j else 0) + (if j = ⟨hh + 1, h⟩ then D j else 0) := by
    intro j
    by_cases h1 : j.val ≤ hh
    · have h2 : j ≠ ⟨hh + 1, h⟩ := fun e => by
        have e' : j.val = hh + 1 := congrArg Fin.val e
        omega
      rw [if_pos h1, if_pos (Nat.le_succ_of_le h1), if_neg h2, add_zero]
    · by_cases h2 : j = ⟨hh + 1, h⟩
      · have h3 : j.val ≤ hh + 1 := by
          have e' : j.val = hh + 1 := congrArg Fin.val h2
          omega
        rw [if_neg h1, if_pos h3, if_pos h2, zero_add]
      · have h3 : ¬ j.val ≤ hh + 1 := fun h3 => h2 (Fin.ext (by show j.val = hh + 1; omega))
        rw [if_neg h1, if_neg h3, if_neg h2, add_zero]
  simp only [e, Finset.sum_add_distrib, Finset.sum_ite_eq', Finset.mem_univ, if_true]

theorem upTo_last {T : ℕ} (D : Fin T → M) (hh : ℕ) (h : T ≤ hh + 1) : upTo D hh = ∑ j : Fin T, D j := by
  unfold upTo
  refine Finset.sum_congr rfl fun j _ => if_pos ?_
  have := j.isLt; omega

end Cert.TileSum
-- ==== Proof.LibAccum.lean ====
/-
  A running total over tiles.

  A quantity is accumulated over the tiles of an index range, one tile at a time: at the first tile it is that tile's sum
  (or zero plus it), and at every later tile it is the value at the tile before plus that tile's sum. Then at the last
  tile it is the sum over the whole range. This holds in any commutative additive monoid: nothing but the grouping of
  the terms is used. It is stated for any number of tiles of any width, and then at four tiles of 512 within 2048 with
  the steps numbered along a sequence in which every group of four consecutive steps is one pass over the tiles.
-/
import proofs.«174926_j17231408792190_1_alg».proof.Proof.LibTileSum

namespace Cert.Accum

open Cert.TileSum

variable {M : Type*} [AddCommMonoid M]

/-- A sequence that starts at the first tile's value and grows by one tile's value at a time is, at the last tile, the
    sum of all the tile values. -/
theorem running_total {T : ℕ} (hT : 0 < T) (D : Fin T → M) (a : ℕ → M)
    (h0 : a 0 = D ⟨0, hT⟩) (hs : ∀ (k : ℕ) (hk : k + 1 < T), a (k + 1) = a k + D ⟨k + 1, hk⟩) :
    a (T - 1) = ∑ j : Fin T, D j := by
  have key : ∀ k : ℕ, k < T → a k = upTo D k := by
    intro k
    induction k with
    | zero => intro _; rw [h0, upTo_zero D hT]
    | succ k ih => intro hk; rw [hs k hk, ih (by omega), upTo_succ D k hk]
  rw [key (T - 1) (by omega), upTo_last D (T - 1) (by omega)]

/-- The same with each tile's value the sum of `h` inside the tile: at the last tile the sequence is the sum of `h` over
    the whole range of `T` tiles of width `w`. -/
theorem accum_tiles {T w N : ℕ} (hN : N = T * w) (hT : 0 < T) (h : Fin N → M) (a : ℕ → M)
    (hA : a 0 = ∑ l : Fin w, h (tileIdx hN ⟨0, hT⟩ l))
    (hB : ∀ (k : ℕ) (hk : k + 1 < T), a (k + 1) = a k + ∑ l : Fin w, h (tileIdx hN ⟨k + 1, hk⟩ l)) :
    a (T - 1) = ∑ L : Fin N, h L := by
  rw [sum_tiles hN h]
  exact running_total hT (fun j => ∑ l : Fin w, h (tileIdx hN j l)) a hA hB

/-! ## Four tiles of 512 within 2048, the steps numbered 4 · ti + tj -/

/-- Pass `ti` over the four tiles: step `4 · ti` holds the first tile's sum, step `4 · ti + tj` (tj = 1, 2, 3) the step
    before plus tile `tj`'s sum. Then step `4 · ti + 3` holds the sum over all 2048 indices. -/
theorem accum_closed (h : Fin 2048 → M) (a : ℕ → M) (ti : ℕ)
    (hA : a (4 * ti) = ∑ l : Fin 512, h ⟨0 * 512 + l.val, by omega⟩)
    (hB : ∀ (tj : ℕ) (_ : 0 < tj) (h4 : tj < 4),
      a (4 * ti + tj) = a (4 * ti + tj - 1) + ∑ l : Fin 512, h ⟨tj * 512 + l.val, by omega⟩) :
    a (4 * ti + 3) = ∑ L : Fin 2048, h L := by
  refine accum_tiles (T := 4) (w := 512) (N := 2048) (by norm_num) (by norm_num) h (fun k => a (4 * ti + k)) hA ?_
  intro k hk
  have e : 4 * ti + (k + 1) - 1 = 4 * ti + k := by omega
  have s := hB (k + 1) (by omega) hk
  rw [e] at s
  exact s

/-- The same with the first step stated as zero plus the first tile's sum (an accumulator cleared, then added to). -/
theorem accum_closed_zero (h : Fin 2048 → M) (a : ℕ → M) (ti : ℕ)
    (hA : a (4 * ti) = 0 + ∑ l : Fin 512, h ⟨0 * 512 + l.val, by omega⟩)
    (hB : ∀ (tj : ℕ) (_ : 0 < tj) (h4 : tj < 4),
      a (4 * ti + tj) = a (4 * ti + tj - 1) + ∑ l : Fin 512, h ⟨tj * 512 + l.val, by omega⟩) :
    a (4 * ti + 3) = ∑ L : Fin 2048, h L :=
  accum_closed h a ti (hA.trans (zero_add _)) hB

/-- The same at a step `t` named by its remainder and quotient: `t % 4 = 3` and `t / 4 = ti`. -/
theorem accum_closed_at (h : Fin 2048 → M) (a : ℕ → M) (t ti : ℕ) (ht : t % 4 = 3) (hti : t / 4 = ti)
    (hA : a (4 * ti) = 0 + ∑ l : Fin 512, h ⟨0 * 512 + l.val, by omega⟩)
    (hB : ∀ (tj : ℕ) (_ : 0 < tj) (h4 : tj < 4),
      a (4 * ti + tj) = a (4 * ti + tj - 1) + ∑ l : Fin 512, h ⟨tj * 512 + l.val, by omega⟩) :
    a t = ∑ L : Fin 2048, h L := by
  have e : t = 4 * ti + 3 := by omega
  rw [e]
  exact accum_closed_zero h a ti hA hB

/-- The same from the steps' own description: a step whose remainder by 4 is zero holds zero plus the first tile's sum,
    any other step holds the step before plus the sum of the tile its remainder names. Then every step of remainder 3
    holds the sum over all 2048 indices. -/
theorem accum_closed_steps (h : Fin 2048 → M) (a : ℕ → M)
    (hA : ∀ t : ℕ, t % 4 = 0 → a t = 0 + ∑ l : Fin 512, h ⟨0 * 512 + l.val, by omega⟩)
    (hB : ∀ (t : ℕ) (_ : t % 4 ≠ 0),
      a t = a (t - 1) + ∑ l : Fin 512, h ⟨t % 4 * 512 + l.val, by have := Nat.mod_lt t (by norm_num : 0 < 4); omega⟩)
    (t : ℕ) (ht : t % 4 = 3) : a t = ∑ L : Fin 2048, h L := by
  refine accum_closed_at h a t (t / 4) ht rfl (hA _ (by omega)) ?_
  intro tj h0 h4
  have hm : (4 * (t / 4) + tj) % 4 = tj := by omega
  have s := hB (4 * (t / 4) + tj) (by omega)
  refine s.trans (congrArg _ (Finset.sum_congr rfl fun l _ => congrArg h (Fin.ext ?_)))
  show (4 * (t / 4) + tj) % 4 * 512 + l.val = tj * 512 + l.val
  rw [hm]

end Cert.Accum
-- ==== Proof.Val.Rows0c.lean ====
/-
  Region 0, one row tile: the accumulators after its last column tile hold whole-row sums.

  Over the 8 column tiles of a row tile an accumulator restarts from zero at the first tile and grows by the tile's
  weighted sum of distances at each tile, so after the last tile it holds, at row p of the row tile, the sum over all
  8192 columns L of |x r - x L| * nw L, where r = 512 * (row tile) + p.
-/
import proofs.«174926_j17231408792190_1_alg».proof.Proof.KI.R0Data
import proofs.«174926_j17231408792190_1_alg».proof.Proof.Val.Rows0a
import proofs.«174926_j17231408792190_1_alg».proof.Proof.Val.Rows0b
import proofs.«174926_j17231408792190_1_alg».proof.Proof.LibAccum

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.ValueIdx Idealize.SL.Sem
open Cert.TileSum (tileIdx tileIdx_val)

/-- The 8192 columns are 8 tiles of 1024. -/
theorem hN8 : 8192 = 8 * 1024 := by norm_num

/-- The weighted distance of rows `r` and `L`: `|x r - x L| * nw L`. -/
def dterm (x nw : Fin 8192 → EReal) (r L : Fin 8192) : EReal := max (x r - x L) (-(x r - x L)) * nw L

/-- A quantity indexed by the grid points that, within row tile `i`, is the first column tile's sum at the first tile
    and grows by one column tile's sum per tile, is at the last tile the sum over all columns. -/
theorem tiles_last (g : (n : ℕ) → n < cfg0.N → EReal) (h : Fin 8192 → EReal) (i : ℕ) (hi : i < 16)
    (hR : ∀ (n : ℕ) (hn : n < cfg0.N), n % 8 = 0 → n / 8 = i →
      g n hn = ∑ q : Fin 1024, h (tileIdx hN8 ⟨n % 8, Nat.mod_lt _ (by norm_num)⟩ q))
    (hG : ∀ (n : ℕ) (hn : n + 1 < cfg0.N), (n + 1) % 8 ≠ 0 → (n + 1) / 8 = i →
      g (n + 1) hn = g n (Nat.lt_of_succ_lt hn)
        + ∑ q : Fin 1024, h (tileIdx hN8 ⟨(n + 1) % 8, Nat.mod_lt _ (by norm_num)⟩ q))
    (hlast : 8 * i + 7 < cfg0.N) : g (8 * i + 7) hlast = ∑ L : Fin 8192, h L := by
  have hN : cfg0.N = 128 := N_0
  let a : ℕ → EReal := fun k => if hk : 8 * i + k < cfg0.N then g (8 * i + k) hk else 0
  have key : a (8 - 1) = ∑ L : Fin 8192, h L := by
    refine Cert.Accum.accum_tiles (T := 8) (w := 1024) (N := 8192) hN8 (by norm_num) h a ?_ ?_
    · show (if hk : 8 * i + 0 < cfg0.N then g (8 * i + 0) hk else 0) = _
      rw [dif_pos (by omega), hR (8 * i + 0) (by omega) (by omega) (by omega)]
      refine Finset.sum_congr rfl fun q _ => congrArg h (Fin.ext ?_)
      show (8 * i + 0) % 8 * 1024 + q.val = 0 * 1024 + q.val
      have : (8 * i + 0) % 8 = 0 := by omega
      rw [this]
    · intro k hk
      show (if hk' : 8 * i + (k + 1) < cfg0.N then g (8 * i + (k + 1)) hk' else 0)
        = (if hk' : 8 * i + k < cfg0.N then g (8 * i + k) hk' else 0) + _
      rw [dif_pos (by omega), dif_pos (by omega)]
      refine (hG (8 * i + k) (by omega) (by omega) (by omega)).trans (congrArg (_ + ·) ?_)
      refine Finset.sum_congr rfl fun q _ => congrArg h (Fin.ext ?_)
      show (8 * i + k + 1) % 8 * 1024 + q.val = (k + 1) * 1024 + q.val
      have : (8 * i + k + 1) % 8 = k + 1 := by omega
      rw [this]
  have e : a (8 - 1) = g (8 * i + 7) hlast := dif_pos hlast
  rw [← e, key]

variable (V : (c : Dev nD) → (b : Ref sig .tc) → Buf (Elt Ideal) ((c : Thread nD τ).loc b))

/-- One grid point's update of the first accumulator, at row `p`, in terms of the arrays' values. -/
theorem stepAt0_fst (c : Dev nD) (x nw : Fin 8192 → EReal)
    (h23 : ∀ l, (V c main_v23 : S8192x1.Idx → EReal) (ix2 l 0) = x l)
    (h24 : ∀ l, (V c main_v24 : S1x8192.Idx → EReal) (ix2 0 l) = x l)
    (h27 : ∀ l, (V c main_v27 : S1x8192.Idx → EReal) (ix2 0 l) = nw l)
    (t : Fin cfg0.N) (s : Vec Ideal S512x1 .f32 × Vec Ideal S512x1 .f32) (p : Fin 512) (r : Fin 8192)
    (hr : r.val = 512 * (t.val / 8) + p.val) :
    (stepAt0 V c t s).1 (ix2 p 0)
      = s.1 (ix2 p 0) + ∑ q : Fin 1024, dterm x nw r (tileIdx hN8 ⟨t.val % 8, Nat.mod_lt _ (by norm_num)⟩ q) := by
  refine (pay7_apply (iblk0 V c 0 t) (iblk0 V c 1 t) (iblk0 V c 4 t) s.1 p 0).trans ?_
  refine congrArg (s.1 (ix2 p 0) + ·) (Finset.sum_congr rfl fun q _ => ?_)
  have hl : (tileIdx hN8 ⟨t.val % 8, Nat.mod_lt _ (by norm_num)⟩ q).val = 1024 * (t.val % 8) + q.val := by
    show t.val % 8 * 1024 + q.val = 1024 * (t.val % 8) + q.val; omega
  rw [iblk0_0_apply V c t p 0 r hr, iblk0_1_apply V c t 0 q _ hl, iblk0_4_apply V c t 0 q _ hl, h23, h24, h27]
  rfl

/-- One grid point's update of the second accumulator, at row `p`, in terms of the arrays' values. -/
theorem stepAt0_snd (c : Dev nD) (y nw : Fin 8192 → EReal)
    (h25 : ∀ l, (V c main_v25 : S8192x1.Idx → EReal) (ix2 l 0) = y l)
    (h26 : ∀ l, (V c main_v26 : S1x8192.Idx → EReal) (ix2 0 l) = y l)
    (h27 : ∀ l, (V c main_v27 : S1x8192.Idx → EReal) (ix2 0 l) = nw l)
    (t : Fin cfg0.N) (s : Vec Ideal S512x1 .f32 × Vec Ideal S512x1 .f32) (p : Fin 512) (r : Fin 8192)
    (hr : r.val = 512 * (t.val / 8) + p.val) :
    (stepAt0 V c t s).2 (ix2 p 0)
      = s.2 (ix2 p 0) + ∑ q : Fin 1024, dterm y nw r (tileIdx hN8 ⟨t.val % 8, Nat.mod_lt _ (by norm_num)⟩ q) := by
  show k0_pay1 (F := Ideal) (k0_pay8 (iblk0 V c 2 t) (iblk0 V c 3 t) (iblk0 V c 4 t) s.2) (ix2 p 0) = _
  rw [pay1_eq]
  refine (pay8_apply (iblk0 V c 2 t) (iblk0 V c 3 t) (iblk0 V c 4 t) s.2 p 0).trans ?_
  refine congrArg (s.2 (ix2 p 0) + ·) (Finset.sum_congr rfl fun q _ => ?_)
  have hl : (tileIdx hN8 ⟨t.val % 8, Nat.mod_lt _ (by norm_num)⟩ q).val = 1024 * (t.val % 8) + q.val := by
    show t.val % 8 * 1024 + q.val = 1024 * (t.val % 8) + q.val; omega
  rw [iblk0_2_apply V c t p 0 r hr, iblk0_3_apply V c t 0 q _ hl, iblk0_4_apply V c t 0 q _ hl, h25, h26, h27]
  rfl

/-- After the last column tile of row tile `i` the first accumulator holds, at row `p`, the whole weighted row sum. -/
theorem acc0_fst_last (c : Dev nD) (x nw : Fin 8192 → EReal)
    (h23 : ∀ l, (V c main_v23 : S8192x1.Idx → EReal) (ix2 l 0) = x l)
    (h24 : ∀ l, (V c main_v24 : S1x8192.Idx → EReal) (ix2 0 l) = x l)
    (h27 : ∀ l, (V c main_v27 : S1x8192.Idx → EReal) (ix2 0 l) = nw l)
    (i : ℕ) (hi : i < 16) (p : Fin 512) (r : Fin 8192) (hr : r.val = 512 * i + p.val)
    (hlast : 8 * i + 7 < cfg0.N) :
    (acc0 V c (8 * i + 7) hlast).1 (ix2 p 0) = ∑ L : Fin 8192, dterm x nw r L := by
  refine tiles_last (fun n hn => (acc0 V c n hn).1 (ix2 p 0)) (dterm x nw r) i hi ?_ ?_ hlast
  · intro n hn h0 hq
    have e : acc0 V c n hn = stepAt0 V c ⟨n, hn⟩ zero0 := acc0_reset V c ⟨n, hn⟩ h0
    show (acc0 V c n hn).1 (ix2 p 0) = _
    rw [e, stepAt0_fst V c x nw h23 h24 h27 ⟨n, hn⟩ zero0 p r (by show r.val = 512 * (n / 8) + p.val; omega)]
    show k0_pay4 (F := Ideal) (ix2 p 0) + _ = _
    rw [pay4_apply, zero_add]
  · intro n hn hne hq
    have e : acc0 V c (n + 1) hn = stepAt0 V c ⟨n + 1, hn⟩ (acc0 V c n (Nat.lt_of_succ_lt hn)) := if_neg hne
    show (acc0 V c (n + 1) hn).1 (ix2 p 0) = _
    rw [e, stepAt0_fst V c x nw h23 h24 h27 ⟨n + 1, hn⟩ _ p r (by show r.val = 512 * ((n + 1) / 8) + p.val; omega)]

/-- After the last column tile of row tile `i` the second accumulator holds, at row `p`, the whole weighted row sum. -/
theorem acc0_snd_last (c : Dev nD) (y nw : Fin 8192 → EReal)
    (h25 : ∀ l, (V c main_v25 : S8192x1.Idx → EReal) (ix2 l 0) = y l)
    (h26 : ∀ l, (V c main_v26 : S1x8192.Idx → EReal) (ix2 0 l) = y l)
    (h27 : ∀ l, (V c main_v27 : S1x8192.Idx → EReal) (ix2 0 l) = nw l)
    (i : ℕ) (hi : i < 16) (p : Fin 512) (r : Fin 8192) (hr : r.val = 512 * i + p.val)
    (hlast : 8 * i + 7 < cfg0.N) :
    (acc0 V c (8 * i + 7) hlast).2 (ix2 p 0) = ∑ L : Fin 8192, dterm y nw r L := by
  refine tiles_last (fun n hn => (acc0 V c n hn).2 (ix2 p 0)) (dterm y nw r) i hi ?_ ?_ hlast
  · intro n hn h0 hq
    have e : acc0 V c n hn = stepAt0 V c ⟨n, hn⟩ zero0 := acc0_reset V c ⟨n, hn⟩ h0
    show (acc0 V c n hn).2 (ix2 p 0) = _
    rw [e, stepAt0_snd V c y nw h25 h26 h27 ⟨n, hn⟩ zero0 p r (by show r.val = 512 * (n / 8) + p.val; omega)]
    show k0_pay5 (F := Ideal) (ix2 p 0) + _ = _
    rw [pay5_apply, zero_add]
  · intro n hn hne hq
    have e : acc0 V c (n + 1) hn = stepAt0 V c ⟨n + 1, hn⟩ (acc0 V c n (Nat.lt_of_succ_lt hn)) := if_neg hne
    show (acc0 V c (n + 1) hn).2 (ix2 p 0) = _
    rw [e, stepAt0_snd V c y nw h25 h26 h27 ⟨n + 1, hn⟩ _ p r (by show r.val = 512 * ((n + 1) / 8) + p.val; omega)]

end Cert.Val

end
-- ==== Proof.Ref.Spec.lean ====
/-
  The distance-correlation stages as pure functions of vectors of extended reals.

  For a vector `x` and a weight vector `nw` (both indexed by `Fin 8192`):
  * `rowAvg x nw i`  is the weighted row mean of the pairwise distance matrix, `(0 + ∑ l, |x i - x l| * nw l) / 8192`;
  * `cen x avg s i l` is the doubly centred distance, `((|x i - x l| - avg l) - avg i) + s`;
  * `rowProd A B nw i` is the weighted row mean of an entrywise product, `(0 + ∑ l, (A i l * B i l) * nw l) / 8192`.
  The absolute value is written `max z (-z)`, the extended reals' one; the two float literals are kept as the
  words that denote them (`0x00000000` is zero, `0x46000000` is 8192) and the quotient is `Ideal.div`.
-/
import Idealize.ShloMosaic.PureOps.Ideal
import Idealize.ShloMosaic.PureOps.Ideal.Laws

noncomputable section

open scoped BigOperators

namespace Cert.Spec

open Idealize.ShloMosaic

/-- The weighted row mean of the pairwise distances of `x`: `(0 + ∑ l, |x i - x l| * nw l) / 8192`. -/
def rowAvg (x nw : Fin 8192 → EReal) (i : Fin 8192) : EReal :=
  Ideal.div
    (Ideal.ofBits .f32 0x00000000#32 + ∑ l : Fin 8192, max (x i - x l) (-(x i - x l)) * nw l)
    (Ideal.ofBits .f32 0x46000000#32)

/-- The doubly centred distance: `((|x i - x l| - avg l) - avg i) + s`. -/
def cen (x avg : Fin 8192 → EReal) (s : EReal) (i l : Fin 8192) : EReal :=
  ((max (x i - x l) (-(x i - x l)) - avg l) - avg i) + s

/-- The weighted row mean of the entrywise product of two matrices: `(0 + ∑ l, (A i l * B i l) * nw l) / 8192`. -/
def rowProd (A B : Fin 8192 → Fin 8192 → EReal) (nw : Fin 8192 → EReal) (i : Fin 8192) : EReal :=
  Ideal.div
    (Ideal.ofBits .f32 0x00000000#32 + ∑ l : Fin 8192, (A i l * B i l) * nw l)
    (Ideal.ofBits .f32 0x46000000#32)

end Cert.Spec
-- ==== Proof.Val.Rows0.lean ====
/-
  Region 0: the two output arrays after the run, row by row.

  The write-back at the last column tile of a row tile stores the accumulators divided by 8192, so block (row tile, 0)
  of each output array is, at row p, the weighted row mean of distances of row r = 512 * (row tile) + p. Every row of the
  [8192, 1] arrays lies in exactly the block of its row tile, written back at point 8 * (r / 512) + 7; so the arrays end
  holding the row means.
-/
import proofs.«174926_j17231408792190_1_alg».proof.Proof.Val.Rows0c
import proofs.«174926_j17231408792190_1_alg».proof.Proof.Ref.Spec
import Idealize.ShloMosaic.Lib.Pipeline.Value

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.ValueIdx Idealize.SL.Sem

/-- The row mean is the whole weighted row sum divided by 8192: the sum's initial value is the extended real zero. -/
theorem rowAvg_eq (x nw : Fin 8192 → EReal) (r : Fin 8192) :
    Cert.Spec.rowAvg x nw r = Ideal.div (∑ L : Fin 8192, dterm x nw r L) (Ideal.ofBits .f32 0x46000000#32) := by
  unfold Cert.Spec.rowAvg dterm
  rw [Ideal.ofBits_zero_f32, zero_add]

variable (V : (c : Dev nD) → (b : Ref sig .tc) → Buf (Elt Ideal) ((c : Thread nD τ).loc b))

/-- The accumulators after a point depend on the point's number only. -/
theorem acc0_congr (c : Dev nD) {n n' : ℕ} (e : n = n') (h : n < cfg0.N) (h' : n' < cfg0.N) :
    acc0 V c n h = acc0 V c n' h' := by
  subst e; rfl

/-- An index of the first output array is in point `t`'s block iff each coordinate is in the block's range. -/
theorem mem_blk5 (t : Fin cfg0.N) (i : S8192x1.Idx) :
    i ∈ ((cfg0.win 5).blk t).view.set ↔ ∀ a : Fin 2, win0_5.index t a * S512x1.size a ≤ (i a).val
      ∧ (i a).val < win0_5.index t a * S512x1.size a + S512x1.size a := by
  show i ∈ ((View.whole main_v28_0).slice (win0_5.rect t)).set ↔ _
  rw [View.set_slice_whole, Rect.mem_set_unit]
  exact Iff.rfl

/-- An index of the second output array is in point `t`'s block iff each coordinate is in the block's range. -/
theorem mem_blk6 (t : Fin cfg0.N) (i : S8192x1.Idx) :
    i ∈ ((cfg0.win 6).blk t).view.set ↔ ∀ a : Fin 2, win0_6.index t a * S512x1.size a ≤ (i a).val
      ∧ (i a).val < win0_6.index t a * S512x1.size a + S512x1.size a := by
  show i ∈ ((View.whole main_v28_1).slice (win0_6.rect t)).set ↔ _
  rw [View.set_slice_whole, Rect.mem_set_unit]
  exact Iff.rfl

/-- What a write-back point stores into the first output array is its block of the row means of `x`. -/
theorem flushed5_eq (c : Dev nD) (x nw : Fin 8192 → EReal)
    (h23 : ∀ l, (V c main_v23 : S8192x1.Idx → EReal) (ix2 l 0) = x l)
    (h24 : ∀ l, (V c main_v24 : S1x8192.Idx → EReal) (ix2 0 l) = x l)
    (h27 : ∀ l, (V c main_v27 : S1x8192.Idx → EReal) (ix2 0 l) = nw l)
    (t : Fin cfg0.N) (hf : (cfg0.win 5).flush t = true) :
    (dat0 V c).flushed 5 t
      = ((cfg0.win 5).blk t).view.read (Elt Ideal) (fun j : S8192x1.Idx => Cert.Spec.rowAvg x nw (j 0)) := by
  have hN : cfg0.N = 128 := N_0
  have h7 : t.val % 8 = 7 := (flush0_5 t).mp hf
  have ht := t.isLt
  show (cfg0.win 5).cut (grid0.coords t) ((dat0 V c).after 5 t) = _
  rw [after0_5]
  funext j
  obtain ⟨p, z, rfl⟩ : ∃ (p : Fin 512) (z : Fin 1), j = ix2 p z := ⟨j 0, j 1, eq_ix2 j⟩
  obtain rfl : z = 0 := Subsingleton.elim _ _
  rw [View.read_apply]
  show k0_pay2 (F := Ideal) (acc0 V c t.val t.isLt).1 (ix2 p 0) = Cert.Spec.rowAvg x nw _
  have hlt : 512 * (t.val / 8) + p.val < 8192 := by have := p.isLt; omega
  obtain ⟨r, hrv⟩ : ∃ r : Fin 8192, r.val = 512 * (t.val / 8) + p.val := ⟨⟨_, hlt⟩, rfl⟩
  have hidx : Cert.Spec.rowAvg x nw (((cfg0.win 5).blk t).view.emb (ix2 p (0 : Fin 1)) 0) = Cert.Spec.rowAvg x nw r :=
    congrArg (Cert.Spec.rowAvg x nw) (Fin.ext (by
      show win0_5.index t (0 : Fin 2) * 512 + 1 * p.val = r.val
      have e := idx_facts0 t; omega))
  refine Eq.trans ?_ hidx.symm
  rw [pay2_apply, rowAvg_eq, acc0_congr V c (show t.val = 8 * (t.val / 8) + 7 by omega) t.isLt (by omega),
    acc0_fst_last V c x nw h23 h24 h27 (t.val / 8) (by omega) p r hrv]

/-- What a write-back point stores into the second output array is its block of the row means of `y`. -/
theorem flushed6_eq (c : Dev nD) (y nw : Fin 8192 → EReal)
    (h25 : ∀ l, (V c main_v25 : S8192x1.Idx → EReal) (ix2 l 0) = y l)
    (h26 : ∀ l, (V c main_v26 : S1x8192.Idx → EReal) (ix2 0 l) = y l)
    (h27 : ∀ l, (V c main_v27 : S1x8192.Idx → EReal) (ix2 0 l) = nw l)
    (t : Fin cfg0.N) (hf : (cfg0.win 6).flush t = true) :
    (dat0 V c).flushed 6 t
      = ((cfg0.win 6).blk t).view.read (Elt Ideal) (fun j : S8192x1.Idx => Cert.Spec.rowAvg y nw (j 0)) := by
  have hN : cfg0.N = 128 := N_0
  have h7 : t.val % 8 = 7 := (flush0_6 t).mp hf
  have ht := t.isLt
  show (cfg0.win 6).cut (grid0.coords t) ((dat0 V c).after 6 t) = _
  rw [after0_6]
  funext j
  obtain ⟨p, z, rfl⟩ : ∃ (p : Fin 512) (z : Fin 1), j = ix2 p z := ⟨j 0, j 1, eq_ix2 j⟩
  obtain rfl : z = 0 := Subsingleton.elim _ _
  rw [View.read_apply]
  show k0_pay3 (F := Ideal) (acc0 V c t.val t.isLt).2 (ix2 p 0) = Cert.Spec.rowAvg y nw _
  have hlt : 512 * (t.val / 8) + p.val < 8192 := by have := p.isLt; omega
  obtain ⟨r, hrv⟩ : ∃ r : Fin 8192, r.val = 512 * (t.val / 8) + p.val := ⟨⟨_, hlt⟩, rfl⟩
  have hidx : Cert.Spec.rowAvg y nw (((cfg0.win 6).blk t).view.emb (ix2 p (0 : Fin 1)) 0) = Cert.Spec.rowAvg y nw r :=
    congrArg (Cert.Spec.rowAvg y nw) (Fin.ext (by
      show win0_6.index t (0 : Fin 2) * 512 + 1 * p.val = r.val
      have e := idx_facts0 t; omega))
  refine Eq.trans ?_ hidx.symm
  rw [pay3_apply, rowAvg_eq, acc0_congr V c (show t.val = 8 * (t.val / 8) + 7 by omega) t.isLt (by omega),
    acc0_snd_last V c y nw h25 h26 h27 (t.val / 8) (by omega) p r hrv]

/-- After region 0 the two output arrays hold, at row `r`, the weighted row means of distances of `x` and of `y`. -/
theorem rows0 (c : Dev nD) (x y nw : Fin 8192 → EReal)
    (h23 : ∀ l, (V c main_v23 : S8192x1.Idx → EReal) (ix2 l 0) = x l)
    (h24 : ∀ l, (V c main_v24 : S1x8192.Idx → EReal) (ix2 0 l) = x l)
    (h25 : ∀ l, (V c main_v25 : S8192x1.Idx → EReal) (ix2 l 0) = y l)
    (h26 : ∀ l, (V c main_v26 : S1x8192.Idx → EReal) (ix2 0 l) = y l)
    (h27 : ∀ l, (V c main_v27 : S1x8192.Idx → EReal) (ix2 0 l) = nw l) (r : Fin 8192) :
    ((dat0 V c).arrAt 5 cfg0.N : S8192x1.Idx → EReal) (ix2 r 0) = Cert.Spec.rowAvg x nw r
      ∧ ((dat0 V c).arrAt 6 cfg0.N : S8192x1.Idx → EReal) (ix2 r 0) = Cert.Spec.rowAvg y nw r := by
  have hN : cfg0.N = 128 := N_0
  have hr := r.isLt
  have htlt : 8 * (r.val / 512) + 7 < cfg0.N := by omega
  have h7 : (⟨8 * (r.val / 512) + 7, htlt⟩ : Fin cfg0.N).val % 8 = 7 := by
    show (8 * (r.val / 512) + 7) % 8 = 7; omega
  have e := idx_facts0 ⟨8 * (r.val / 512) + 7, htlt⟩
  have hq : (⟨8 * (r.val / 512) + 7, htlt⟩ : Fin cfg0.N).val / 8 = r.val / 512 := by
    show (8 * (r.val / 512) + 7) / 8 = r.val / 512; omega
  constructor
  · refine (dat0 V c).arrAt_apply_of_mem 5 (fun j : S8192x1.Idx => Cert.Spec.rowAvg x nw (j 0))
      (flushed5_eq V c x nw h23 h24 h27) cfg0.N ⟨8 * (r.val / 512) + 7, htlt⟩ (ix2 r 0) htlt ((flush0_5 _).mpr h7) ?_
    rw [mem_blk5]
    intro a
    match a with
    | ⟨0, _⟩ =>
      show win0_5.index ⟨8 * (r.val / 512) + 7, htlt⟩ (0 : Fin 2) * 512 ≤ r.val
        ∧ r.val < win0_5.index ⟨8 * (r.val / 512) + 7, htlt⟩ (0 : Fin 2) * 512 + 512
      omega
    | ⟨1, _⟩ =>
      show win0_5.index ⟨8 * (r.val / 512) + 7, htlt⟩ (1 : Fin 2) * 1 ≤ 0
        ∧ 0 < win0_5.index ⟨8 * (r.val / 512) + 7, htlt⟩ (1 : Fin 2) * 1 + 1
      omega
  · refine (dat0 V c).arrAt_apply_of_mem 6 (fun j : S8192x1.Idx => Cert.Spec.rowAvg y nw (j 0))
      (flushed6_eq V c y nw h25 h26 h27) cfg0.N ⟨8 * (r.val / 512) + 7, htlt⟩ (ix2 r 0) htlt ((flush0_6 _).mpr h7) ?_
    rw [mem_blk6]
    intro a
    match a with
    | ⟨0, _⟩ =>
      show win0_6.index ⟨8 * (r.val / 512) + 7, htlt⟩ (0 : Fin 2) * 512 ≤ r.val
        ∧ r.val < win0_6.index ⟨8 * (r.val / 512) + 7, htlt⟩ (0 : Fin 2) * 512 + 512
      omega
    | ⟨1, _⟩ =>
      show win0_6.index ⟨8 * (r.val / 512) + 7, htlt⟩ (1 : Fin 2) * 1 ≤ 0
        ∧ 0 < win0_6.index ⟨8 * (r.val / 512) + 7, htlt⟩ (1 : Fin 2) * 1 + 1
      omega

end Cert.Val

end
-- ==== Proof.Val.Ops1.lean ====
/-
  The doubly centred distance tile and the product tiles, read at coordinates, at the extended reals.

  From a column block x0 : [a, 1] (the rows' values), a row block x1 : [1, b] (the columns' values), a row block ar : [1, b]
  (the columns' averages), a column block ac : [a, 1] (the rows' averages) and a scalar s, the centred tile's entry (p, q)
  is ((|x0 p - x1 q| - ar q) - ac p) + s. A product tile's contribution to row p is the sum over the b columns q of
  (A (p, q) * B (p, q)) * w q, added to what the accumulator column held at p.
-/
import proofs.«174926_j17231408792190_1_alg».proof.Proof.Val.Ops

noncomputable section

open scoped BigOperators

namespace Cert.Val

open Idealize.ShloMosaic Idealize.ShloMosaic.ValueIdx Cert.LibRowOps

/-- The centred distance of a pair, from the pair's values, the column's average, the row's average and the grand term. -/
def cenE (xp xq aq ap s : EReal) : EReal := ((max (xp - xq) (-(xp - xq)) - aq) - ap) + s

/-- The distance tile less the columns' averages less the rows' averages, at `(p, q)`. -/
theorem cendiff_apply {a b : ℕ} (x0 ac : FVec Ideal ⟨2, ![a, 1]⟩ .f32) (x1 ar : FVec Ideal ⟨2, ![1, b]⟩ .f32)
    (hb0 : (⟨2, ![a, 1]⟩ : Shape).Broadcasts ⟨2, ![a, b]⟩) (hb1 : (⟨2, ![1, b]⟩ : Shape).Broadcasts ⟨2, ![a, b]⟩)
    (p : Fin a) (q : Fin b) :
    subf (subf (absf (subf (broadcastTo ⟨2, ![a, b]⟩ x0 hb0) (broadcastTo ⟨2, ![a, b]⟩ x1 hb1)))
        (broadcastTo ⟨2, ![a, b]⟩ ar hb1)) (broadcastTo ⟨2, ![a, b]⟩ ac hb0) (ix2 p q)
      = (max (x0 (ix2 p 0) - x1 (ix2 0 q)) (-(x0 (ix2 p 0) - x1 (ix2 0 q))) - ar (ix2 0 q)) - ac (ix2 p 0) := by
  rw [subf_apply, subf_apply, absdiff_apply, bcast_1b_ab, bcast_a1_ab]

/-- The same plus a broadcast scalar: the centred tile, at `(p, q)`. -/
theorem cen_apply {a b : ℕ} (x0 ac : FVec Ideal ⟨2, ![a, 1]⟩ .f32) (x1 ar : FVec Ideal ⟨2, ![1, b]⟩ .f32) (s : EReal)
    (hb0 : (⟨2, ![a, 1]⟩ : Shape).Broadcasts ⟨2, ![a, b]⟩) (hb1 : (⟨2, ![1, b]⟩ : Shape).Broadcasts ⟨2, ![a, b]⟩)
    (p : Fin a) (q : Fin b) :
    addf (subf (subf (absf (subf (broadcastTo ⟨2, ![a, b]⟩ x0 hb0) (broadcastTo ⟨2, ![a, b]⟩ x1 hb1)))
        (broadcastTo ⟨2, ![a, b]⟩ ar hb1)) (broadcastTo ⟨2, ![a, b]⟩ ac hb0))
        (broadcast ⟨2, ![a, b]⟩ s : FVec Ideal ⟨2, ![a, b]⟩ .f32) (ix2 p q)
      = cenE (x0 (ix2 p 0)) (x1 (ix2 0 q)) (ar (ix2 0 q)) (ac (ix2 p 0)) s := by
  rw [addf_apply, cendiff_apply, broadcast_apply]
  rfl

/-- An accumulator column plus a product tile's weighted row sums, at `(p, 0)`. -/
theorem acc_prod_apply {a b : ℕ} (A B : FVec Ideal ⟨2, ![a, b]⟩ .f32) (w : FVec Ideal ⟨2, ![1, b]⟩ .f32)
    (s : FVec Ideal ⟨2, ![a, 1]⟩ .f32)
    (hb1 : (⟨2, ![1, b]⟩ : Shape).Broadcasts ⟨2, ![a, b]⟩)
    (hr : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (z : Fin 1) :
    addf s (shapeCast ⟨2, ![a, 1]⟩ (multiReduction .add [1] ⟨1, ![a]⟩ (mulf (mulf A B) (broadcastTo ⟨2, ![a, b]⟩ w hb1))
        0x00000000#32 hr hφ hacc) hc) (ix2 p z)
      = s (ix2 p z) + ∑ q : Fin b, (A (ix2 p q) * B (ix2 p q)) * w (ix2 0 q) := by
  rw [addf_apply, wsum_col_apply]
  refine congrArg (s (ix2 p z) + ·) (Finset.sum_congr rfl fun q _ => ?_)
  rw [mulf_apply]

end Cert.Val

end
-- ==== Proof.Val.Rows1a.lean ====
/-
  Region 1, one grid point: the payloads read at coordinates, at the extended reals.

  A grid point is (row tile, column tile). From the row tile's blocks of values and of row averages (columns [512, 1]), the
  column tile's blocks of values, of averages and of weights (rows [1, 1024]) and the two grand terms (scalars), the point
  forms the centred distance tiles A and B, entry (p, q) = ((|x p - x q| - avg q) - avg p) + s, and adds to the three
  accumulator columns, at row p, the sums over the tile's 1024 columns q of (A * B) * w, (A * A) * w and (B * B) * w.
  The reset stores zeros; the write-back divides an accumulator by 8192.
-/
import proofs.«174926_j17231408792190_1_alg».proof.Proof.KI.R1Data
import proofs.«174926_j17231408792190_1_alg».proof.Proof.Val.Ops1

noncomputable section

open scoped BigOperators

namespace Cert.Val

open Cert.KernelIdeal Cert.KernelIdeal.Gen Cert.KernelIdeal.Hand
open Idealize.ShloMosaic Idealize.ShloMosaic.ValueIdx

/-- A [1, 1] block read as a scalar is its one entry. -/
theorem r1_pay11_eq (v : Vec Ideal S1x1 .f32) : k1_pay11 (F := Ideal) v = v (ix2 0 0) := by
  unfold k1_pay11 extractAt
  refine congrArg v (funext fun a => ?_)
  match a with
  | ⟨0, _⟩ => rfl
  | ⟨1, _⟩ => rfl

/-- The same for the second scalar. -/
theorem r1_pay12_eq (v : Vec Ideal S1x1 .f32) : k1_pay12 (F := Ideal) v = v (ix2 0 0) := by
  unfold k1_pay12 extractAt
  refine congrArg v (funext fun a => ?_)
  match a with
  | ⟨0, _⟩ => rfl
  | ⟨1, _⟩ => rfl

/-- The recasts of the second pair's blocks and of the weights change nothing. -/
theorem r1_pay7_eq (v : Vec Ideal S512x1 .f32) : k1_pay7 (F := Ideal) v = v := by
  unfold k1_pay7; exact shapeCast_self _ _
theorem r1_pay8_eq (v : Vec Ideal S1x1024 .f32) : k1_pay8 (F := Ideal) v = v := by
  unfold k1_pay8; exact shapeCast_self _ _
theorem r1_pay9_eq (v : Vec Ideal S512x1 .f32) : k1_pay9 (F := Ideal) v = v := by
  unfold k1_pay9; exact shapeCast_self _ _
theorem r1_pay10_eq (v : Vec Ideal S1x1024 .f32) : k1_pay10 (F := Ideal) v = v := by
  unfold k1_pay10; exact shapeCast_self _ _
theorem r1_pay13_eq (v : Vec Ideal S1x1024 .f32) : k1_pay13 (F := Ideal) v = v := by
  unfold k1_pay13; exact shapeCast_self _ _

/-- The first centred tile: the distance tile less the two averages, plus the grand term, at `(p, q)`. -/
theorem r1_pay15_14_apply (x0 ac : Vec Ideal S512x1 .f32) (x1 ar : Vec Ideal S1x1024 .f32) (s : EReal)
    (p : Fin 512) (q : Fin 1024) :
    k1_pay15 (F := Ideal) s (k1_pay14 x0 x1 ac ar) (ix2 p q)
      = cenE (x0 (ix2 p 0)) (x1 (ix2 0 q)) (ar (ix2 0 q)) (ac (ix2 p 0)) s := by
  unfold k1_pay15 k1_pay14
  simp only [shapeCast_self]
  exact cen_apply x0 ac x1 ar s _ _ p q

/-- The second centred tile, at `(p, q)`. -/
theorem r1_pay16_apply (x0 ac : FVec Ideal S512x1 .f32) (x1 ar : FVec Ideal S1x1024 .f32) (s : EReal)
    (p : Fin 512) (q : Fin 1024) :
    k1_pay16 (F := Ideal) x0 x1 ac ar s (ix2 p q)
      = cenE (x0 (ix2 p 0)) (x1 (ix2 0 q)) (ar (ix2 0 q)) (ac (ix2 p 0)) s := by
  unfold k1_pay16
  exact cen_apply x0 ac x1 ar s _ _ p q

/-- The first accumulator's update at row `p`: what it held plus the tile's sum of (A * B) * w. -/
theorem r1_pay17_apply (x0 a0 x2 a2 : Vec Ideal S512x1 .f32) (x1 a1 x3 a3 w : Vec Ideal S1x1024 .f32) (sa sb : EReal)
    (s : Vec Ideal S512x1 .f32) (p : Fin 512) (z : Fin 1) :
    k1_pay17 (F := Ideal) x2 x3 a2 a3 sa sb w (k1_pay14 x0 x1 a0 a1) s (ix2 p z)
      = s (ix2 p z) + ∑ q : Fin 1024,
          (cenE (x0 (ix2 p 0)) (x1 (ix2 0 q)) (a1 (ix2 0 q)) (a0 (ix2 p 0)) sa
            * cenE (x2 (ix2 p 0)) (x3 (ix2 0 q)) (a3 (ix2 0 q)) (a2 (ix2 p 0)) sb) * w (ix2 0 q) := by
  unfold k1_pay17
  simp only [shapeCast_self]
  refine (acc_prod_apply _ _ w s _ _ _ _ _ p z).trans ?_
  refine congrArg (s (ix2 p z) + ·) (Finset.sum_congr rfl fun q _ => ?_)
  rw [r1_pay15_14_apply, r1_pay16_apply]

/-- The second accumulator's update at row `p`: what it held plus the tile's sum of (A * A) * w. -/
theorem r1_pay18_apply (x0 a0 : Vec Ideal S512x1 .f32) (x1 a1 w : Vec Ideal S1x1024 .f32) (sa : EReal)
    (s : Vec Ideal S512x1 .f32) (p : Fin 512) (z : Fin 1) :
    k1_pay18 (F := Ideal) sa w (k1_pay14 x0 x1 a0 a1) s (ix2 p z)
      = s (ix2 p z) + ∑ q : Fin 1024,
          (cenE (x0 (ix2 p 0)) (x1 (ix2 0 q)) (a1 (ix2 0 q)) (a0 (ix2 p 0)) sa
            * cenE (x0 (ix2 p 0)) (x1 (ix2 0 q)) (a1 (ix2 0 q)) (a0 (ix2 p 0)) sa) * w (ix2 0 q) := by
  unfold k1_pay18
  simp only [shapeCast_self]
  refine (acc_prod_apply _ _ w s _ _ _ _ _ p z).trans ?_
  refine congrArg (s (ix2 p z) + ·) (Finset.sum_congr rfl fun q _ => ?_)
  rw [r1_pay15_14_apply]

/-- The third accumulator's update at row `p`: what it held plus the tile's sum of (B * B) * w. -/
theorem r1_pay19_apply (x2 a2 : Vec Ideal S512x1 .f32) (x3 a3 w : Vec Ideal S1x1024 .f32) (sb : EReal)
    (s : Vec Ideal S512x1 .f32) (p : Fin 512) (z : Fin 1) :
    k1_pay19 (F := Ideal) x2 x3 a2 a3 sb w s (ix2 p z)
      = s (ix2 p z) + ∑ q : Fin 1024,
          (cenE (x2 (ix2 p 0)) (x3 (ix2 0 q)) (a3 (ix2 0 q)) (a2 (ix2 p 0)) sb
            * cenE (x2 (ix2 p 0)) (x3 (ix2 0 q)) (a3 (ix2 0 q)) (a2 (ix2 p 0)) sb) * w (ix2 0 q) := by
  unfold k1_pay19
  simp only [shapeCast_self]
  refine (acc_prod_apply _ _ w s _ _ _ _ _ p z).trans ?_
  refine congrArg (s (ix2 p z) + ·) (Finset.sum_congr rfl fun q _ => ?_)
  rw [r1_pay16_apply]

/-- One tile's update of the three accumulators, at row `p`, from the eleven input blocks. -/
theorem step1_apply (x0 x2 x4 x6 : Vec Ideal S512x1 .f32) (x1 x3 x5 x7 x10 : Vec Ideal S1x1024 .f32) (x8 x9 : Vec Ideal S1x1 .f32)
    (s : Vec Ideal S512x1 .f32 × Vec Ideal S512x1 .f32 × Vec Ideal S512x1 .f32) (p : Fin 512) (z : Fin 1) :
    (step1 (F := Ideal) x0 x1 x2 x3 x4 x5 x6 x7 x8 x9 x10 s).1 (ix2 p z)
        = s.1 (ix2 p z) + ∑ q : Fin 1024,
            (cenE (x0 (ix2 p 0)) (x1 (ix2 0 q)) (x5 (ix2 0 q)) (x4 (ix2 p 0)) (x8 (ix2 0 0))
              * cenE (x2 (ix2 p 0)) (x3 (ix2 0 q)) (x7 (ix2 0 q)) (x6 (ix2 p 0)) (x9 (ix2 0 0))) * x10 (ix2 0 q)
      ∧ (step1 (F := Ideal) x0 x1 x2 x3 x4 x5 x6 x7 x8 x9 x10 s).2.1 (ix2 p z)
        = s.2.1 (ix2 p z) + ∑ q : Fin 1024,
            (cenE (x0 (ix2 p 0)) (x1 (ix2 0 q)) (x5 (ix2 0 q)) (x4 (ix2 p 0)) (x8 (ix2 0 0))
              * cenE (x0 (ix2 p 0)) (x1 (ix2 0 q)) (x5 (ix2 0 q)) (x4 (ix2 p 0)) (x8 (ix2 0 0))) * x10 (ix2 0 q)
      ∧ (step1 (F := Ideal) x0 x1 x2 x3 x4 x5 x6 x7 x8 x9 x10 s).2.2 (ix2 p z)
        = s.2.2 (ix2 p z) + ∑ q : Fin 1024,
            (cenE (x2 (ix2 p 0)) (x3 (ix2 0 q)) (x7 (ix2 0 q)) (x6 (ix2 p 0)) (x9 (ix2 0 0))
              * cenE (x2 (ix2 p 0)) (x3 (ix2 0 q)) (x7 (ix2 0 q)) (x6 (ix2 p 0)) (x9 (ix2 0 0))) * x10 (ix2 0 q) := by
  unfold step1
  dsimp only
  rw [r1_pay7_eq, r1_pay8_eq, r1_pay9_eq, r1_pay10_eq, r1_pay11_eq, r1_pay12_eq, r1_pay13_eq]
  exact ⟨r1_pay17_apply x0 x4 x2 x6 x1 x5 x3 x7 x10 _ _ s.1 p z, r1_pay18_apply x0 x4 x1 x5 x10 _ s.2.1 p z,
    r1_pay19_apply x2 x6 x3 x7 x10 _ s.2.2 p z⟩

/-- The accumulators' reset values are zero everywhere. -/
theorem zero1_apply (i : S512x1.Idx) :
    (zero1 (F := Ideal)).1 i = 0 ∧ (zero1 (F := Ideal)).2.1 i = 0 ∧ (zero1 (F := Ideal)).2.2 i = 0 := by
  unfold zero1 k1_pay4 k1_pay5 k1_pay6
  simp only [shapeCast_self]
  exact ⟨zeros_apply i, zeros_apply i, zeros_apply i⟩

/-- A write-back divides by 8192. -/
theorem r1_pay1_apply (v : Vec Ideal S512x1 .f32) (i : S512x1.Idx) :
    k1_pay1 (F := Ideal) v i = Ideal.div (v i) (Ideal.ofBits .f32 0x46000000#32) := rfl
theorem r1_pay2_apply (v : Vec Ideal S512x1 .f32) (i : S512x1.Idx) :
    k1_pay2 (F := Ideal) v i = Ideal.div (v i) (Ideal.ofBits .f32 0x46000000#32) := rfl
theorem r1_pay3_apply (v : Vec Ideal S512x1 .f32) (i : S512x1.Idx) :
    k1_pay3 (F := Ideal) v i = Ideal.div (v i) (Ideal.ofBits .f32 0x46000000#32) := rfl

end Cert.Val

end
-- ==== Proof.Val.Rows1b.lean ====
/-
  Region 1: the blocks of a grid point read off their arrays, and the index maps over the grid.

  The grid is 16 row tiles by 8 column tiles, point t = 8 * (row tile) + (column tile). The column windows (the values and
  the row averages of the row tile's 512 rows, and the three outputs, as [512, 1] blocks of an [8192, 1] array) are at block
  (t / 8, 0); the row windows (the values, the averages and the weights of the column tile's 1024 columns, as [1, 1024]
  blocks of a [1, 8192] array) are at block (0, t % 8); the two grand terms are the one block of a [1, 1] array.
  An element of a block sits in its array, on each axis, at block index times block size plus its coordinate in the block.
-/
import proofs.«174926_j17231408792190_1_alg».proof.Proof.KI.R1Data
import Idealize.ShloMosaic.Lib.ValueIdx
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem

/-- The windows' block indices at every grid point. -/
theorem idx_facts1 : ∀ t : Fin cfg1.N,
    (win1_0.index t (0 : Fin 2) = t.val / 8 ∧ win1_0.index t (1 : Fin 2) = 0)
    ∧ (win1_1.index t (0 : Fin 2) = 0 ∧ win1_1.index t (1 : Fin 2) = t.val % 8)
    ∧ (win1_2.index t (0 : Fin 2) = t.val / 8 ∧ win1_2.index t (1 : Fin 2) = 0)
    ∧ (win1_3.index t (0 : Fin 2) = 0 ∧ win1_3.index t (1 : Fin 2) = t.val % 8)
    ∧ (win1_4.index t (0 : Fin 2) = t.val / 8 ∧ win1_4.index t (1 : Fin 2) = 0)
    ∧ (win1_5.index t (0 : Fin 2) = 0 ∧ win1_5.index t (1 : Fin 2) = t.val % 8)
    ∧ (win1_6.index t (0 : Fin 2) = t.val / 8 ∧ win1_6.index t (1 : Fin 2) = 0)
    ∧ (win1_7.index t (0 : Fin 2) = 0 ∧ win1_7.index t (1 : Fin 2) = t.val % 8)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = t.val % 8)
    ∧ (win1_11.index t (0 : Fin 2) = t.val / 8 ∧ win1_11.index t (1 : Fin 2) = 0)
    ∧ (win1_12.index t (0 : Fin 2) = t.val / 8 ∧ win1_12.index t (1 : Fin 2) = 0)
    ∧ (win1_13.index t (0 : Fin 2) = t.val / 8 ∧ win1_13.index t (1 : Fin 2) = 0) :=
  (by decide +kernel : ∀ t : Fin grid1.N, _)

theorem idx1_0 (t : Fin cfg1.N) : win1_0.index t (0 : Fin 2) = t.val / 8 ∧ win1_0.index t (1 : Fin 2) = 0 := (idx_facts1 t).1
theorem idx1_1 (t : Fin cfg1.N) : win1_1.index t (0 : Fin 2) = 0 ∧ win1_1.index t (1 : Fin 2) = t.val % 8 := (idx_facts1 t).2.1
theorem idx1_2 (t : Fin cfg1.N) : win1_2.index t (0 : Fin 2) = t.val / 8 ∧ win1_2.index t (1 : Fin 2) = 0 := (idx_facts1 t).2.2.1
theorem idx1_3 (t : Fin cfg1.N) : win1_3.index t (0 : Fin 2) = 0 ∧ win1_3.index t (1 : Fin 2) = t.val % 8 := (idx_facts1 t).2.2.2.1
theorem idx1_4 (t : Fin cfg1.N) : win1_4.index t (0 : Fin 2) = t.val / 8 ∧ win1_4.index t (1 : Fin 2) = 0 := (idx_facts1 t).2.2.2.2.1
theorem idx1_5 (t : Fin cfg1.N) : win1_5.index t (0 : Fin 2) = 0 ∧ win1_5.index t (1 : Fin 2) = t.val % 8 := (idx_facts1 t).2.2.2.2.2.1
theorem idx1_6 (t : Fin cfg1.N) : win1_6.index t (0 : Fin 2) = t.val / 8 ∧ win1_6.index t (1 : Fin 2) = 0 := (idx_facts1 t).2.2.2.2.2.2.1
theorem idx1_7 (t : Fin cfg1.N) : win1_7.index t (0 : Fin 2) = 0 ∧ win1_7.index t (1 : Fin 2) = t.val % 8 := (idx_facts1 t).2.2.2.2.2.2.2.1
theorem idx1_8 (t : Fin cfg1.N) : win1_8.index t (0 : Fin 2) = 0 ∧ win1_8.index t (1 : Fin 2) = 0 := (idx_facts1 t).2.2.2.2.2.2.2.2.1
theorem idx1_9 (t : Fin cfg1.N) : win1_9.index t (0 : Fin 2) = 0 ∧ win1_9.index t (1 : Fin 2) = 0 := (idx_facts1 t).2.2.2.2.2.2.2.2.2.1
theorem idx1_10 (t : Fin cfg1.N) : win1_10.index t (0 : Fin 2) = 0 ∧ win1_10.index t (1 : Fin 2) = t.val % 8 := (idx_facts1 t).2.2.2.2.2.2.2.2.2.2.1
theorem idx1_11 (t : Fin cfg1.N) : win1_11.index t (0 : Fin 2) = t.val / 8 ∧ win1_11.index t (1 : Fin 2) = 0 := (idx_facts1 t).2.2.2.2.2.2.2.2.2.2.2.1
theorem idx1_12 (t : Fin cfg1.N) : win1_12.index t (0 : Fin 2) = t.val / 8 ∧ win1_12.index t (1 : Fin 2) = 0 := (idx_facts1 t).2.2.2.2.2.2.2.2.2.2.2.2.1
theorem idx1_13 (t : Fin cfg1.N) : win1_13.index t (0 : Fin 2) = t.val / 8 ∧ win1_13.index t (1 : Fin 2) = 0 := (idx_facts1 t).2.2.2.2.2.2.2.2.2.2.2.2.2

variable (V : (c : Dev nD) → (b : Ref sig .tc) → Buf (Elt Ideal) ((c : Thread nD τ).loc b))

/-- Window 0's block (the first vector's values of the row tile) at point `t`, at row `p`: the array's row `512 * (t / 8) + p`. -/
theorem iblk1_0_apply (c : Dev nD) (t : Fin cfg1.N) (p : Fin 512) (z : Fin 1) (r : Fin 8192)
    (hr : r.val = 512 * (t.val / 8) + p.val) :
    (iblk1 V c 0 t : Vec Ideal S512x1 .f32) (ix2 p z) = (V c main_v23 : S8192x1.Idx → EReal) (ix2 r 0) := by
  unfold iblk1
  rw [View.read_apply]
  show V c main_v23 _ = V c main_v23 _
  congr 1
  funext a
  apply Fin.ext
  obtain ⟨e0, e1⟩ := idx1_0 t
  match a with
  | ⟨0, _⟩ => show win1_0.index t (0 : Fin 2) * 512 + 1 * p.val = r.val; omega
  | ⟨1, _⟩ => show win1_0.index t (1 : Fin 2) * 1 + 1 * z.val = 0; have := z.isLt; omega

/-- Window 1's block (the first vector's values of the column tile) at point `t`, at column `q`: the array's column `1024 * (t % 8) + q`. -/
theorem iblk1_1_apply (c : Dev nD) (t : Fin cfg1.N) (z : Fin 1) (q : Fin 1024) (l : Fin 8192)
    (hl : l.val = 1024 * (t.val % 8) + q.val) :
    (iblk1 V c 1 t : Vec Ideal S1x1024 .f32) (ix2 z q) = (V c main_v24 : S1x8192.Idx → EReal) (ix2 0 l) := by
  unfold iblk1
  rw [View.read_apply]
  show V c main_v24 _ = V c main_v24 _
  congr 1
  funext a
  apply Fin.ext
  obtain ⟨e0, e1⟩ := idx1_1 t
  match a with
  | ⟨0, _⟩ => show win1_1.index t (0 : Fin 2) * 1 + 1 * z.val = 0; have := z.isLt; omega
  | ⟨1, _⟩ => show win1_1.index t (1 : Fin 2) * 1024 + 1 * q.val = l.val; omega

/-- Window 2's block (the second vector's values of the row tile) at point `t`, at row `p`: the array's row `512 * (t / 8) + p`. -/
theorem iblk1_2_apply (c : Dev nD) (t : Fin cfg1.N) (p : Fin 512) (z : Fin 1) (r : Fin 8192)
    (hr : r.val = 512 * (t.val / 8) + p.val) :
    (iblk1 V c 2 t : Vec Ideal S512x1 .f32) (ix2 p z) = (V c main_v25 : S8192x1.Idx → EReal) (ix2 r 0) := by
  unfold iblk1
  rw [View.read_apply]
  show V c main_v25 _ = V c main_v25 _
  congr 1
  funext a
  apply Fin.ext
  obtain ⟨e0, e1⟩ := idx1_2 t
  match a with
  | ⟨0, _⟩ => show win1_2.index t (0 : Fin 2) * 512 + 1 * p.val = r.val; omega
  | ⟨1, _⟩ => show win1_2.index t (1 : Fin 2) * 1 + 1 * z.val = 0; have := z.isLt; omega

/-- Window 3's block (the second vector's values of the column tile) at point `t`, at column `q`: the array's column `1024 * (t % 8) + q`. -/
theorem iblk1_3_apply (c : Dev nD) (t : Fin cfg1.N) (z : Fin 1) (q : Fin 1024) (l : Fin 8192)
    (hl : l.val = 1024 * (t.val % 8) + q.val) :
    (iblk1 V c 3 t : Vec Ideal S1x1024 .f32) (ix2 z q) = (V c main_v26 : S1x8192.Idx → EReal) (ix2 0 l) := by
  unfold iblk1
  rw [View.read_apply]
  show V c main_v26 _ = V c main_v26 _
  congr 1
  funext a
  apply Fin.ext
  obtain ⟨e0, e1⟩ := idx1_3 t
  match a with
  | ⟨0, _⟩ => show win1_3.index t (0 : Fin 2) * 1 + 1 * z.val = 0; have := z.isLt; omega
  | ⟨1, _⟩ => show win1_3.index t (1 : Fin 2) * 1024 + 1 * q.val = l.val; omega

/-- Window 4's block (the first row averages of the row tile) at point `t`, at row `p`: the array's row `512 * (t / 8) + p`. -/
theorem iblk1_4_apply (c : Dev nD) (t : Fin cfg1.N) (p : Fin 512) (z : Fin 1) (r : Fin 8192)
    (hr : r.val = 512 * (t.val / 8) + p.val) :
    (iblk1 V c 4 t : Vec Ideal S512x1 .f32) (ix2 p z) = (V c main_v28_0 : S8192x1.Idx → EReal) (ix2 r 0) := by
  unfold iblk1
  rw [View.read_apply]
  show V c main_v28_0 _ = V c main_v28_0 _
  congr 1
  funext a
  apply Fin.ext
  obtain ⟨e0, e1⟩ := idx1_4 t
  match a with
  | ⟨0, _⟩ => show win1_4.index t (0 : Fin 2) * 512 + 1 * p.val = r.val; omega
  | ⟨1, _⟩ => show win1_4.index t (1 : Fin 2) * 1 + 1 * z.val = 0; have := z.isLt; omega

/-- Window 5's block (the first row averages of the column tile) at point `t`, at column `q`: the array's column `1024 * (t % 8) + q`. -/
theorem iblk1_5_apply (c : Dev nD) (t : Fin cfg1.N) (z : Fin 1) (q : Fin 1024) (l : Fin 8192)
    (hl : l.val = 1024 * (t.val % 8) + q.val) :
    (iblk1 V c 5 t : Vec Ideal S1x1024 .f32) (ix2 z q) = (V c main_v39 : S1x8192.Idx → EReal) (ix2 0 l) := by
  unfold iblk1
  rw [View.read_apply]
  show V c main_v39 _ = V c main_v39 _
  congr 1
  funext a
  apply Fin.ext
  obtain ⟨e0, e1⟩ := idx1_5 t
  match a with
  | ⟨0, _⟩ => show win1_5.index t (0 : Fin 2) * 1 + 1 * z.val = 0; have := z.isLt; omega
  | ⟨1, _⟩ => show win1_5.index t (1 : Fin 2) * 1024 + 1 * q.val = l.val; omega

/-- Window 6's block (the second row averages of the row tile) at point `t`, at row `p`: the array's row `512 * (t / 8) + p`. -/
theorem iblk1_6_apply (c : Dev nD) (t : Fin cfg1.N) (p : Fin 512) (z : Fin 1) (r : Fin 8192)
    (hr : r.val = 512 * (t.val / 8) + p.val) :
    (iblk1 V c 6 t : Vec Ideal S512x1 .f32) (ix2 p z) = (V c main_v28_1 : S8192x1.Idx → EReal) (ix2 r 0) := by
  unfold iblk1
  rw [View.read_apply]
  show V c main_v28_1 _ = V c main_v28_1 _
  congr 1
  funext a
  apply Fin.ext
  obtain ⟨e0, e1⟩ := idx1_6 t
  match a with
  | ⟨0, _⟩ => show win1_6.index t (0 : Fin 2) * 512 + 1 * p.val = r.val; omega
  | ⟨1, _⟩ => show win1_6.index t (1 : Fin 2) * 1 + 1 * z.val = 0; have := z.isLt; omega

/-- Window 7's block (the second row averages of the column tile) at point `t`, at column `q`: the array's column `1024 * (t % 8) + q`. -/
theorem iblk1_7_apply (c : Dev nD) (t : Fin cfg1.N) (z : Fin 1) (q : Fin 1024) (l : Fin 8192)
    (hl : l.val = 1024 * (t.val % 8) + q.val) :
    (iblk1 V c 7 t : Vec Ideal S1x1024 .f32) (ix2 z q) = (V c main_v40 : S1x8192.Idx → EReal) (ix2 0 l) := by
  unfold iblk1
  rw [View.read_apply]
  show V c main_v40 _ = V c main_v40 _
  congr 1
  funext a
  apply Fin.ext
  obtain ⟨e0, e1⟩ := idx1_7 t
  match a with
  | ⟨0, _⟩ => show win1_7.index t (0 : Fin 2) * 1 + 1 * z.val = 0; have := z.isLt; omega
  | ⟨1, _⟩ => show win1_7.index t (1 : Fin 2) * 1024 + 1 * q.val = l.val; omega

/-- Window 8's block (the first grand term) at any point: the [1, 1] array's one entry. -/
theorem iblk1_8_apply (c : Dev nD) (t : Fin cfg1.N) (z z' : Fin 1) :
    (iblk1 V c 8 t : Vec Ideal S1x1 .f32) (ix2 z z') = (V c main_v37 : S1x1.Idx → EReal) (ix2 0 0) := by
  unfold iblk1
  rw [View.read_apply]
  show V c main_v37 _ = V c main_v37 _
  congr 1
  funext a
  apply Fin.ext
  obtain ⟨e0, e1⟩ := idx1_8 t
  match a with
  | ⟨0, _⟩ => show win1_8.index t (0 : Fin 2) * 1 + 1 * z.val = 0; have := z.isLt; omega
  | ⟨1, _⟩ => show win1_8.index t (1 : Fin 2) * 1 + 1 * z'.val = 0; have := z'.isLt; omega

/-- Window 9's block (the second grand term) at any point: the [1, 1] array's one entry. -/
theorem iblk1_9_apply (c : Dev nD) (t : Fin cfg1.N) (z z' : Fin 1) :
    (iblk1 V c 9 t : Vec Ideal S1x1 .f32) (ix2 z z') = (V c main_v38 : S1x1.Idx → EReal) (ix2 0 0) := by
  unfold iblk1
  rw [View.read_apply]
  show V c main_v38 _ = V c main_v38 _
  congr 1
  funext a
  apply Fin.ext
  obtain ⟨e0, e1⟩ := idx1_9 t
  match a with
  | ⟨0, _⟩ => show win1_9.index t (0 : Fin 2) * 1 + 1 * z.val = 0; have := z.isLt; omega
  | ⟨1, _⟩ => show win1_9.index t (1 : Fin 2) * 1 + 1 * z'.val = 0; have := z'.isLt; omega

/-- Window 10's block (the weights of the column tile) at point `t`, at column `q`: the array's column `1024 * (t % 8) + q`. -/
theorem iblk1_10_apply (c : Dev nD) (t : Fin cfg1.N) (z : Fin 1) (q : Fin 1024) (l : Fin 8192)
    (hl : l.val = 1024 * (t.val % 8) + q.val) :
    (iblk1 V c 10 t : Vec Ideal S1x1024 .f32) (ix2 z q) = (V c main_v27 : S1x8192.Idx → EReal) (ix2 0 l) := by
  unfold iblk1
  rw [View.read_apply]
  show V c main_v27 _ = V c main_v27 _
  congr 1
  funext a
  apply Fin.ext
  obtain ⟨e0, e1⟩ := idx1_10 t
  match a with
  | ⟨0, _⟩ => show win1_10.index t (0 : Fin 2) * 1 + 1 * z.val = 0; have := z.isLt; omega
  | ⟨1, _⟩ => show win1_10.index t (1 : Fin 2) * 1024 + 1 * q.val = l.val; omega

/-- Output window 11's block at point `t` of any contents `G` of its array, at row `p`: `G` at row `512 * (t / 8) + p`. -/
theorem blk1_11_read (G : S8192x1.Idx → EReal) (t : Fin cfg1.N) (p : Fin 512) (z : Fin 1) (r : Fin 8192)
    (hr : r.val = 512 * (t.val / 8) + p.val) :
    (((cfg1.win 11).blk t).view.read (Elt Ideal) G : Vec Ideal S512x1 .f32) (ix2 p z) = G (ix2 r 0) := by
  rw [View.read_apply]
  show G _ = G _
  congr 1
  funext a
  apply Fin.ext
  obtain ⟨e0, e1⟩ := idx1_11 t
  match a with
  | ⟨0, _⟩ => show win1_11.index t (0 : Fin 2) * 512 + 1 * p.val = r.val; omega
  | ⟨1, _⟩ => show win1_11.index t (1 : Fin 2) * 1 + 1 * z.val = 0; have := z.isLt; omega

/-- Output window 12's block at point `t` of any contents `G` of its array, at row `p`: `G` at row `512 * (t / 8) + p`. -/
theorem blk1_12_read (G : S8192x1.Idx → EReal) (t : Fin cfg1.N) (p : Fin 512) (z : Fin 1) (r : Fin 8192)
    (hr : r.val = 512 * (t.val / 8) + p.val) :
    (((cfg1.win 12).blk t).view.read (Elt Ideal) G : Vec Ideal S512x1 .f32) (ix2 p z) = G (ix2 r 0) := by
  rw [View.read_apply]
  show G _ = G _
  congr 1
  funext a
  apply Fin.ext
  obtain ⟨e0, e1⟩ := idx1_12 t
  match a with
  | ⟨0, _⟩ => show win1_12.index t (0 : Fin 2) * 512 + 1 * p.val = r.val; omega
  | ⟨1, _⟩ => show win1_12.index t (1 : Fin 2) * 1 + 1 * z.val = 0; have := z.isLt; omega

/-- Output window 13's block at point `t` of any contents `G` of its array, at row `p`: `G` at row `512 * (t / 8) + p`. -/
theorem blk1_13_read (G : S8192x1.Idx → EReal) (t : Fin cfg1.N) (p : Fin 512) (z : Fin 1) (r : Fin 8192)
    (hr : r.val = 512 * (t.val / 8) + p.val) :
    (((cfg1.win 13).blk t).view.read (Elt Ideal) G : Vec Ideal S512x1 .f32) (ix2 p z) = G (ix2 r 0) := by
  rw [View.read_apply]
  show G _ = G _
  congr 1
  funext a
  apply Fin.ext
  obtain ⟨e0, e1⟩ := idx1_13 t
  match a with
  | ⟨0, _⟩ => show win1_13.index t (0 : Fin 2) * 512 + 1 * p.val = r.val; omega
  | ⟨1, _⟩ => show win1_13.index t (1 : Fin 2) * 1 + 1 * z.val = 0; have := z.isLt; omega

end Cert.Val

end
-- ==== Proof.Val.Rows1c.lean ====
/-
  Region 1: the accumulators at the last column tile of a row tile hold the whole rows' sums.

  With the arrays the region finds read as vectors x, y (the values), aavg, bavg (the first pass's row averages), nw (the
  weights) and scalars sa, sb (the grand terms), the update at grid point t adds to the three accumulators, at row p of the
  row tile t / 8, the sums over the columns l of the column tile t % 8 of (A r l * B r l) * nw l, (A r l * A r l) * nw l and
  (B r l * B r l) * nw l, where r = 512 * (t / 8) + p and A, B are the centred distances. The accumulators restart from zero
  at column tile 0, so at column tile 7 each holds the sum over all 8192 columns: a running total over 8 tiles of 1024.
-/
import proofs.«174926_j17231408792190_1_alg».proof.Proof.Val.Rows1a
import proofs.«174926_j17231408792190_1_alg».proof.Proof.Val.Rows1b
import proofs.«174926_j17231408792190_1_alg».proof.Proof.Ref.Spec
import proofs.«174926_j17231408792190_1_alg».proof.Proof.LibAccum

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.ValueIdx Idealize.SL.Sem
open Cert.TileSum

/-- The three accumulator columns. -/
abbrev Acc3 : Type := Vec Ideal S512x1 .f32 × Vec Ideal S512x1 .f32 × Vec Ideal S512x1 .f32

/-- 8192 columns are 8 tiles of 1024. -/
theorem h8192 : 8192 = 8 * 1024 := by norm_num

variable (V : (c : Dev nD) → (b : Ref sig .tc) → Buf (Elt Ideal) ((c : Thread nD τ).loc b))

/-- The arrays the region finds, read as vectors and scalars. -/
structure Reads1 (c : Dev nD) (x y nw aavg bavg : Fin 8192 → EReal) (sa sb : EReal) : Prop where
  h23 : ∀ l, (V c main_v23 : S8192x1.Idx → EReal) (ix2 l 0) = x l
  h24 : ∀ l, (V c main_v24 : S1x8192.Idx → EReal) (ix2 0 l) = x l
  h25 : ∀ l, (V c main_v25 : S8192x1.Idx → EReal) (ix2 l 0) = y l
  h26 : ∀ l, (V c main_v26 : S1x8192.Idx → EReal) (ix2 0 l) = y l
  h28a : ∀ l, (V c main_v28_0 : S8192x1.Idx → EReal) (ix2 l 0) = aavg l
  h39 : ∀ l, (V c main_v39 : S1x8192.Idx → EReal) (ix2 0 l) = aavg l
  h28b : ∀ l, (V c main_v28_1 : S8192x1.Idx → EReal) (ix2 l 0) = bavg l
  h40 : ∀ l, (V c main_v40 : S1x8192.Idx → EReal) (ix2 0 l) = bavg l
  h37 : (V c main_v37 : S1x1.Idx → EReal) (ix2 0 0) = sa
  h38 : (V c main_v38 : S1x1.Idx → EReal) (ix2 0 0) = sb
  h27 : ∀ l, (V c main_v27 : S1x8192.Idx → EReal) (ix2 0 l) = nw l

/-- A weighted product entry of two matrices. -/
def wprod (A B : Fin 8192 → Fin 8192 → EReal) (nw : Fin 8192 → EReal) (r l : Fin 8192) : EReal := (A r l * B r l) * nw l

variable {V}

/-- One grid point's update of the three accumulators at row `p` of its row tile: each grows by its weighted products
    summed over the point's column tile. -/
theorem stepAt1_apply {c : Dev nD} {x y nw aavg bavg : Fin 8192 → EReal} {sa sb : EReal}
    (H : Reads1 V c x y nw aavg bavg sa sb) (t : Fin cfg1.N) (s : Acc3) (p : Fin 512) (z : Fin 1) (r : Fin 8192)
    (hr : r.val = 512 * (t.val / 8) + p.val) (k : Fin 8) (hk : k.val = t.val % 8) :
    (stepAt1 V c t s).1 (ix2 p z)
        = s.1 (ix2 p z) + ∑ q : Fin 1024, wprod (Cert.Spec.cen x aavg sa) (Cert.Spec.cen y bavg sb) nw r (tileIdx h8192 k q)
      ∧ (stepAt1 V c t s).2.1 (ix2 p z)
        = s.2.1 (ix2 p z) + ∑ q : Fin 1024, wprod (Cert.Spec.cen x aavg sa) (Cert.Spec.cen x aavg sa) nw r (tileIdx h8192 k q)
      ∧ (stepAt1 V c t s).2.2 (ix2 p z)
        = s.2.2 (ix2 p z) + ∑ q : Fin 1024, wprod (Cert.Spec.cen y bavg sb) (Cert.Spec.cen y bavg sb) nw r (tileIdx h8192 k q) := by
  have hl : ∀ q : Fin 1024, (tileIdx h8192 k q).val = 1024 * (t.val % 8) + q.val := fun q => by
    rw [tileIdx_val, hk]; omega
  have e0 : ∀ z' : Fin 1, (iblk1 V c 0 t : Vec Ideal S512x1 .f32) (ix2 p z') = x r := fun z' =>
    (iblk1_0_apply V c t p z' r hr).trans (H.h23 r)
  have e2 : ∀ z' : Fin 1, (iblk1 V c 2 t : Vec Ideal S512x1 .f32) (ix2 p z') = y r := fun z' =>
    (iblk1_2_apply V c t p z' r hr).trans (H.h25 r)
  have e4 : ∀ z' : Fin 1, (iblk1 V c 4 t : Vec Ideal S512x1 .f32) (ix2 p z') = aavg r := fun z' =>
    (iblk1_4_apply V c t p z' r hr).trans (H.h28a r)
  have e6 : ∀ z' : Fin 1, (iblk1 V c 6 t : Vec Ideal S512x1 .f32) (ix2 p z') = bavg r := fun z' =>
    (iblk1_6_apply V c t p z' r hr).trans (H.h28b r)
  have e1 : ∀ (z' : Fin 1) (q : Fin 1024), (iblk1 V c 1 t : Vec Ideal S1x1024 .f32) (ix2 z' q) = x (tileIdx h8192 k q) := fun z' q =>
    (iblk1_1_apply V c t z' q _ (hl q)).trans (H.h24 _)
  have e3 : ∀ (z' : Fin 1) (q : Fin 1024), (iblk1 V c 3 t : Vec Ideal S1x1024 .f32) (ix2 z' q) = y (tileIdx h8192 k q) := fun z' q =>
    (iblk1_3_apply V c t z' q _ (hl q)).trans (H.h26 _)
  have e5 : ∀ (z' : Fin 1) (q : Fin 1024), (iblk1 V c 5 t : Vec Ideal S1x1024 .f32) (ix2 z' q) = aavg (tileIdx h8192 k q) := fun z' q =>
    (iblk1_5_apply V c t z' q _ (hl q)).trans (H.h39 _)
  have e7 : ∀ (z' : Fin 1) (q : Fin 1024), (iblk1 V c 7 t : Vec Ideal S1x1024 .f32) (ix2 z' q) = bavg (tileIdx h8192 k q) := fun z' q =>
    (iblk1_7_apply V c t z' q _ (hl q)).trans (H.h40 _)
  have e10 : ∀ (z' : Fin 1) (q : Fin 1024), (iblk1 V c 10 t : Vec Ideal S1x1024 .f32) (ix2 z' q) = nw (tileIdx h8192 k q) := fun z' q =>
    (iblk1_10_apply V c t z' q _ (hl q)).trans (H.h27 _)
  have e8 : ∀ z' z'' : Fin 1, (iblk1 V c 8 t : Vec Ideal S1x1 .f32) (ix2 z' z'') = sa := fun z' z'' =>
    (iblk1_8_apply V c t z' z'').trans H.h37
  have e9 : ∀ z' z'' : Fin 1, (iblk1 V c 9 t : Vec Ideal S1x1 .f32) (ix2 z' z'') = sb := fun z' z'' =>
    (iblk1_9_apply V c t z' z'').trans H.h38
  obtain ⟨h1, h2, h3⟩ := step1_apply (iblk1 V c 0 t) (iblk1 V c 2 t) (iblk1 V c 4 t) (iblk1 V c 6 t) (iblk1 V c 1 t) (iblk1 V c 3 t)
    (iblk1 V c 5 t) (iblk1 V c 7 t) (iblk1 V c 10 t) (iblk1 V c 8 t) (iblk1 V c 9 t) s p z
  refine ⟨?_, ?_, ?_⟩
  · refine h1.trans (congrArg (s.1 (ix2 p z) + ·) (Finset.sum_congr rfl fun q _ => ?_))
    rw [e0, e1, e2, e3, e4, e5, e6, e7, e8, e9, e10]
    rfl
  · refine h2.trans (congrArg (s.2.1 (ix2 p z) + ·) (Finset.sum_congr rfl fun q _ => ?_))
    rw [e0, e1, e4, e5, e8, e10]
    rfl
  · refine h3.trans (congrArg (s.2.2 (ix2 p z) + ·) (Finset.sum_congr rfl fun q _ => ?_))
    rw [e2, e3, e6, e7, e9, e10]
    rfl

variable (V)

/-- A component of the accumulators after point `n`, read at one index (zero past the grid). -/
def accAt (c : Dev nD) (π : Acc3 → Vec Ideal S512x1 .f32) (j : S512x1.Idx) (n : ℕ) : EReal :=
  if hn : n < cfg1.N then π (acc1 V c n hn) j else 0

theorem accAt_of_lt (c : Dev nD) (π : Acc3 → Vec Ideal S512x1 .f32) (j : S512x1.Idx) (n : ℕ) (hn : n < cfg1.N) :
    accAt V c π j n = π (acc1 V c n hn) j := dif_pos hn

/-- The accumulators at a point after the first of its row tile: the update of what the point before left. -/
theorem acc1_succ (c : Dev nD) (n : ℕ) (hn : n + 1 < cfg1.N) (h : ¬(n + 1) % 8 = 0) :
    acc1 V c (n + 1) hn = stepAt1 V c ⟨n + 1, hn⟩ (acc1 V c n (Nat.lt_of_succ_lt hn)) := if_neg h

/-- A component that is zero at the reset and grows at each point of row tile `i` by its column tile's sum of `h` holds,
    at the row tile's last point, the sum of `h` over all 8192 columns. -/
theorem acc_closed (c : Dev nD) (π : Acc3 → Vec Ideal S512x1 .f32) (j : S512x1.Idx) (h : Fin 8192 → EReal) (i : ℕ)
    (hz : π (zero1 (F := Ideal)) j = 0)
    (hstep : ∀ (t : Fin cfg1.N) (k : Fin 8), t.val / 8 = i → k.val = t.val % 8 → ∀ s : Acc3,
      π (stepAt1 V c t s) j = π s j + ∑ q : Fin 1024, h (tileIdx h8192 k q))
    (t : Fin cfg1.N) (hi : t.val / 8 = i) (h7 : t.val % 8 = 7) :
    π (acc1 V c t.val t.isLt) j = ∑ L : Fin 8192, h L := by
  have hN : cfg1.N = 128 := N_1
  have hreset : ∀ (n : ℕ) (hn : n < cfg1.N), n % 8 = 0 → n / 8 = i →
      accAt V c π j n = ∑ q : Fin 1024, h (tileIdx h8192 ⟨0, by norm_num⟩ q) := fun n hn hm hd => by
    rw [accAt_of_lt V c π j n hn]
    refine (congrArg (fun s => π s j) (acc1_reset V c ⟨n, hn⟩ hm)).trans ?_
    refine (hstep ⟨n, hn⟩ ⟨0, by norm_num⟩ hd (by show 0 = n % 8; omega) _).trans ?_
    rw [hz, zero_add]
  have hgrow : ∀ (n : ℕ) (hn : n + 1 < cfg1.N) (k : Fin 8), k.val = (n + 1) % 8 → ¬(n + 1) % 8 = 0 → (n + 1) / 8 = i →
      accAt V c π j (n + 1) = accAt V c π j n + ∑ q : Fin 1024, h (tileIdx h8192 k q) := fun n hn k hk hm hd => by
    rw [accAt_of_lt V c π j (n + 1) hn, accAt_of_lt V c π j n (Nat.lt_of_succ_lt hn), acc1_succ V c n hn hm]
    exact hstep ⟨n + 1, hn⟩ k hd hk _
  have key : accAt V c π j (8 * i + (8 - 1)) = ∑ L : Fin 8192, h L := by
    refine Cert.Accum.accum_tiles (T := 8) (w := 1024) (N := 8192) h8192 (by norm_num) h (fun k => accAt V c π j (8 * i + k)) ?_ ?_
    · exact hreset (8 * i + 0) (by have := t.isLt; omega) (by omega) (by omega)
    · intro k hk
      show accAt V c π j (8 * i + (k + 1)) = accAt V c π j (8 * i + k) + _
      have e : 8 * i + (k + 1) = (8 * i + k) + 1 := by omega
      rw [e]
      exact hgrow (8 * i + k) (by have := t.isLt; omega) ⟨k + 1, hk⟩ (by show k + 1 = (8 * i + k + 1) % 8; omega) (by omega) (by omega)
  have e : 8 * i + (8 - 1) = t.val := by omega
  rw [e, accAt_of_lt V c π j t.val t.isLt] at key
  exact key

variable {V}

/-- At the last column tile of a row tile the three accumulators hold, at row `p`, the sums over all 8192 columns of the
    weighted products of the centred distances of row `512 * (t / 8) + p`. -/
theorem acc1_last {c : Dev nD} {x y nw aavg bavg : Fin 8192 → EReal} {sa sb : EReal}
    (H : Reads1 V c x y nw aavg bavg sa sb) (t : Fin cfg1.N) (h7 : t.val % 8 = 7) (p : Fin 512) (z : Fin 1) (r : Fin 8192)
    (hr : r.val = 512 * (t.val / 8) + p.val) :
    (acc1 V c t.val t.isLt).1 (ix2 p z) = ∑ L : Fin 8192, wprod (Cert.Spec.cen x aavg sa) (Cert.Spec.cen y bavg sb) nw r L
      ∧ (acc1 V c t.val t.isLt).2.1 (ix2 p z) = ∑ L : Fin 8192, wprod (Cert.Spec.cen x aavg sa) (Cert.Spec.cen x aavg sa) nw r L
      ∧ (acc1 V c t.val t.isLt).2.2 (ix2 p z) = ∑ L : Fin 8192, wprod (Cert.Spec.cen y bavg sb) (Cert.Spec.cen y bavg sb) nw r L := by
  have hr' : ∀ t' : Fin cfg1.N, t'.val / 8 = t.val / 8 → r.val = 512 * (t'.val / 8) + p.val := fun t' e => by rw [e]; exact hr
  refine ⟨?_, ?_, ?_⟩
  · exact acc_closed V c (fun s => s.1) (ix2 p z) _ (t.val / 8) (zero1_apply (ix2 p z)).1
      (fun t' k hd hk s => (stepAt1_apply H t' s p z r (hr' t' hd) k hk).1) t rfl h7
  · exact acc_closed V c (fun s => s.2.1) (ix2 p z) _ (t.val / 8) (zero1_apply (ix2 p z)).2.1
      (fun t' k hd hk s => (stepAt1_apply H t' s p z r (hr' t' hd) k hk).2.1) t rfl h7
  · exact acc_closed V c (fun s => s.2.2) (ix2 p z) _ (t.val / 8) (zero1_apply (ix2 p z)).2.2
      (fun t' k hd hk s => (stepAt1_apply H t' s p z r (hr' t' hd) k hk).2.2) t rfl h7

end Cert.Val

end
-- ==== Proof.Val.Rows1.lean ====
/-
  Region 1: its three output arrays after the region.

  Output row r belongs to row tile r / 512; the tile's block is written back once, at the tile's last grid point
  8 * (r / 512) + 7, from the three accumulators divided by 8192. There each accumulator holds the sum over all 8192 columns
  of its weighted product of the centred distances, so the three arrays end at the weighted row means of A * B, A * A and
  B * B, where A and B are the doubly centred distance matrices of the two vectors.
-/
import proofs.«174926_j17231408792190_1_alg».proof.Proof.Val.Rows1c

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The weighted row means of an entrywise product, as contents of an [8192, 1] array. -/
def G1 (A B : Fin 8192 → Fin 8192 → EReal) (nw : Fin 8192 → EReal) : S8192x1.Idx → EReal :=
  fun i => Cert.Spec.rowProd A B nw ⟨(i 0).val, idx2_lt0 i⟩

/-- Its entry at row `r` is the zero word plus the sum of the weighted products of row `r`, divided by 8192; the zero word
    is the extended real 0. -/
theorem G1_apply (A B : Fin 8192 → Fin 8192 → EReal) (nw : Fin 8192 → EReal) (r : Fin 8192) :
    G1 A B nw (ix2 r 0) = Ideal.div (∑ L : Fin 8192, wprod A B nw r L) (Ideal.ofBits .f32 0x46000000#32) := by
  show Ideal.div (Ideal.ofBits .f32 0x00000000#32 + ∑ l : Fin 8192, (A r l * B r l) * nw l) _ = _
  rw [Ideal.ofBits_zero_f32, zero_add]
  rfl

theorem G1_row (A B : Fin 8192 → Fin 8192 → EReal) (nw : Fin 8192 → EReal) (r : Fin 8192) :
    G1 A B nw (ix2 r 0) = Cert.Spec.rowProd A B nw r := rfl

variable {V : (c : Dev nD) → (b : Ref sig .tc) → Buf (Elt Ideal) ((c : Thread nD τ).loc b)}

/-- What point `t` writes back through output window 11 is block `t` of the rows' weighted means of A * B. -/
theorem flushed1_11 {c : Dev nD} {x y nw aavg bavg : Fin 8192 → EReal} {sa sb : EReal}
    (H : Reads1 V c x y nw aavg bavg sa sb) (t : Fin cfg1.N) (hf : (cfg1.win 11).flush t = true) :
    (dat1 V c).flushed 11 t = ((cfg1.win 11).blk t).view.read (Elt Ideal) (G1 (Cert.Spec.cen x aavg sa) (Cert.Spec.cen y bavg sb) nw) := by
  have h7 : t.val % 8 = 7 := (flush1_11 t).mp hf
  have hN : t.val < 128 := lt_of_lt_of_eq t.isLt N_1
  refine funext fun (j : S512x1.Idx) => ?_
  obtain ⟨p, z, rfl⟩ : ∃ (p : Fin 512) (z : Fin 1), j = ix2 p z := ⟨j 0, j 1, eq_ix2 j⟩
  have hp := p.isLt
  have hr : (⟨512 * (t.val / 8) + p.val, by omega⟩ : Fin 8192).val = 512 * (t.val / 8) + p.val := rfl
  refine Eq.trans ?_ (blk1_11_read (G1 (Cert.Spec.cen x aavg sa) (Cert.Spec.cen y bavg sb) nw) t p z _ hr).symm
  show (dat1 V c).after 11 t (ix2 p z) = _
  rw [after1_11]
  refine (r1_pay1_apply _ _).trans ?_
  rw [(acc1_last H t h7 p z _ hr).1]
  exact (G1_apply _ _ nw _).symm

/-- A row of output array 11 is in point `t`'s block iff each coordinate is in the block's range on its axis. -/
theorem mem_blk1_11 (t : Fin cfg1.N) (i : S8192x1.Idx) :
    i ∈ ((cfg1.win 11).blk t).view.set ↔ ∀ a : Fin 2, win1_11.index t a * S512x1.size a ≤ (i a).val
      ∧ (i a).val < win1_11.index t a * S512x1.size a + S512x1.size a := by
  show i ∈ ((View.whole main_v41_0).slice (win1_11.rect t)).set ↔ _
  rw [View.set_slice_whole, Rect.mem_set_unit]
  exact Iff.rfl

/-- Every row of output array 11 is in the block of its row tile's last point, which writes back. -/
theorem cover1_11 (i : S8192x1.Idx) :
    ∃ t : Fin cfg1.N, (cfg1.win 11).flush t = true ∧ i ∈ ((cfg1.win 11).blk t).view.set := by
  have h0 : (i 0).val < 8192 := (i 0).isLt
  have h1 : (i 1).val < 1 := (i 1).isLt
  have hN : cfg1.N = 128 := N_1
  obtain ⟨t, ht⟩ : ∃ t : Fin cfg1.N, t.val = 8 * ((i 0).val / 512) + 7 := ⟨⟨8 * ((i 0).val / 512) + 7, by omega⟩, rfl⟩
  refine ⟨t, (flush1_11 t).mpr (by omega), ?_⟩
  rw [mem_blk1_11]
  obtain ⟨e0, e1⟩ := idx1_11 t
  intro a
  match a with
  | ⟨0, _⟩ =>
    show win1_11.index t (0 : Fin 2) * 512 ≤ (i 0).val ∧ (i 0).val < win1_11.index t (0 : Fin 2) * 512 + 512
    omega
  | ⟨1, _⟩ =>
    show win1_11.index t (1 : Fin 2) * 1 ≤ (i 1).val ∧ (i 1).val < win1_11.index t (1 : Fin 2) * 1 + 1
    omega

/-- Output array 11 after the region: the rows' weighted means of A * B. -/
theorem final1_11 {c : Dev nD} {x y nw aavg bavg : Fin 8192 → EReal} {sa sb : EReal}
    (H : Reads1 V c x y nw aavg bavg sa sb) :
    (dat1 V c).arrAt 11 cfg1.N = G1 (Cert.Spec.cen x aavg sa) (Cert.Spec.cen y bavg sb) nw :=
  (dat1 V c).arrAt_eq_of_cover 11 (G1 (Cert.Spec.cen x aavg sa) (Cert.Spec.cen y bavg sb) nw) (fun t hf => flushed1_11 H t hf) cover1_11

/-- What point `t` writes back through output window 12 is block `t` of the rows' weighted means of A * A. -/
theorem flushed1_12 {c : Dev nD} {x y nw aavg bavg : Fin 8192 → EReal} {sa sb : EReal}
    (H : Reads1 V c x y nw aavg bavg sa sb) (t : Fin cfg1.N) (hf : (cfg1.win 12).flush t = true) :
    (dat1 V c).flushed 12 t = ((cfg1.win 12).blk t).view.read (Elt Ideal) (G1 (Cert.Spec.cen x aavg sa) (Cert.Spec.cen x aavg sa) nw) := by
  have h7 : t.val % 8 = 7 := (flush1_12 t).mp hf
  have hN : t.val < 128 := lt_of_lt_of_eq t.isLt N_1
  refine funext fun (j : S512x1.Idx) => ?_
  obtain ⟨p, z, rfl⟩ : ∃ (p : Fin 512) (z : Fin 1), j = ix2 p z := ⟨j 0, j 1, eq_ix2 j⟩
  have hp := p.isLt
  have hr : (⟨512 * (t.val / 8) + p.val, by omega⟩ : Fin 8192).val = 512 * (t.val / 8) + p.val := rfl
  refine Eq.trans ?_ (blk1_12_read (G1 (Cert.Spec.cen x aavg sa) (Cert.Spec.cen x aavg sa) nw) t p z _ hr).symm
  show (dat1 V c).after 12 t (ix2 p z) = _
  rw [after1_12]
  refine (r1_pay2_apply _ _).trans ?_
  rw [(acc1_last H t h7 p z _ hr).2.1]
  exact (G1_apply _ _ nw _).symm

/-- A row of output array 12 is in point `t`'s block iff each coordinate is in the block's range on its axis. -/
theorem mem_blk1_12 (t : Fin cfg1.N) (i : S8192x1.Idx) :
    i ∈ ((cfg1.win 12).blk t).view.set ↔ ∀ a : Fin 2, win1_12.index t a * S512x1.size a ≤ (i a).val
      ∧ (i a).val < win1_12.index t a * S512x1.size a + S512x1.size a := by
  show i ∈ ((View.whole main_v41_1).slice (win1_12.rect t)).set ↔ _
  rw [View.set_slice_whole, Rect.mem_set_unit]
  exact Iff.rfl

/-- Every row of output array 12 is in the block of its row tile's last point, which writes back. -/
theorem cover1_12 (i : S8192x1.Idx) :
    ∃ t : Fin cfg1.N, (cfg1.win 12).flush t = true ∧ i ∈ ((cfg1.win 12).blk t).view.set := by
  have h0 : (i 0).val < 8192 := (i 0).isLt
  have h1 : (i 1).val < 1 := (i 1).isLt
  have hN : cfg1.N = 128 := N_1
  obtain ⟨t, ht⟩ : ∃ t : Fin cfg1.N, t.val = 8 * ((i 0).val / 512) + 7 := ⟨⟨8 * ((i 0).val / 512) + 7, by omega⟩, rfl⟩
  refine ⟨t, (flush1_12 t).mpr (by omega), ?_⟩
  rw [mem_blk1_12]
  obtain ⟨e0, e1⟩ := idx1_12 t
  intro a
  match a with
  | ⟨0, _⟩ =>
    show win1_12.index t (0 : Fin 2) * 512 ≤ (i 0).val ∧ (i 0).val < win1_12.index t (0 : Fin 2) * 512 + 512
    omega
  | ⟨1, _⟩ =>
    show win1_12.index t (1 : Fin 2) * 1 ≤ (i 1).val ∧ (i 1).val < win1_12.index t (1 : Fin 2) * 1 + 1
    omega

/-- Output array 12 after the region: the rows' weighted means of A * A. -/
theorem final1_12 {c : Dev nD} {x y nw aavg bavg : Fin 8192 → EReal} {sa sb : EReal}
    (H : Reads1 V c x y nw aavg bavg sa sb) :
    (dat1 V c).arrAt 12 cfg1.N = G1 (Cert.Spec.cen x aavg sa) (Cert.Spec.cen x aavg sa) nw :=
  (dat1 V c).arrAt_eq_of_cover 12 (G1 (Cert.Spec.cen x aavg sa) (Cert.Spec.cen x aavg sa) nw) (fun t hf => flushed1_12 H t hf) cover1_12

/-- What point `t` writes back through output window 13 is block `t` of the rows' weighted means of B * B. -/
theorem flushed1_13 {c : Dev nD} {x y nw aavg bavg : Fin 8192 → EReal} {sa sb : EReal}
    (H : Reads1 V c x y nw aavg bavg sa sb) (t : Fin cfg1.N) (hf : (cfg1.win 13).flush t = true) :
    (dat1 V c).flushed 13 t = ((cfg1.win 13).blk t).view.read (Elt Ideal) (G1 (Cert.Spec.cen y bavg sb) (Cert.Spec.cen y bavg sb) nw) := by
  have h7 : t.val % 8 = 7 := (flush1_13 t).mp hf
  have hN : t.val < 128 := lt_of_lt_of_eq t.isLt N_1
  refine funext fun (j : S512x1.Idx) => ?_
  obtain ⟨p, z, rfl⟩ : ∃ (p : Fin 512) (z : Fin 1), j = ix2 p z := ⟨j 0, j 1, eq_ix2 j⟩
  have hp := p.isLt
  have hr : (⟨512 * (t.val / 8) + p.val, by omega⟩ : Fin 8192).val = 512 * (t.val / 8) + p.val := rfl
  refine Eq.trans ?_ (blk1_13_read (G1 (Cert.Spec.cen y bavg sb) (Cert.Spec.cen y bavg sb) nw) t p z _ hr).symm
  show (dat1 V c).after 13 t (ix2 p z) = _
  rw [after1_13]
  refine (r1_pay3_apply _ _).trans ?_
  rw [(acc1_last H t h7 p z _ hr).2.2]
  exact (G1_apply _ _ nw _).symm

/-- A row of output array 13 is in point `t`'s block iff each coordinate is in the block's range on its axis. -/
theorem mem_blk1_13 (t : Fin cfg1.N) (i : S8192x1.Idx) :
    i ∈ ((cfg1.win 13).blk t).view.set ↔ ∀ a : Fin 2, win1_13.index t a * S512x1.size a ≤ (i a).val
      ∧ (i a).val < win1_13.index t a * S512x1.size a + S512x1.size a := by
  show i ∈ ((View.whole main_v41_2).slice (win1_13.rect t)).set ↔ _
  rw [View.set_slice_whole, Rect.mem_set_unit]
  exact Iff.rfl

/-- Every row of output array 13 is in the block of its row tile's last point, which writes back. -/
theorem cover1_13 (i : S8192x1.Idx) :
    ∃ t : Fin cfg1.N, (cfg1.win 13).flush t = true ∧ i ∈ ((cfg1.win 13).blk t).view.set := by
  have h0 : (i 0).val < 8192 := (i 0).isLt
  have h1 : (i 1).val < 1 := (i 1).isLt
  have hN : cfg1.N = 128 := N_1
  obtain ⟨t, ht⟩ : ∃ t : Fin cfg1.N, t.val = 8 * ((i 0).val / 512) + 7 := ⟨⟨8 * ((i 0).val / 512) + 7, by omega⟩, rfl⟩
  refine ⟨t, (flush1_13 t).mpr (by omega), ?_⟩
  rw [mem_blk1_13]
  obtain ⟨e0, e1⟩ := idx1_13 t
  intro a
  match a with
  | ⟨0, _⟩ =>
    show win1_13.index t (0 : Fin 2) * 512 ≤ (i 0).val ∧ (i 0).val < win1_13.index t (0 : Fin 2) * 512 + 512
    omega
  | ⟨1, _⟩ =>
    show win1_13.index t (1 : Fin 2) * 1 ≤ (i 1).val ∧ (i 1).val < win1_13.index t (1 : Fin 2) * 1 + 1
    omega

/-- Output array 13 after the region: the rows' weighted means of B * B. -/
theorem final1_13 {c : Dev nD} {x y nw aavg bavg : Fin 8192 → EReal} {sa sb : EReal}
    (H : Reads1 V c x y nw aavg bavg sa sb) :
    (dat1 V c).arrAt 13 cfg1.N = G1 (Cert.Spec.cen y bavg sb) (Cert.Spec.cen y bavg sb) nw :=
  (dat1 V c).arrAt_eq_of_cover 13 (G1 (Cert.Spec.cen y bavg sb) (Cert.Spec.cen y bavg sb) nw) (fun t hf => flushed1_13 H t hf) cover1_13

/-- The three output arrays of the second pass, row by row, from the arrays the region finds read as vectors. -/
theorem rows1 (V : (c : Dev nD) → (b : Ref sig .tc) → Buf (Elt Ideal) ((c : Thread nD τ).loc b)) (c : Dev nD)
    (x y nw aavg bavg : Fin 8192 → EReal) (sa sb : EReal)
    (h23 : ∀ l, (V c main_v23 : S8192x1.Idx → EReal) (ix2 l 0) = x l)
    (h24 : ∀ l, (V c main_v24 : S1x8192.Idx → EReal) (ix2 0 l) = x l)
    (h25 : ∀ l, (V c main_v25 : S8192x1.Idx → EReal) (ix2 l 0) = y l)
    (h26 : ∀ l, (V c main_v26 : S1x8192.Idx → EReal) (ix2 0 l) = y l)
    (h28a : ∀ l, (V c main_v28_0 : S8192x1.Idx → EReal) (ix2 l 0) = aavg l)
    (h39 : ∀ l, (V c main_v39 : S1x8192.Idx → EReal) (ix2 0 l) = aavg l)
    (h28b : ∀ l, (V c main_v28_1 : S8192x1.Idx → EReal) (ix2 l 0) = bavg l)
    (h40 : ∀ l, (V c main_v40 : S1x8192.Idx → EReal) (ix2 0 l) = bavg l)
    (h37 : (V c main_v37 : S1x1.Idx → EReal) (ix2 0 0) = sa)
    (h38 : (V c main_v38 : S1x1.Idx → EReal) (ix2 0 0) = sb)
    (h27 : ∀ l, (V c main_v27 : S1x8192.Idx → EReal) (ix2 0 l) = nw l) (r : Fin 8192) :
    ((dat1 (F := Ideal) V c).arrAt 11 cfg1.N : S8192x1.Idx → EReal) (ix2 r 0)
        = Cert.Spec.rowProd (Cert.Spec.cen x aavg sa) (Cert.Spec.cen y bavg sb) nw r
      ∧ ((dat1 (F := Ideal) V c).arrAt 12 cfg1.N : S8192x1.Idx → EReal) (ix2 r 0)
        = Cert.Spec.rowProd (Cert.Spec.cen x aavg sa) (Cert.Spec.cen x aavg sa) nw r
      ∧ ((dat1 (F := Ideal) V c).arrAt 13 cfg1.N : S8192x1.Idx → EReal) (ix2 r 0)
        = Cert.Spec.rowProd (Cert.Spec.cen y bavg sb) (Cert.Spec.cen y bavg sb) nw r := by
  have H : Reads1 V c x y nw aavg bavg sa sb := ⟨h23, h24, h25, h26, h28a, h39, h28b, h40, h37, h38, h27⟩
  exact ⟨(congrFun (final1_11 H) (ix2 r 0)).trans (G1_row _ _ nw r),
    (congrFun (final1_12 H) (ix2 r 0)).trans (G1_row _ _ nw r),
    (congrFun (final1_13 H) (ix2 r 0)).trans (G1_row _ _ nw r)⟩

end Cert.Val

end
-- ==== Proof.Val.Host.lean ====
/-
  The three stretches of host operations together: what the later stretches read of the earlier ones' results.

  No pass and no later stretch writes the cross-entropy term, the normalised weights or the recast arguments, so each is,
  wherever it is read, what the first stretch computed; and the program's result is the shared scalar arithmetic applied
  to the second pass's three result columns.
-/
import proofs.«174926_j17231408792190_1_alg».proof.Proof.Val.Host0
import proofs.«174926_j17231408792190_1_alg».proof.Proof.Val.Host1
import proofs.«174926_j17231408792190_1_alg».proof.Proof.Val.Host2

set_option maxRecDepth 16384

noncomputable section

namespace Cert.Val

open Cert.KernelIdeal Cert.KernelIdeal.Gen Cert.KernelIdeal.Hand
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-! ## After the first pass -/

theorem W2_v17 : W2 m ρ c main_v17 = W1 m ρ c main_v17 := W2_of_ne m ρ c main_v17 (by decide)
theorem W2_v22 : W2 m ρ c main_v22 = W1 m ρ c main_v22 := W2_of_ne m ρ c main_v22 (by decide)

/-- The first pass only reads its five input arrays: each is afterwards what the first stretch wrote. -/
theorem W2_v23 : W2 m ρ c main_v23 = W1 m ρ c main_v23 :=
  (W2_arr m ρ c 0).trans (((dat0 (V1 m ρ) c).arrAt_in 0 rfl _).trans (A_eq0 (V1 m ρ) c 0))
theorem W2_v24 : W2 m ρ c main_v24 = W1 m ρ c main_v24 :=
  (W2_arr m ρ c 1).trans (((dat0 (V1 m ρ) c).arrAt_in 1 rfl _).trans (A_eq0 (V1 m ρ) c 1))
theorem W2_v25 : W2 m ρ c main_v25 = W1 m ρ c main_v25 :=
  (W2_arr m ρ c 2).trans (((dat0 (V1 m ρ) c).arrAt_in 2 rfl _).trans (A_eq0 (V1 m ρ) c 2))
theorem W2_v26 : W2 m ρ c main_v26 = W1 m ρ c main_v26 :=
  (W2_arr m ρ c 3).trans (((dat0 (V1 m ρ) c).arrAt_in 3 rfl _).trans (A_eq0 (V1 m ρ) c 3))
theorem W2_v27 : W2 m ρ c main_v27 = W1 m ρ c main_v27 :=
  (W2_arr m ρ c 4).trans (((dat0 (V1 m ρ) c).arrAt_in 4 rfl _).trans (A_eq0 (V1 m ρ) c 4))

/-- The normalised weights the second stretch multiplies by are the reference's. -/
theorem W2_v22_ref :
    (W2 m ρ c main_v22 : RowV) = Cert.ReferenceIdeal.Read.val_main_v22 (F := Ideal) (arg3 m c) :=
  (W2_v22 m ρ c).trans (W1_v22 m ρ c)

/-! ## What the second pass reads of the first stretch and of the first pass -/

theorem W3_v17 : W3 m ρ c main_v17 = W1 m ρ c main_v17 := (W3_of m ρ c main_v17 (by decide)).trans (W2_v17 m ρ c)
theorem W3_v22 : W3 m ρ c main_v22 = W1 m ρ c main_v22 := (W3_of m ρ c main_v22 (by decide)).trans (W2_v22 m ρ c)
theorem W3_v23 : W3 m ρ c main_v23 = W1 m ρ c main_v23 :=
  (W3_of m ρ c main_v23 (by decide)).trans (W2_v23 m ρ c)
theorem W3_v24 : W3 m ρ c main_v24 = W1 m ρ c main_v24 :=
  (W3_of m ρ c main_v24 (by decide)).trans (W2_v24 m ρ c)
theorem W3_v25 : W3 m ρ c main_v25 = W1 m ρ c main_v25 :=
  (W3_of m ρ c main_v25 (by decide)).trans (W2_v25 m ρ c)
theorem W3_v26 : W3 m ρ c main_v26 = W1 m ρ c main_v26 :=
  (W3_of m ρ c main_v26 (by decide)).trans (W2_v26 m ρ c)
theorem W3_v27 : W3 m ρ c main_v27 = W1 m ρ c main_v27 :=
  (W3_of m ρ c main_v27 (by decide)).trans (W2_v27 m ρ c)
theorem W3_v28_0 : W3 m ρ c main_v28_0 = W2 m ρ c main_v28_0 := W3_of m ρ c main_v28_0 (by decide)
theorem W3_v28_1 : W3 m ρ c main_v28_1 = W2 m ρ c main_v28_1 := W3_of m ρ c main_v28_1 (by decide)

/-! ## After the second pass -/

theorem W4_v17 : W4 m ρ c main_v17 = W1 m ρ c main_v17 := (W4_of_ne m ρ c main_v17 (by decide)).trans (W3_v17 m ρ c)
theorem W4_v22 : W4 m ρ c main_v22 = W1 m ρ c main_v22 := (W4_of_ne m ρ c main_v22 (by decide)).trans (W3_v22 m ρ c)

/-- The cross-entropy term the last stretch adds to is the reference's. -/
theorem W4_v17_ref :
    (W4 m ρ c main_v17 : Scal)
      = Cert.ReferenceIdeal.Read.val_main_v17 (F := Ideal) (arg0 m c) (arg1 m c) (arg3 m c) :=
  (W4_v17 m ρ c).trans (W1_v17 m ρ c)

/-- The normalised weights the last stretch multiplies by are the reference's. -/
theorem W4_v22_ref :
    (W4 m ρ c main_v22 : RowV) = Cert.ReferenceIdeal.Read.val_main_v22 (F := Ideal) (arg3 m c) :=
  (W4_v22 m ρ c).trans (W1_v22 m ρ c)

/-- The program's result: the shared scalar arithmetic of the reference's cross-entropy term, the second pass's three
    result columns recast as vectors, and the reference's normalised weights. -/
theorem W5_v58_ref :
    (W5 m ρ c main_v58 : Scal)
      = tail58 (Cert.ReferenceIdeal.Read.val_main_v17 (F := Ideal) (arg0 m c) (arg1 m c) (arg3 m c))
          (tail56 (colVec (Y0 m ρ c)) (colVec (Y1 m ρ c)) (colVec (Y2 m ρ c))
            (Cert.ReferenceIdeal.Read.val_main_v22 (F := Ideal) (arg3 m c))) := by
  rw [W5_v58, W5_v56, W4_v17_ref, W4_v22_ref]

end Cert.Val

end
-- ==== Proof.Ref.RefRows.lean ====
/-
  The reference's distance-correlation stages, read at one index, as the pure functions of Spec.lean.

  The reference builds each [8192, 8192] matrix by broadcasts of vectors and elementwise operations, and each row mean as
  a float sum along axis 1 divided by 8192. Read at the index (i, l) a broadcast along axis 0 is its vector at l and a
  broadcast along axis 1 is its vector at i, so
    * the distance matrix at (i, l) is |x i - x l|,
    * the centred matrix at (i, l) is ((|x i - x l| - avg l) - avg i) + s,
  and a row mean at i is (0 + the sum over l of the summand at (i, l)) / 8192. No matrix is ever evaluated: every
  statement is about one symbolic index.
-/
import proofs.«174926_j17231408792190_1_alg».proof.Proof.Gen.ReferenceIdeal.Read
import Idealize.ShloMosaic.Lib.ValueIdx
import proofs.«174926_j17231408792190_1_alg».proof.Proof.Ref.Spec

noncomputable section

open scoped BigOperators

namespace Cert.RefRows

open Cert.ReferenceIdeal Cert.ReferenceIdeal.Read Idealize.ShloMosaic Idealize.ShloMosaic.ValueIdx

variable (a0 a2 a3 : (⟨S8192, .f32⟩ : BufTy).Contents (Elt Ideal))

/-! ## Index equations: the generated index maps at indices given by coordinates -/

/-- The row-sum index of row `i`, summand `k`, is the matrix index `(i, k)`. -/
theorem idx_row (i k : Fin 8192) : idx_main_v38 (ix1 i) k = ix2 i k :=
  funext fun a => Fin.ext (by match a with | ⟨0, _⟩ => rfl | ⟨1, _⟩ => rfl)

/-- A vector broadcast along axis 1 then axis 0 is read at the column coordinate. -/
theorem idx_col (i l : Fin 8192) : idx_main_v24 (idx_main_v26 (ix2 i l)) = ix1 l :=
  funext fun a => Fin.ext (by match a with | ⟨0, _⟩ => rfl)

/-- A vector broadcast along axis 0 then axis 1 is read at the row coordinate. -/
theorem idx_rowc (i l : Fin 8192) : idx_main_v23 (idx_main_v25 (ix2 i l)) = ix1 i :=
  funext fun a => Fin.ext (by match a with | ⟨0, _⟩ => rfl)

/-! ## The matrices at an index -/

/-- The distance matrix of `x` at `(i, l)` is `|x i - x l|`. -/
theorem v28_at (i l : Fin 8192) :
    val_main_v28 (F := Ideal) a0 (ix2 i l)
      = max (a0 (ix1 i) - a0 (ix1 l)) (-(a0 (ix1 i) - a0 (ix1 l))) := by
  rw [val_main_v28_apply, val_main_v27_apply, val_main_v25_apply, val_main_v26_apply, val_main_v23_apply,
    val_main_v24_apply, idx_col, idx_rowc]
  simp only [Ideal.hostAbsf_def, Ideal.absf_def, Ideal.subf_def]

/-- The distance matrix of `y` at `(i, l)` is `|y i - y l|`. -/
theorem v34_at (i l : Fin 8192) :
    val_main_v34 (F := Ideal) a2 (ix2 i l)
      = max (a2 (ix1 i) - a2 (ix1 l)) (-(a2 (ix1 i) - a2 (ix1 l))) := by
  rw [val_main_v34_apply, val_main_v33_apply, val_main_v31_apply, val_main_v32_apply, val_main_v29_apply,
    val_main_v30_apply]
  rw [show idx_main_v30 (idx_main_v32 (ix2 i l)) = ix1 l from idx_col i l,
    show idx_main_v29 (idx_main_v31 (ix2 i l)) = ix1 i from idx_rowc i l]
  simp only [Ideal.hostAbsf_def, Ideal.absf_def, Ideal.subf_def]

/-- The weights broadcast to a matrix are read at the column coordinate. -/
theorem v36_at (i l : Fin 8192) :
    val_main_v36 (F := Ideal) a3 (ix2 i l) = val_main_v22 (F := Ideal) a3 (ix1 l) := by
  rw [val_main_v36_apply, val_main_v35_apply]
  exact congrArg _ (idx_col i l)

/-- The weighted row mean of the distance matrix of `x`. -/
theorem ref_v40 (i : Fin 8192) :
    val_main_v40 (F := Ideal) a0 a3 (ix1 i)
      = Spec.rowAvg (fun l => a0 (ix1 l)) (fun l => val_main_v22 (F := Ideal) a3 (ix1 l)) i := by
  rw [val_main_v40_apply, val_main_v38_apply, val_main_v39_apply, val_main_cst_5_apply, val_main_cst_4_apply]
  unfold Spec.rowAvg
  simp only [Ideal.hostDivf_def, Ideal.ofBits_def]
  refine congrArg (fun s => Ideal.div (_ + s) _) (Finset.sum_congr rfl fun k _ => ?_)
  rw [idx_row, val_main_v37_apply, v28_at, v36_at]
  simp only [Ideal.mulf_def]

/-- The weighted row mean of the distance matrix of `y`. -/
theorem ref_v57 (i : Fin 8192) :
    val_main_v57 (F := Ideal) a2 a3 (ix1 i)
      = Spec.rowAvg (fun l => a2 (ix1 l)) (fun l => val_main_v22 (F := Ideal) a3 (ix1 l)) i := by
  rw [val_main_v57_apply, val_main_v55_apply, val_main_v56_apply, val_main_cst_9_apply, val_main_cst_8_apply]
  unfold Spec.rowAvg
  simp only [Ideal.hostDivf_def, Ideal.ofBits_def]
  refine congrArg (fun s => Ideal.div (_ + s) _) (Finset.sum_congr rfl fun k _ => ?_)
  rw [show idx_main_v55 (ix1 i) k = ix2 i k from idx_row i k, val_main_v54_apply, v34_at,
    show val_main_v53 (F := Ideal) a3 (ix2 i k) = val_main_v22 (F := Ideal) a3 (ix1 k) from v36_at a3 i k]
  simp only [Ideal.mulf_def]

/-! ## The centred matrices at an index -/

/-- The row means of `x` broadcast along the columns are read at the column coordinate. -/
theorem v42_at (i l : Fin 8192) :
    val_main_v42 (F := Ideal) a0 a3 (ix2 i l) = val_main_v40 (F := Ideal) a0 a3 (ix1 l) := by
  rw [val_main_v42_apply, val_main_v41_apply]
  exact congrArg _ (idx_col i l)

/-- The row means of `x` broadcast along the rows are read at the row coordinate. -/
theorem v45_at (i l : Fin 8192) :
    val_main_v45 (F := Ideal) a0 a3 (ix2 i l) = val_main_v40 (F := Ideal) a0 a3 (ix1 i) := by
  rw [val_main_v45_apply, val_main_v44_apply]
  exact congrArg _ (idx_rowc i l)

/-- The grand mean of `x` broadcast to a matrix is the scalar. -/
theorem v50_at (i l : Fin 8192) :
    val_main_v50 (F := Ideal) a0 a3 (ix2 i l) = val_main_v49 (F := Ideal) a0 a3 ix0 := by
  rw [val_main_v50_apply]

/-- The centred distance matrix of `x` at `(i, l)`. -/
theorem v51_at (i l : Fin 8192) :
    val_main_v51 (F := Ideal) a0 a3 (ix2 i l)
      = Spec.cen (fun l => a0 (ix1 l)) (fun l => val_main_v40 (F := Ideal) a0 a3 (ix1 l))
          (val_main_v49 (F := Ideal) a0 a3 ix0) i l := by
  rw [val_main_v51_apply, val_main_v46_apply, val_main_v43_apply, v28_at, v42_at, v45_at, v50_at]
  unfold Spec.cen
  simp only [Ideal.addf_def, Ideal.subf_def]

/-- The row means of `y` broadcast along the columns are read at the column coordinate. -/
theorem v59_at (i l : Fin 8192) :
    val_main_v59 (F := Ideal) a2 a3 (ix2 i l) = val_main_v57 (F := Ideal) a2 a3 (ix1 l) := by
  rw [val_main_v59_apply, val_main_v58_apply]
  exact congrArg _ (idx_col i l)

/-- The row means of `y` broadcast along the rows are read at the row coordinate. -/
theorem v62_at (i l : Fin 8192) :
    val_main_v62 (F := Ideal) a2 a3 (ix2 i l) = val_main_v57 (F := Ideal) a2 a3 (ix1 i) := by
  rw [val_main_v62_apply, val_main_v61_apply]
  exact congrArg _ (idx_rowc i l)

/-- The grand mean of `y` broadcast to a matrix is the scalar. -/
theorem v67_at (i l : Fin 8192) :
    val_main_v67 (F := Ideal) a2 a3 (ix2 i l) = val_main_v66 (F := Ideal) a2 a3 ix0 := by
  rw [val_main_v67_apply]

/-- The centred distance matrix of `y` at `(i, l)`. -/
theorem v68_at (i l : Fin 8192) :
    val_main_v68 (F := Ideal) a2 a3 (ix2 i l)
      = Spec.cen (fun l => a2 (ix1 l)) (fun l => val_main_v57 (F := Ideal) a2 a3 (ix1 l))
          (val_main_v66 (F := Ideal) a2 a3 ix0) i l := by
  rw [val_main_v68_apply, val_main_v63_apply, val_main_v60_apply, v34_at, v59_at, v62_at, v67_at]
  unfold Spec.cen
  simp only [Ideal.addf_def, Ideal.subf_def]

/-! ## The weighted row means of the products of the centred matrices -/

/-- The weighted row mean of the product of the two centred matrices. -/
theorem ref_v75 (i : Fin 8192) :
    val_main_v75 (F := Ideal) a0 a2 a3 (ix1 i)
      = Spec.rowProd
          (Spec.cen (fun l => a0 (ix1 l)) (fun l => val_main_v40 (F := Ideal) a0 a3 (ix1 l))
            (val_main_v49 (F := Ideal) a0 a3 ix0))
          (Spec.cen (fun l => a2 (ix1 l)) (fun l => val_main_v57 (F := Ideal) a2 a3 (ix1 l))
            (val_main_v66 (F := Ideal) a2 a3 ix0))
          (fun l => val_main_v22 (F := Ideal) a3 (ix1 l)) i := by
  rw [val_main_v75_apply, val_main_v73_apply, val_main_v74_apply, val_main_cst_13_apply, val_main_cst_12_apply]
  unfold Spec.rowProd
  simp only [Ideal.hostDivf_def, Ideal.ofBits_def]
  refine congrArg (fun s => Ideal.div (_ + s) _) (Finset.sum_congr rfl fun k _ => ?_)
  rw [show idx_main_v73 (ix1 i) k = ix2 i k from idx_row i k, val_main_v72_apply, val_main_v69_apply, v51_at, v68_at,
    show val_main_v71 (F := Ideal) a3 (ix2 i k) = val_main_v22 (F := Ideal) a3 (ix1 k) from v36_at a3 i k]
  simp only [Ideal.mulf_def]

/-- The weighted row mean of the square of the centred matrix of `x`. -/
theorem ref_v82 (i : Fin 8192) :
    val_main_v82 (F := Ideal) a0 a3 (ix1 i)
      = Spec.rowProd
          (Spec.cen (fun l => a0 (ix1 l)) (fun l => val_main_v40 (F := Ideal) a0 a3 (ix1 l))
            (val_main_v49 (F := Ideal) a0 a3 ix0))
          (Spec.cen (fun l => a0 (ix1 l)) (fun l => val_main_v40 (F := Ideal) a0 a3 (ix1 l))
            (val_main_v49 (F := Ideal) a0 a3 ix0))
          (fun l => val_main_v22 (F := Ideal) a3 (ix1 l)) i := by
  rw [val_main_v82_apply, val_main_v80_apply, val_main_v81_apply, val_main_cst_15_apply, val_main_cst_14_apply]
  unfold Spec.rowProd
  simp only [Ideal.hostDivf_def, Ideal.ofBits_def]
  refine congrArg (fun s => Ideal.div (_ + s) _) (Finset.sum_congr rfl fun k _ => ?_)
  rw [show idx_main_v80 (ix1 i) k = ix2 i k from idx_row i k, val_main_v79_apply, val_main_v76_apply, v51_at,
    show val_main_v78 (F := Ideal) a3 (ix2 i k) = val_main_v22 (F := Ideal) a3 (ix1 k) from v36_at a3 i k]
  simp only [Ideal.mulf_def]

/-- The weighted row mean of the square of the centred matrix of `y`. -/
theorem ref_v89 (i : Fin 8192) :
    val_main_v89 (F := Ideal) a2 a3 (ix1 i)
      = Spec.rowProd
          (Spec.cen (fun l => a2 (ix1 l)) (fun l => val_main_v57 (F := Ideal) a2 a3 (ix1 l))
            (val_main_v66 (F := Ideal) a2 a3 ix0))
          (Spec.cen (fun l => a2 (ix1 l)) (fun l => val_main_v57 (F := Ideal) a2 a3 (ix1 l))
            (val_main_v66 (F := Ideal) a2 a3 ix0))
          (fun l => val_main_v22 (F := Ideal) a3 (ix1 l)) i := by
  rw [val_main_v89_apply, val_main_v87_apply, val_main_v88_apply, val_main_cst_17_apply, val_main_cst_16_apply]
  unfold Spec.rowProd
  simp only [Ideal.hostDivf_def, Ideal.ofBits_def]
  refine congrArg (fun s => Ideal.div (_ + s) _) (Finset.sum_congr rfl fun k _ => ?_)
  rw [show idx_main_v87 (ix1 i) k = ix2 i k from idx_row i k, val_main_v86_apply, val_main_v83_apply, v68_at,
    show val_main_v85 (F := Ideal) a3 (ix2 i k) = val_main_v22 (F := Ideal) a3 (ix1 k) from v36_at a3 i k]
  simp only [Ideal.mulf_def]

end Cert.RefRows
-- ==== Proof.Val.Bridge.lean ====
/-
  From the two passes' rows to the reference's stages.

  The first pass reads the first and third argument vectors (as columns and as rows) and the normalised weights (as a
  row), so its two result columns hold the weighted row means of the two distance matrices: the reference's row means.
  Between the passes the program recasts these columns as rows and takes their weighted means, which are the reference's
  grand means; every other buffer the second pass reads is as the first pass found it. So the second pass's three result
  columns hold the weighted row means of the products of the centred distance matrices: the reference's three row means.
-/
import proofs.«174926_j17231408792190_1_alg».proof.Proof.KI.Fold
import proofs.«174926_j17231408792190_1_alg».proof.Proof.Val.Rows0
import proofs.«174926_j17231408792190_1_alg».proof.Proof.Val.Rows1
import proofs.«174926_j17231408792190_1_alg».proof.Proof.Val.Host
import proofs.«174926_j17231408792190_1_alg».proof.Proof.Ref.RefRows

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The two vectors, the normalised weights, the two vectors of row means and the two grand means, as the reference has them. -/
abbrev xv : Fin 8192 → EReal := fun l => arg0 m c (ix1 l)
abbrev yv : Fin 8192 → EReal := fun l => arg2 m c (ix1 l)
abbrev nwv : Fin 8192 → EReal := fun l => Cert.ReferenceIdeal.Read.val_main_v22 (F := Ideal) (arg3 m c) (ix1 l)
abbrev aav : Fin 8192 → EReal := fun l => Cert.ReferenceIdeal.Read.val_main_v40 (F := Ideal) (arg0 m c) (arg3 m c) (ix1 l)
abbrev bav : Fin 8192 → EReal := fun l => Cert.ReferenceIdeal.Read.val_main_v57 (F := Ideal) (arg2 m c) (arg3 m c) (ix1 l)
abbrev sav : EReal := Cert.ReferenceIdeal.Read.val_main_v49 (F := Ideal) (arg0 m c) (arg3 m c) ix0
abbrev sbv : EReal := Cert.ReferenceIdeal.Read.val_main_v66 (F := Ideal) (arg2 m c) (arg3 m c) ix0

/-! ## The first pass's result columns are the reference's row means -/

/-- The first result column, row by row. -/
theorem E1 (l : Fin 8192) :
    (W2 m ρ c main_v28_0 : S8192x1.Idx → EReal) (ix2 l 0)
      = Cert.ReferenceIdeal.Read.val_main_v40 (F := Ideal) (arg0 m c) (arg3 m c) (ix1 l) :=
  (congrFun (W2_arr m ρ c 5) (ix2 l 0)).trans
    (((rows0 (V1 m ρ) c (xv m c) (yv m c) (nwv m c) (fun l => W1_v23 m ρ c l 0) (fun l => W1_v24 m ρ c 0 l)
      (fun l => W1_v25 m ρ c l 0) (fun l => W1_v26 m ρ c 0 l) (fun l => W1_v27 m ρ c 0 l) l).1).trans
      (Cert.RefRows.ref_v40 (arg0 m c) (arg3 m c) l).symm)

/-- The second result column, row by row. -/
theorem E2 (l : Fin 8192) :
    (W2 m ρ c main_v28_1 : S8192x1.Idx → EReal) (ix2 l 0)
      = Cert.ReferenceIdeal.Read.val_main_v57 (F := Ideal) (arg2 m c) (arg3 m c) (ix1 l) :=
  (congrFun (W2_arr m ρ c 6) (ix2 l 0)).trans
    (((rows0 (V1 m ρ) c (xv m c) (yv m c) (nwv m c) (fun l => W1_v23 m ρ c l 0) (fun l => W1_v24 m ρ c 0 l)
      (fun l => W1_v25 m ρ c l 0) (fun l => W1_v26 m ρ c 0 l) (fun l => W1_v27 m ρ c 0 l) l).2).trans
      (Cert.RefRows.ref_v57 (arg2 m c) (arg3 m c) l).symm)

/-! ## What the second pass reads -/

/-- The first result column recast as a vector is the reference's vector of row means. -/
theorem colVec_X0 :
    colVec (X0 m ρ c) = Cert.ReferenceIdeal.Read.val_main_v40 (F := Ideal) (arg0 m c) (arg3 m c) := by
  funext j
  obtain ⟨l, rfl⟩ : ∃ l : Fin 8192, j = ix1 l := ⟨j 0, eq_ix1 j⟩
  exact (colVec_apply (X0 m ρ c) l).trans (E1 m ρ c l)

/-- The second result column recast as a vector is the reference's second vector of row means. -/
theorem colVec_X1 :
    colVec (X1 m ρ c) = Cert.ReferenceIdeal.Read.val_main_v57 (F := Ideal) (arg2 m c) (arg3 m c) := by
  funext j
  obtain ⟨l, rfl⟩ : ∃ l : Fin 8192, j = ix1 l := ⟨j 0, eq_ix1 j⟩
  exact (colVec_apply (X1 m ρ c) l).trans (E2 m ρ c l)

/-- The first grand term the second pass reads is the reference's weighted mean of its row means. -/
theorem W3_v37_eq : (W3 m ρ c main_v37 : S1x1.Idx → EReal) (ix2 0 0) = sav m c := by
  refine (W3_v37 m ρ c 0 0).trans ?_
  rw [colVec_X0, W2_v22_ref, ← ref_v49]

/-- The second grand term the second pass reads is the reference's weighted mean of its second row means. -/
theorem W3_v38_eq : (W3 m ρ c main_v38 : S1x1.Idx → EReal) (ix2 0 0) = sbv m c := by
  refine (W3_v38 m ρ c 0 0).trans ?_
  rw [colVec_X1, W2_v22_ref, ← ref_v66]

/-- The arrays the second pass finds, read as the reference's vectors and scalars. -/
theorem reads3 : Reads1 (V3 m ρ) c (xv m c) (yv m c) (nwv m c) (aav m c) (bav m c) (sav m c) (sbv m c) where
  h23 l := (congrFun (W3_v23 m ρ c) (ix2 l 0)).trans (W1_v23 m ρ c l 0)
  h24 l := (congrFun (W3_v24 m ρ c) (ix2 0 l)).trans (W1_v24 m ρ c 0 l)
  h25 l := (congrFun (W3_v25 m ρ c) (ix2 l 0)).trans (W1_v25 m ρ c l 0)
  h26 l := (congrFun (W3_v26 m ρ c) (ix2 0 l)).trans (W1_v26 m ρ c 0 l)
  h28a l := (congrFun (W3_v28_0 m ρ c) (ix2 l 0)).trans (E1 m ρ c l)
  h39 l := (W3_v39 m ρ c 0 l).trans (E1 m ρ c l)
  h28b l := (congrFun (W3_v28_1 m ρ c) (ix2 l 0)).trans (E2 m ρ c l)
  h40 l := (W3_v40 m ρ c 0 l).trans (E2 m ρ c l)
  h37 := W3_v37_eq m ρ c
  h38 := W3_v38_eq m ρ c
  h27 l := (congrFun (W3_v27 m ρ c) (ix2 0 l)).trans (W1_v27 m ρ c 0 l)

/-! ## The second pass's result columns are the reference's three row means -/

/-- The first result column of the second pass, row by row. -/
theorem E3 (l : Fin 8192) :
    (W4 m ρ c main_v41_0 : S8192x1.Idx → EReal) (ix2 l 0)
      = Cert.ReferenceIdeal.Read.val_main_v75 (F := Ideal) (arg0 m c) (arg2 m c) (arg3 m c) (ix1 l) :=
  (congrFun (W4_arr m ρ c 11) (ix2 l 0)).trans
    ((congrFun (final1_11 (reads3 m ρ c)) (ix2 l 0)).trans
      ((G1_row _ _ _ l).trans (Cert.RefRows.ref_v75 (arg0 m c) (arg2 m c) (arg3 m c) l).symm))

/-- The second result column of the second pass, row by row. -/
theorem E4 (l : Fin 8192) :
    (W4 m ρ c main_v41_1 : S8192x1.Idx → EReal) (ix2 l 0)
      = Cert.ReferenceIdeal.Read.val_main_v82 (F := Ideal) (arg0 m c) (arg3 m c) (ix1 l) :=
  (congrFun (W4_arr m ρ c 12) (ix2 l 0)).trans
    ((congrFun (final1_12 (reads3 m ρ c)) (ix2 l 0)).trans
      ((G1_row _ _ _ l).trans (Cert.RefRows.ref_v82 (arg0 m c) (arg3 m c) l).symm))

/-- The third result column of the second pass, row by row. -/
theorem E5 (l : Fin 8192) :
    (W4 m ρ c main_v41_2 : S8192x1.Idx → EReal) (ix2 l 0)
      = Cert.ReferenceIdeal.Read.val_main_v89 (F := Ideal) (arg2 m c) (arg3 m c) (ix1 l) :=
  (congrFun (W4_arr m ρ c 13) (ix2 l 0)).trans
    ((congrFun (final1_13 (reads3 m ρ c)) (ix2 l 0)).trans
      ((G1_row _ _ _ l).trans (Cert.RefRows.ref_v89 (arg2 m c) (arg3 m c) l).symm))

end Cert.Val

end
-- ==== Proof.lean ====
/-
  The certificate's five claims.
  The two kernel programs' frames: the program is five items — host operations, the first pass, host operations,
  the second pass, host operations —; each pass is run grid point by grid point with its scratch accumulators
  carried from point to point, and no item writes an argument array. The reference's frame is its run with the
  results dropped. The idealization rewrote nothing. At the exact instance the two programs compute the same three
  numbers: the first 23 host operations and the scalar tails are the same operations, and each pass's rows are the
  reference's row means because a sum over 8192 columns is the sum of its 8 tiles' sums of 1024.
-/
import proofs.«174926_j17231408792190_1_alg».proof.Defs
import proofs.«174926_j17231408792190_1_alg».proof.Proof.Gen.Kernel
import proofs.«174926_j17231408792190_1_alg».proof.Proof.Gen.KernelIdeal
import proofs.«174926_j17231408792190_1_alg».proof.Proof.Gen.ReferenceIdeal
import proofs.«174926_j17231408792190_1_alg».proof.Proof.Gen.Pre_finite_inputs
import proofs.«174926_j17231408792190_1_alg».proof.Proof.Gen.ReferenceIdeal.Run
import proofs.«174926_j17231408792190_1_alg».proof.Proof.KB.Frame
import proofs.«174926_j17231408792190_1_alg».proof.Proof.KI.Frame
import proofs.«174926_j17231408792190_1_alg».proof.Proof.Val.Final
import proofs.«174926_j17231408792190_1_alg».proof.Proof.Val.Bridge
import proofs.«174926_j17231408792190_1_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

open Cert.KernelIdeal Cert.KernelIdeal.Gen Cert.KernelIdeal.Hand Cert.Val in
/-- The kernel program's second result is the reference's: the second pass's three row vectors are the reference's
    (the bridge), and the scalar tail is the same operations. -/
theorem K56 (m : (ℓ : Loc nD τ sig) → Buf (Elt Ideal) ℓ) (ρ : Dev nD → PrngReg) (c : Dev nD) :
    (W5 m ρ c main_v56 : Scal) = Cert.ReferenceIdeal.Read.val_main_v101 (F := Ideal) (arg0 m c) (arg2 m c) (arg3 m c) :=
  K56_of_rows m ρ c (E3 m ρ c) (E4 m ρ c) (E5 m ρ c)

open Cert.KernelIdeal Cert.KernelIdeal.Gen Cert.KernelIdeal.Hand Cert.Val in
/-- Likewise the third result. -/
theorem K58 (m : (ℓ : Loc nD τ sig) → Buf (Elt Ideal) ℓ) (ρ : Dev nD → PrngReg) (c : Dev nD) :
    (W5 m ρ c main_v58 : Scal) = Cert.ReferenceIdeal.Read.val_main_v103 (F := Ideal) (arg0 m c) (arg1 m c) (arg2 m c) (arg3 m c) :=
  K58_of_rows m ρ c (E3 m ρ c) (E4 m ρ c) (E5 m ρ c)

open Cert.KernelIdeal.Hand Cert.Val in
/-- Both programs, from memories agreeing on the arguments, end with the reference's three stages of the arguments:
    the kernel program by its whole run and the three result buffers read through the fold, the reference by its
    generated run. -/
theorem algebraic : Cert.algebraic_KernelIdeal_ReferenceIdeal := by
  intro m ρ m' ρ' _ hagree
  refine ⟨fun c => Cert.ReferenceIdeal.Read.val_main_v17 (F := Ideal) (arg0 m c) (arg1 m c) (arg3 m c),
    fun c => Cert.ReferenceIdeal.Read.val_main_v101 (F := Ideal) (arg0 m c) (arg2 m c) (arg3 m c),
    fun c => Cert.ReferenceIdeal.Read.val_main_v103 (F := Ideal) (arg0 m c) (arg1 m c) (arg2 m c) (arg3 m c), ?_, ?_⟩
  · exact (θ_run Cert.KernelIdeal.defs _ _).mono (fun r h c =>
      ⟨(h c _ (mem_uc Cert.KernelIdeal.main_v17 (by decide))).trans (K17 m ρ c),
       (h c _ (mem_uc Cert.KernelIdeal.main_v56 (by decide))).trans (K56 m ρ c),
       (h c _ (mem_uc Cert.KernelIdeal.main_v58 (by decide))).trans (K58 m ρ c),
       (h c _ (mem_uc Cert.KernelIdeal.main_arg0 (by decide))).trans (W5_kept m ρ c Cert.KernelIdeal.main_arg0 (by decide) (by decide) (by decide) (by decide) (by decide)),
       (h c _ (mem_uc Cert.KernelIdeal.main_arg1 (by decide))).trans (W5_kept m ρ c Cert.KernelIdeal.main_arg1 (by decide) (by decide) (by decide) (by decide) (by decide)),
       (h c _ (mem_uc Cert.KernelIdeal.main_arg2 (by decide))).trans (W5_kept m ρ c Cert.KernelIdeal.main_arg2 (by decide) (by decide) (by decide) (by decide) (by decide)),
       (h c _ (mem_uc Cert.KernelIdeal.main_arg3 (by decide))).trans (W5_kept m ρ c Cert.KernelIdeal.main_arg3 (by decide) (by decide) (by decide) (by decide) (by decide))⟩)
      (run_all m ρ)
  · refine (θ_run Cert.ReferenceIdeal.defs _ _).mono (fun r h c => ?_) (Cert.ReferenceIdeal.Value.run (F := Ideal) m' ρ')
    obtain ⟨h17, h101, h103, hargs⟩ := h c
    obtain ⟨e0, e1, e2, e3⟩ := hagree c
    refine ⟨h17.trans ?_, h101.trans ?_, h103.trans ?_, hargs⟩
    · rw [e0, e1, e3]; exact Cert.ReferenceIdeal.Read.val_main_v17_eq _ _ _
    · rw [Cert.ReferenceIdeal.Read.val_main_v101_eq, e0, e2, e3]
    · rw [Cert.ReferenceIdeal.Read.val_main_v103_eq, e0, e1, e2, e3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
